-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v179)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v179) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v330) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S2x200000 : Shape := ⟨2, ![2, 200000]⟩
abbrev S128x128 : Shape := ⟨2, ![128, 128]⟩
abbrev S128x64 : Shape := ⟨2, ![128, 64]⟩
abbrev S64 : Shape := ⟨1, ![64]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128 : S_.BroadcastsInDim S128 (![] : Fin 0 → Fin S128.rank)
  reducesTo_S128_S_d0 : S128.ReducesTo [0] S_

variable [Facts]

def fn_part3 {F : FTy → Type} [FloatOps F] (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg9 : FVec F S128x64 .f32) (main_arg10 : FVec F S128 .f32) (main_arg11 : FVec F S128 .f32) (main_arg12 : FVec F S128 .f32) (main_arg13 : FVec F S128 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_v48 main_v49 main_v50

def fn_part1 {F : FTy → Type} [FloatOps F] (main_arg6 : FVec F S64 .f32) (main_arg7 : FVec F S128x128 .f32) (main_arg8 : FVec F S128x128 .f32) (main_arg9 : FVec F S128x64 .f32) (main_arg10 : FVec F S128 .f32) (main_arg11 : FVec F S128 .f32) (main_arg12 : FVec F S128 .f32) (main_arg13 : FVec F S128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : IVec S2x800000 32) (main_arg2 : IVec S2x200000 32) (main_arg3 : FVec F S128x128 .f32) (main_arg4 : FVec F S128x128 .f32) (main_arg5 : FVec F S128x64 .f32) (main_arg6 : FVec F S64 .f32) (main_arg7 : FVec F S128x128 .f32) (main_arg8 : FVec F S128x128 .f32) (main_arg9 : FVec F S128x64 .f32) (main_arg10 : FVec F S128 .f32) (main_arg11 : FVec F S128 .f32) (main_arg12 : FVec F S128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S2x200000 : Shape := ⟨2, ![2, 200000]⟩
abbrev S128x128 : Shape := ⟨2, ![128, 128]⟩
abbrev S128x64 : Shape := ⟨2, ![128, 64]⟩
abbrev S64 : Shape := ⟨1, ![64]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x200000 : Shape := ⟨2, ![1, 200000]⟩
abbrev S200000 : Shape := ⟨1, ![200000]⟩
abbrev S250000 : Shape := ⟨1, ![250000]⟩
abbrev S250000x1 : Shape := ⟨2, ![250000, 1]⟩
abbrev S5000x128 : Shape := ⟨2, ![5000, 128]⟩
abbrev S850000x128 : Shape := ⟨2, ![850000, 128]⟩
abbrev S250000x128 : Shape := ⟨2, ![250000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S250000x64 : Shape := ⟨2, ![250000, 64]⟩
abbrev S1x64 : Shape := ⟨2, ![1, 64]⟩

abbrev nBuf : Space → Nat
  | .hbm => 243
  | .vmem => 40
  | .smem => 0
  | _ => 0

abbrev hbmTy0_0 (i : Nat) : BufTy := match i % 128 with
  | 0 => ⟨S50000x128, .f32⟩
  | 1 => ⟨S2x800000, .i32⟩
  | 2 => ⟨S2x200000, .i32⟩
  | 3 => ⟨S128x128, .f32⟩
  | 4 => ⟨S128x128, .f32⟩
  | 5 => ⟨S128x64, .f32⟩
  | 6 => ⟨S64, .f32⟩
  | 7 => ⟨S128x128, .f32⟩
  | 8 => ⟨S128x128, .f32⟩
  | 9 => ⟨S128x64, .f32⟩
  | 10 => ⟨S128, .f32⟩
  | 11 => ⟨S128, .f32⟩
  | 12 => ⟨S128, .f32⟩
  | 13 => ⟨S128, .f32⟩
  | 14 => ⟨S50000, .i32⟩
  | 15 => ⟨S1x800000, .i32⟩
  | 16 => ⟨S800000, .i32⟩
  | 17 => ⟨S850000, .i32⟩
  | 18 => ⟨S1x800000, .i32⟩
  | 19 => ⟨S800000, .i32⟩
  | 20 => ⟨S850000, .i32⟩
  | 21 => ⟨S_, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S850000, .f32⟩
  | 54 => ⟨S50000, .i32⟩
  | 55 => ⟨S1x200000, .i32⟩
  | 56 => ⟨S200000, .i32⟩
  | 57 => ⟨S250000, .i32⟩
  | 58 => ⟨S1x200000, .i32⟩
  | 59 => ⟨S200000, .i32⟩
  | 60 => ⟨S250000, .i32⟩
  | 61 => ⟨S_, .f32⟩
  | 62 => ⟨S250000, .f32⟩
  | 63 => ⟨S_, .f32⟩
  | 64 => ⟨S50000, .f32⟩
  | 65 => ⟨S250000x1, .i32⟩
  | 66 => ⟨S50000, .f32⟩
  | 67 => ⟨S_, .f32⟩
  | 68 => ⟨S50000, .f32⟩
  | 69 => ⟨S50000, .i1⟩
  | 70 => ⟨S50000, .f32⟩
  | 71 => ⟨S_, .f32⟩
  | 72 => ⟨S_, .f32⟩
  | 73 => ⟨S50000, .f32⟩
  | 74 => ⟨S50000, .f32⟩
  | 75 => ⟨S_, .i32⟩
  | 76 => ⟨S250000, .i32⟩
  | 77 => ⟨S250000, .i1⟩
  | 78 => ⟨S_, .i32⟩
  | 79 => ⟨S250000, .i32⟩
  | 80 => ⟨S250000, .i32⟩
  | 81 => ⟨S250000, .i32⟩
  | 82 => ⟨S250000x1, .i32⟩
  | 83 => ⟨S250000, .f32⟩
  | 84 => ⟨S_, .i32⟩
  | 85 => ⟨S250000, .i32⟩
  | 86 => ⟨S250000, .i1⟩
  | 87 => ⟨S_, .i32⟩
  | 88 => ⟨S250000, .i32⟩
  | 89 => ⟨S250000, .i32⟩
  | 90 => ⟨S250000, .i32⟩
  | 91 => ⟨S250000x1, .i32⟩
  | 92 => ⟨S250000, .f32⟩
  | 93 => ⟨S250000, .f32⟩
  | 94 => ⟨S50000x128, .f32⟩
  | 95 => ⟨S50000x128, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000x128, .f32⟩
  | 105 => ⟨S850000x1, .f32⟩
  | 106 => ⟨S850000x128, .f32⟩
  | 107 => ⟨S850000x128, .f32⟩
  | 108 => ⟨S_, .f32⟩
  | 109 => ⟨S50000x128, .f32⟩
  | 110 => ⟨S850000x1, .i32⟩
  | 111 => ⟨S50000x128, .f32⟩
  | 112 => ⟨S_, .i32⟩
  | 113 => ⟨S250000, .i32⟩
  | 114 => ⟨S250000, .i1⟩
  | 115 => ⟨S_, .i32⟩
  | 116 => ⟨S250000, .i32⟩
  | 117 => ⟨S250000, .i32⟩
  | 118 => ⟨S250000, .i32⟩
  | 119 => ⟨S250000x1, .i32⟩
  | 120 => ⟨S250000x128, .f32⟩
  | 121 => ⟨S250000x1, .f32⟩
  | 122 => ⟨S250000x128, .f32⟩
  | 123 => ⟨S250000x128, .f32⟩
  | 124 => ⟨S_, .f32⟩
  | 125 => ⟨S50000x128, .f32⟩
  | 126 => ⟨S250000x1, .i32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S128, .f32⟩
  | 4 => ⟨S_, .f32⟩
  | 5 => ⟨S128, .f32⟩
  | 6 => ⟨S128, .f32⟩
  | 7 => ⟨S1x128, .f32⟩
  | 8 => ⟨S50000x128, .f32⟩
  | 9 => ⟨S50000x128, .f32⟩
  | 10 => ⟨S50000x128, .f32⟩
  | 11 => ⟨S_, .f32⟩
  | 12 => ⟨S128, .f32⟩
  | 13 => ⟨S_, .f32⟩
  | 14 => ⟨S128, .f32⟩
  | 15 => ⟨S128, .f32⟩
  | 16 => ⟨S1x128, .f32⟩
  | 17 => ⟨S1x128, .f32⟩
  | 18 => ⟨S1x128, .f32⟩
  | 19 => ⟨S1x128, .f32⟩
  | 20 => ⟨S50000x128, .f32⟩
  | 21 => ⟨S50000x128, .f32⟩
  | 22 => ⟨S50000x128, .f32⟩
  | 23 => ⟨S_, .i32⟩
  | 24 => ⟨S850000, .i32⟩
  | 25 => ⟨S850000, .i1⟩
  | 26 => ⟨S_, .i32⟩
  | 27 => ⟨S850000, .i32⟩
  | 28 => ⟨S850000, .i32⟩
  | 29 => ⟨S850000, .i32⟩
  | 30 => ⟨S850000x1, .i32⟩
  | 31 => ⟨S850000x128, .f32⟩
  | 32 => ⟨S850000x1, .f32⟩
  | 33 => ⟨S850000x128, .f32⟩
  | 34 => ⟨S850000x128, .f32⟩
  | 35 => ⟨S_, .f32⟩
  | 36 => ⟨S50000x128, .f32⟩
  | 37 => ⟨S850000x1, .i32⟩
  | 38 => ⟨S50000x128, .f32⟩
  | 39 => ⟨S_, .i32⟩
  | 40 => ⟨S250000, .i32⟩
  | 41 => ⟨S250000, .i1⟩
  | 42 => ⟨S_, .i32⟩
  | 43 => ⟨S250000, .i32⟩
  | 44 => ⟨S250000, .i32⟩
  | 45 => ⟨S250000, .i32⟩
  | 46 => ⟨S250000x1, .i32⟩
  | 47 => ⟨S250000x128, .f32⟩
  | 48 => ⟨S250000x1, .f32⟩
  | 49 => ⟨S250000x128, .f32⟩
  | 50 => ⟨S250000x128, .f32⟩
  | 51 => ⟨S_, .f32⟩
  | 52 => ⟨S50000x128, .f32⟩
  | 53 => ⟨S250000x1, .i32⟩
  | 54 => ⟨S50000x128, .f32⟩
  | 55 => ⟨S50000x128, .f32⟩
  | 56 => ⟨S50000x128, .f32⟩
  | 57 => ⟨S_, .f32⟩
  | 58 => ⟨S128, .f32⟩
  | 59 => ⟨S_, .f32⟩
  | 60 => ⟨S128, .f32⟩
  | 61 => ⟨S128, .f32⟩
  | 62 => ⟨S1x128, .f32⟩
  | 63 => ⟨S50000x128, .f32⟩
  | 64 => ⟨S50000x128, .f32⟩
  | 65 => ⟨S50000x128, .f32⟩
  | 66 => ⟨S_, .f32⟩
  | 67 => ⟨S128, .f32⟩
  | 68 => ⟨S_, .f32⟩
  | 69 => ⟨S128, .f32⟩
  | 70 => ⟨S128, .f32⟩
  | 71 => ⟨S1x128, .f32⟩
  | 72 => ⟨S1x128, .f32⟩
  | 73 => ⟨S1x128, .f32⟩
  | 74 => ⟨S1x128, .f32⟩
  | 75 => ⟨S50000x128, .f32⟩
  | 76 => ⟨S50000x64, .f32⟩
  | 77 => ⟨S50000x64, .f32⟩
  | 78 => ⟨S_, .i32⟩
  | 79 => ⟨S850000, .i32⟩
  | 80 => ⟨S850000, .i1⟩
  | 81 => ⟨S_, .i32⟩
  | 82 => ⟨S850000, .i32⟩
  | 83 => ⟨S850000, .i32⟩
  | 84 => ⟨S850000, .i32⟩
  | 85 => ⟨S850000x1, .i32⟩
  | 86 => ⟨S850000x64, .f32⟩
  | 87 => ⟨S850000x1, .f32⟩
  | 88 => ⟨S850000x64, .f32⟩
  | 89 => ⟨S850000x64, .f32⟩
  | 90 => ⟨S_, .f32⟩
  | 91 => ⟨S50000x64, .f32⟩
  | 92 => ⟨S850000x1, .i32⟩
  | 93 => ⟨S50000x64, .f32⟩
  | 94 => ⟨S_, .i32⟩
  | 95 => ⟨S250000, .i32⟩
  | 96 => ⟨S250000, .i1⟩
  | 97 => ⟨S_, .i32⟩
  | 98 => ⟨S250000, .i32⟩
  | 99 => ⟨S250000, .i32⟩
  | 100 => ⟨S250000, .i32⟩
  | 101 => ⟨S250000x1, .i32⟩
  | 102 => ⟨S250000x64, .f32⟩
  | 103 => ⟨S250000x1, .f32⟩
  | 104 => ⟨S250000x64, .f32⟩
  | 105 => ⟨S250000x64, .f32⟩
  | 106 => ⟨S_, .f32⟩
  | 107 => ⟨S50000x64, .f32⟩
  | 108 => ⟨S250000x1, .i32⟩
  | 109 => ⟨S50000x64, .f32⟩
  | 110 => ⟨S50000x64, .f32⟩
  | 111 => ⟨S50000x64, .f32⟩
  | 112 => ⟨S1x64, .f32⟩
  | 113 => ⟨S50000x64, .f32⟩
  | 114 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x64, .f32⟩
  | .local _ .vmem, ⟨35, _⟩ => ⟨S128x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_9 : Ref sig .tc := ⟨.hbm, 71, rfl⟩
abbrev main_call1_v0 : Ref sig .tc := ⟨.hbm, 72, rfl⟩
abbrev main_call1_v1 : Ref sig .tc := ⟨.hbm, 73, rfl⟩
abbrev main_v44 : Ref sig .tc := ⟨.hbm, 74, rfl⟩
abbrev main_c_10 : Ref sig .tc := ⟨.hbm, 75, rfl⟩
abbrev main_v45 : Ref sig .tc := ⟨.hbm, 76, rfl⟩
abbrev main_v46 : Ref sig .tc := ⟨.hbm, 77, rfl⟩
abbrev main_c_11 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_c_12 : Ref sig .tc := ⟨.hbm, 84, rfl⟩
abbrev main_v52 : Ref sig .tc := ⟨.hbm, 85, rfl⟩
abbrev main_v53 : Ref sig .tc := ⟨.hbm, 86, rfl⟩
abbrev main_c_13 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60_0 : Ref sig .tc := ⟨.hbm, 94, rfl⟩
abbrev main_v60_1 : Ref sig .tc := ⟨.hbm, 95, rfl⟩
abbrev main_c_14 : Ref sig .tc := ⟨.hbm, 96, rfl⟩
abbrev main_v61 : Ref sig .tc := ⟨.hbm, 97, rfl⟩
abbrev main_v62 : Ref sig .tc := ⟨.hbm, 98, rfl⟩
abbrev main_c_15 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_16 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_c_17 : Ref sig .tc := ⟨.hbm, 112, rfl⟩
abbrev main_v74 : Ref sig .tc := ⟨.hbm, 113, rfl⟩
abbrev main_v75 : Ref sig .tc := ⟨.hbm, 114, rfl⟩
abbrev main_c_18 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_19 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_20 : Ref sig .tc := ⟨.hbm, 130, rfl⟩
abbrev main_v89 : Ref sig .tc := ⟨.hbm, 131, rfl⟩
abbrev main_cst_21 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_22 : Ref sig .tc := ⟨.hbm, 139, rfl⟩
abbrev main_v96 : Ref sig .tc := ⟨.hbm, 140, rfl⟩
abbrev main_cst_23 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104_0 : Ref sig .tc := ⟨.hbm, 149, rfl⟩
abbrev main_v104_1 : Ref sig .tc := ⟨.hbm, 150, rfl⟩
abbrev main_c_24 : Ref sig .tc := ⟨.hbm, 151, rfl⟩
abbrev main_v105 : Ref sig .tc := ⟨.hbm, 152, rfl⟩
abbrev main_v106 : Ref sig .tc := ⟨.hbm, 153, rfl⟩
abbrev main_c_25 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_cst_26 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_c_27 : Ref sig .tc := ⟨.hbm, 167, rfl⟩
abbrev main_v118 : Ref sig .tc := ⟨.hbm, 168, rfl⟩
abbrev main_v119 : Ref sig .tc := ⟨.hbm, 169, rfl⟩
abbrev main_c_28 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_cst_29 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_cst_30 : Ref sig .tc := ⟨.hbm, 185, rfl⟩
abbrev main_v133 : Ref sig .tc := ⟨.hbm, 186, rfl⟩
abbrev main_cst_31 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_cst_32 : Ref sig .tc := ⟨.hbm, 194, rfl⟩
abbrev main_v140 : Ref sig .tc := ⟨.hbm, 195, rfl⟩
abbrev main_cst_33 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148_0 : Ref sig .tc := ⟨.hbm, 204, rfl⟩
abbrev main_v148_1 : Ref sig .tc := ⟨.hbm, 205, rfl⟩
abbrev main_c_34 : Ref sig .tc := ⟨.hbm, 206, rfl⟩
abbrev main_v149 : Ref sig .tc := ⟨.hbm, 207, rfl⟩
abbrev main_v150 : Ref sig .tc := ⟨.hbm, 208, rfl⟩
abbrev main_c_35 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_cst_36 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_c_37 : Ref sig .tc := ⟨.hbm, 222, rfl⟩
abbrev main_v162 : Ref sig .tc := ⟨.hbm, 223, rfl⟩
abbrev main_v163 : Ref sig .tc := ⟨.hbm, 224, rfl⟩
abbrev main_c_38 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_cst_39 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc4_stg4_0 : Ref sig .tc := ⟨.vmem, 38, rfl⟩
abbrev cc4_stg4_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc4_sem4_0 : DmaSem sig := 38
abbrev cc4_sem4_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S2x200000_S1x200000_0_0 : S2x200000.Slices ![0, 0] S1x200000
  shapeCasts_S1x200000_S200000 : S1x200000.ShapeCasts S200000
  concatenates_S200000_S50000_S250000_d0 : Shape.Concatenates [S200000, S50000] S250000 0
  slices_S2x200000_S1x200000_1_0 : S2x200000.Slices ![1, 0] S1x200000
  bcast_S_S250000 : S_.BroadcastsInDim S250000 (![] : Fin 0 → Fin S250000.rank)
  bcast_S250000_S250000x1_0 : S250000.BroadcastsInDim S250000x1 (![0] : Fin 1 → Fin S250000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S250000x1_S250000x128_0_1 : S250000x1.BroadcastsInDim S250000x128 (![0, 1] : Fin 2 → Fin S250000x128.rank)
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S250000x1_S250000x64_0_1 : S250000x1.BroadcastsInDim S250000x64 (![0, 1] : Fin 2 → Fin S250000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  scatter_S50000_S250000x1_S250000_n_0_0_1_wf : ScatterDims.WF S50000 S250000x1 S250000 [] [0] [0] 1
  gather_S50000_S250000x1_S250000_n_0_n_n_0_1_1_wf : GatherDims.WF S50000 S250000x1 S250000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S250000x1_S250000x128_1_0_n_n_0_1_1128_wf : GatherDims.WF S50000x128 S250000x1 S250000x128 [1] [0] [] [0] [] 1 ![1, 128]
  scatter_S50000x128_S250000x1_S250000x128_1_0_0_1_wf : ScatterDims.WF S50000x128 S250000x1 S250000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  gather_S50000x64_S250000x1_S250000x64_1_0_n_n_0_1_164_wf : GatherDims.WF S50000x64 S250000x1 S250000x64 [1] [0] [] [0] [] 1 ![1, 64]
  scatter_S50000x64_S250000x1_S250000x64_1_0_0_1_wf : ScatterDims.WF S50000x64 S250000x1 S250000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S50000x64.size a
  hwx4_4 : ∀ i : grid4.Coords, EltTy.bits .f32 = 32 ∨ (Rect.block (s := S50000x64) S5000x64.size (cc4_transform_4 i) (hinb4_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf
def gather_S50000_S250000x1_S250000_n_0_n_n_0_1_1 : GatherDims S50000 S250000x1 S250000 where
  offsetDims := []
  collapsedSliceDims := [0]
  operandBatchingDims := []
  startIndicesBatchingDims := []
  startIndexMap := [0]
  indexVectorDim := 1
  sliceSizes := ![1]
  wf := gather_S50000_S250000x1_S250000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S250000x1_S250000x128_1_0_n_n_0_1_1128 : GatherDims S50000x128 S250000x1 S250000x128 where
  offsetDims := [1]
  collapsedSliceDims := [0]
  operandBatchingDims := []
  startIndicesBatchingDims := []
  startIndexMap := [0]
  indexVectorDim := 1
  sliceSizes := ![1, 128]
  wf := gather_S50000x128_S250000x1_S250000x128_1_0_n_n_0_1_1128_wf
def scatter_S50000x128_S250000x1_S250000x128_1_0_0_1 : ScatterDims S50000x128 S250000x1 S250000x128 where
  updateWindowDims := [1]
  insertedWindowDims := [0]
  scatterDimsToOperandDims := [0]
  indexVectorDim := 1
  wf := scatter_S50000x128_S250000x1_S250000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def gather_S50000x64_S250000x1_S250000x64_1_0_n_n_0_1_164 : GatherDims S50000x64 S250000x1 S250000x64 where
  offsetDims := [1]
  collapsedSliceDims := [0]
  operandBatchingDims := []
  startIndicesBatchingDims := []
  startIndexMap := [0]
  indexVectorDim := 1
  sliceSizes := ![1, 64]
  wf := gather_S50000x64_S250000x1_S250000x64_1_0_n_n_0_1_164_wf
def scatter_S50000x64_S250000x1_S250000x64_1_0_0_1 : ScatterDims S50000x64 S250000x1 S250000x64 where
  updateWindowDims := [1]
  insertedWindowDims := [0]
  scatterDimsToOperandDims := [0]
  indexVectorDim := 1
  wf := scatter_S50000x64_S250000x1_S250000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v60_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v60_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v88) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v99) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v100) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v101) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v102) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v103) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v103) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v104_0) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v104_1) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v132) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v143) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v144) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v145) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v146) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v147) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v147) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S128x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v148_0) S5000x64.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v148_1) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S2x200000 : Shape := ⟨2, ![2, 200000]⟩
abbrev S128x128 : Shape := ⟨2, ![128, 128]⟩
abbrev S128x64 : Shape := ⟨2, ![128, 64]⟩
abbrev S64 : Shape := ⟨1, ![64]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x200000 : Shape := ⟨2, ![1, 200000]⟩
abbrev S200000 : Shape := ⟨1, ![200000]⟩
abbrev S250000 : Shape := ⟨1, ![250000]⟩
abbrev S250000x1 : Shape := ⟨2, ![250000, 1]⟩
abbrev S250000x128 : Shape := ⟨2, ![250000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S250000x64 : Shape := ⟨2, ![250000, 64]⟩

abbrev nBuf : Space → Nat
  | .hbm => 437
  | .vmem => 0
  | .smem => 0
  | _ => 0

abbrev hbmTy0_0 (i : Nat) : BufTy := match i % 128 with
  | 0 => ⟨S50000x128, .f32⟩
  | 1 => ⟨S2x800000, .i32⟩
  | 2 => ⟨S2x200000, .i32⟩
  | 3 => ⟨S128x128, .f32⟩
  | 4 => ⟨S128x128, .f32⟩
  | 5 => ⟨S128x64, .f32⟩
  | 6 => ⟨S64, .f32⟩
  | 7 => ⟨S128x128, .f32⟩
  | 8 => ⟨S128x128, .f32⟩
  | 9 => ⟨S128x64, .f32⟩
  | 10 => ⟨S128, .f32⟩
  | 11 => ⟨S128, .f32⟩
  | 12 => ⟨S128, .f32⟩
  | 13 => ⟨S128, .f32⟩
  | 14 => ⟨S50000x128, .f32⟩
  | 15 => ⟨S50000, .i32⟩
  | 16 => ⟨S1x800000, .i32⟩
  | 17 => ⟨S800000, .i32⟩
  | 18 => ⟨S850000, .i32⟩
  | 19 => ⟨S1x800000, .i32⟩
  | 20 => ⟨S800000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000x128, .f32⟩
  | 64 => ⟨S850000x1, .f32⟩
  | 65 => ⟨S850000x128, .f32⟩
  | 66 => ⟨S850000x128, .f32⟩
  | 67 => ⟨S_, .f32⟩
  | 68 => ⟨S50000x128, .f32⟩
  | 69 => ⟨S850000x1, .i32⟩
  | 70 => ⟨S50000x128, .f32⟩
  | 71 => ⟨S50000x128, .f32⟩
  | 72 => ⟨S50000, .i32⟩
  | 73 => ⟨S1x200000, .i32⟩
  | 74 => ⟨S200000, .i32⟩
  | 75 => ⟨S250000, .i32⟩
  | 76 => ⟨S1x200000, .i32⟩
  | 77 => ⟨S200000, .i32⟩
  | 78 => ⟨S250000, .i32⟩
  | 79 => ⟨S_, .f32⟩
  | 80 => ⟨S250000, .f32⟩
  | 81 => ⟨S_, .f32⟩
  | 82 => ⟨S50000, .f32⟩
  | 83 => ⟨S250000x1, .i32⟩
  | 84 => ⟨S50000, .f32⟩
  | 85 => ⟨S_, .f32⟩
  | 86 => ⟨S50000, .f32⟩
  | 87 => ⟨S50000, .i1⟩
  | 88 => ⟨S50000, .f32⟩
  | 89 => ⟨S_, .f32⟩
  | 90 => ⟨S_, .f32⟩
  | 91 => ⟨S50000, .f32⟩
  | 92 => ⟨S50000, .f32⟩
  | 93 => ⟨S_, .i32⟩
  | 94 => ⟨S250000, .i32⟩
  | 95 => ⟨S250000, .i1⟩
  | 96 => ⟨S_, .i32⟩
  | 97 => ⟨S250000, .i32⟩
  | 98 => ⟨S250000, .i32⟩
  | 99 => ⟨S250000, .i32⟩
  | 100 => ⟨S250000x1, .i32⟩
  | 101 => ⟨S250000, .f32⟩
  | 102 => ⟨S_, .i32⟩
  | 103 => ⟨S250000, .i32⟩
  | 104 => ⟨S250000, .i1⟩
  | 105 => ⟨S_, .i32⟩
  | 106 => ⟨S250000, .i32⟩
  | 107 => ⟨S250000, .i32⟩
  | 108 => ⟨S250000, .i32⟩
  | 109 => ⟨S250000x1, .i32⟩
  | 110 => ⟨S250000, .f32⟩
  | 111 => ⟨S250000, .f32⟩
  | 112 => ⟨S_, .i32⟩
  | 113 => ⟨S250000, .i32⟩
  | 114 => ⟨S250000, .i1⟩
  | 115 => ⟨S_, .i32⟩
  | 116 => ⟨S250000, .i32⟩
  | 117 => ⟨S250000, .i32⟩
  | 118 => ⟨S250000, .i32⟩
  | 119 => ⟨S250000x1, .i32⟩
  | 120 => ⟨S250000x128, .f32⟩
  | 121 => ⟨S250000x1, .f32⟩
  | 122 => ⟨S250000x128, .f32⟩
  | 123 => ⟨S250000x128, .f32⟩
  | 124 => ⟨S_, .f32⟩
  | 125 => ⟨S50000x128, .f32⟩
  | 126 => ⟨S250000x1, .i32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S_, .f32⟩
  | 4 => ⟨S128, .f32⟩
  | 5 => ⟨S_, .f32⟩
  | 6 => ⟨S128, .f32⟩
  | 7 => ⟨S128, .f32⟩
  | 8 => ⟨S1x128, .f32⟩
  | 9 => ⟨S50000x128, .f32⟩
  | 10 => ⟨S50000x128, .f32⟩
  | 11 => ⟨S50000x128, .f32⟩
  | 12 => ⟨S_, .f32⟩
  | 13 => ⟨S128, .f32⟩
  | 14 => ⟨S_, .f32⟩
  | 15 => ⟨S128, .f32⟩
  | 16 => ⟨S128, .f32⟩
  | 17 => ⟨S1x128, .f32⟩
  | 18 => ⟨S50000x128, .f32⟩
  | 19 => ⟨S50000x128, .f32⟩
  | 20 => ⟨S_, .f32⟩
  | 21 => ⟨S128, .f32⟩
  | 22 => ⟨S128, .f32⟩
  | 23 => ⟨S128, .f32⟩
  | 24 => ⟨S1x128, .f32⟩
  | 25 => ⟨S50000x128, .f32⟩
  | 26 => ⟨S50000x128, .f32⟩
  | 27 => ⟨S1x128, .f32⟩
  | 28 => ⟨S50000x128, .f32⟩
  | 29 => ⟨S50000x128, .f32⟩
  | 30 => ⟨S1x128, .f32⟩
  | 31 => ⟨S50000x128, .f32⟩
  | 32 => ⟨S50000x128, .f32⟩
  | 33 => ⟨S_, .f32⟩
  | 34 => ⟨S50000x128, .f32⟩
  | 35 => ⟨S50000x128, .f32⟩
  | 36 => ⟨S50000x128, .f32⟩
  | 37 => ⟨S50000, .i32⟩
  | 38 => ⟨S1x800000, .i32⟩
  | 39 => ⟨S800000, .i32⟩
  | 40 => ⟨S850000, .i32⟩
  | 41 => ⟨S1x800000, .i32⟩
  | 42 => ⟨S800000, .i32⟩
  | 43 => ⟨S850000, .i32⟩
  | 44 => ⟨S_, .f32⟩
  | 45 => ⟨S850000, .f32⟩
  | 46 => ⟨S_, .f32⟩
  | 47 => ⟨S50000, .f32⟩
  | 48 => ⟨S850000x1, .i32⟩
  | 49 => ⟨S50000, .f32⟩
  | 50 => ⟨S_, .f32⟩
  | 51 => ⟨S50000, .f32⟩
  | 52 => ⟨S50000, .i1⟩
  | 53 => ⟨S50000, .f32⟩
  | 54 => ⟨S_, .f32⟩
  | 55 => ⟨S_, .f32⟩
  | 56 => ⟨S50000, .f32⟩
  | 57 => ⟨S50000, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000, .f32⟩
  | 67 => ⟨S_, .i32⟩
  | 68 => ⟨S850000, .i32⟩
  | 69 => ⟨S850000, .i1⟩
  | 70 => ⟨S_, .i32⟩
  | 71 => ⟨S850000, .i32⟩
  | 72 => ⟨S850000, .i32⟩
  | 73 => ⟨S850000, .i32⟩
  | 74 => ⟨S850000x1, .i32⟩
  | 75 => ⟨S850000, .f32⟩
  | 76 => ⟨S850000, .f32⟩
  | 77 => ⟨S_, .i32⟩
  | 78 => ⟨S850000, .i32⟩
  | 79 => ⟨S850000, .i1⟩
  | 80 => ⟨S_, .i32⟩
  | 81 => ⟨S850000, .i32⟩
  | 82 => ⟨S850000, .i32⟩
  | 83 => ⟨S850000, .i32⟩
  | 84 => ⟨S850000x1, .i32⟩
  | 85 => ⟨S850000x128, .f32⟩
  | 86 => ⟨S850000x1, .f32⟩
  | 87 => ⟨S850000x128, .f32⟩
  | 88 => ⟨S850000x128, .f32⟩
  | 89 => ⟨S_, .f32⟩
  | 90 => ⟨S50000x128, .f32⟩
  | 91 => ⟨S850000x1, .i32⟩
  | 92 => ⟨S50000x128, .f32⟩
  | 93 => ⟨S50000x128, .f32⟩
  | 94 => ⟨S50000, .i32⟩
  | 95 => ⟨S1x200000, .i32⟩
  | 96 => ⟨S200000, .i32⟩
  | 97 => ⟨S250000, .i32⟩
  | 98 => ⟨S1x200000, .i32⟩
  | 99 => ⟨S200000, .i32⟩
  | 100 => ⟨S250000, .i32⟩
  | 101 => ⟨S_, .f32⟩
  | 102 => ⟨S250000, .f32⟩
  | 103 => ⟨S_, .f32⟩
  | 104 => ⟨S50000, .f32⟩
  | 105 => ⟨S250000x1, .i32⟩
  | 106 => ⟨S50000, .f32⟩
  | 107 => ⟨S_, .f32⟩
  | 108 => ⟨S50000, .f32⟩
  | 109 => ⟨S50000, .i1⟩
  | 110 => ⟨S50000, .f32⟩
  | 111 => ⟨S_, .f32⟩
  | 112 => ⟨S_, .f32⟩
  | 113 => ⟨S50000, .f32⟩
  | 114 => ⟨S50000, .f32⟩
  | 115 => ⟨S_, .i32⟩
  | 116 => ⟨S250000, .i32⟩
  | 117 => ⟨S250000, .i1⟩
  | 118 => ⟨S_, .i32⟩
  | 119 => ⟨S250000, .i32⟩
  | 120 => ⟨S250000, .i32⟩
  | 121 => ⟨S250000, .i32⟩
  | 122 => ⟨S250000x1, .i32⟩
  | 123 => ⟨S250000, .f32⟩
  | 124 => ⟨S_, .i32⟩
  | 125 => ⟨S250000, .i32⟩
  | 126 => ⟨S250000, .i1⟩
  | 127 => ⟨S_, .i32⟩
  | _ => ⟨S50000x128, .f32⟩

abbrev hbmTy0_2 (i : Nat) : BufTy := match i % 128 with
  | 0 => ⟨S250000, .i32⟩
  | 1 => ⟨S250000, .i32⟩
  | 2 => ⟨S250000, .i32⟩
  | 3 => ⟨S250000x1, .i32⟩
  | 4 => ⟨S250000, .f32⟩
  | 5 => ⟨S250000, .f32⟩
  | 6 => ⟨S_, .i32⟩
  | 7 => ⟨S250000, .i32⟩
  | 8 => ⟨S250000, .i1⟩
  | 9 => ⟨S_, .i32⟩
  | 10 => ⟨S250000, .i32⟩
  | 11 => ⟨S250000, .i32⟩
  | 12 => ⟨S250000, .i32⟩
  | 13 => ⟨S250000x1, .i32⟩
  | 14 => ⟨S250000x128, .f32⟩
  | 15 => ⟨S250000x1, .f32⟩
  | 16 => ⟨S250000x128, .f32⟩
  | 17 => ⟨S250000x128, .f32⟩
  | 18 => ⟨S_, .f32⟩
  | 19 => ⟨S50000x128, .f32⟩
  | 20 => ⟨S250000x1, .i32⟩
  | 21 => ⟨S50000x128, .f32⟩
  | 22 => ⟨S50000x128, .f32⟩
  | 23 => ⟨S50000x128, .f32⟩
  | 24 => ⟨S50000x128, .f32⟩
  | 25 => ⟨S_, .f32⟩
  | 26 => ⟨S128, .f32⟩
  | 27 => ⟨S_, .f32⟩
  | 28 => ⟨S128, .f32⟩
  | 29 => ⟨S128, .f32⟩
  | 30 => ⟨S1x128, .f32⟩
  | 31 => ⟨S50000x128, .f32⟩
  | 32 => ⟨S50000x128, .f32⟩
  | 33 => ⟨S50000x128, .f32⟩
  | 34 => ⟨S_, .f32⟩
  | 35 => ⟨S128, .f32⟩
  | 36 => ⟨S_, .f32⟩
  | 37 => ⟨S128, .f32⟩
  | 38 => ⟨S128, .f32⟩
  | 39 => ⟨S1x128, .f32⟩
  | 40 => ⟨S50000x128, .f32⟩
  | 41 => ⟨S50000x128, .f32⟩
  | 42 => ⟨S_, .f32⟩
  | 43 => ⟨S128, .f32⟩
  | 44 => ⟨S128, .f32⟩
  | 45 => ⟨S128, .f32⟩
  | 46 => ⟨S1x128, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S1x128, .f32⟩
  | 53 => ⟨S50000x128, .f32⟩
  | 54 => ⟨S50000x128, .f32⟩
  | 55 => ⟨S_, .f32⟩
  | 56 => ⟨S50000x128, .f32⟩
  | 57 => ⟨S50000x128, .f32⟩
  | 58 => ⟨S50000x64, .f32⟩
  | 59 => ⟨S50000, .i32⟩
  | 60 => ⟨S1x800000, .i32⟩
  | 61 => ⟨S800000, .i32⟩
  | 62 => ⟨S850000, .i32⟩
  | 63 => ⟨S1x800000, .i32⟩
  | 64 => ⟨S800000, .i32⟩
  | 65 => ⟨S850000, .i32⟩
  | 66 => ⟨S_, .f32⟩
  | 67 => ⟨S850000, .f32⟩
  | 68 => ⟨S_, .f32⟩
  | 69 => ⟨S50000, .f32⟩
  | 70 => ⟨S850000x1, .i32⟩
  | 71 => ⟨S50000, .f32⟩
  | 72 => ⟨S_, .f32⟩
  | 73 => ⟨S50000, .f32⟩
  | 74 => ⟨S50000, .i1⟩
  | 75 => ⟨S50000, .f32⟩
  | 76 => ⟨S_, .f32⟩
  | 77 => ⟨S_, .f32⟩
  | 78 => ⟨S50000, .f32⟩
  | 79 => ⟨S50000, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000, .f32⟩
  | 98 => ⟨S850000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000x64, .f32⟩
  | 108 => ⟨S850000x1, .f32⟩
  | 109 => ⟨S850000x64, .f32⟩
  | 110 => ⟨S850000x64, .f32⟩
  | 111 => ⟨S_, .f32⟩
  | 112 => ⟨S50000x64, .f32⟩
  | 113 => ⟨S850000x1, .i32⟩
  | 114 => ⟨S50000x64, .f32⟩
  | 115 => ⟨S1x64, .f32⟩
  | 116 => ⟨S50000x64, .f32⟩
  | 117 => ⟨S50000x64, .f32⟩
  | 118 => ⟨S50000x64, .f32⟩
  | 119 => ⟨S50000, .i32⟩
  | 120 => ⟨S1x200000, .i32⟩
  | 121 => ⟨S200000, .i32⟩
  | 122 => ⟨S250000, .i32⟩
  | 123 => ⟨S1x200000, .i32⟩
  | 124 => ⟨S200000, .i32⟩
  | 125 => ⟨S250000, .i32⟩
  | 126 => ⟨S_, .f32⟩
  | 127 => ⟨S250000, .f32⟩
  | _ => ⟨S50000x128, .f32⟩

abbrev hbmTy0_3 (i : Nat) : BufTy := match i % 128 with
  | 0 => ⟨S_, .f32⟩
  | 1 => ⟨S50000, .f32⟩
  | 2 => ⟨S250000x1, .i32⟩
  | 3 => ⟨S50000, .f32⟩
  | 4 => ⟨S_, .f32⟩
  | 5 => ⟨S50000, .f32⟩
  | 6 => ⟨S50000, .i1⟩
  | 7 => ⟨S50000, .f32⟩
  | 8 => ⟨S_, .f32⟩
  | 9 => ⟨S_, .f32⟩
  | 10 => ⟨S50000, .f32⟩
  | 11 => ⟨S50000, .f32⟩
  | 12 => ⟨S_, .i32⟩
  | 13 => ⟨S250000, .i32⟩
  | 14 => ⟨S250000, .i1⟩
  | 15 => ⟨S_, .i32⟩
  | 16 => ⟨S250000, .i32⟩
  | 17 => ⟨S250000, .i32⟩
  | 18 => ⟨S250000, .i32⟩
  | 19 => ⟨S250000x1, .i32⟩
  | 20 => ⟨S250000, .f32⟩
  | 21 => ⟨S_, .i32⟩
  | 22 => ⟨S250000, .i32⟩
  | 23 => ⟨S250000, .i1⟩
  | 24 => ⟨S_, .i32⟩
  | 25 => ⟨S250000, .i32⟩
  | 26 => ⟨S250000, .i32⟩
  | 27 => ⟨S250000, .i32⟩
  | 28 => ⟨S250000x1, .i32⟩
  | 29 => ⟨S250000, .f32⟩
  | 30 => ⟨S250000, .f32⟩
  | 31 => ⟨S_, .i32⟩
  | 32 => ⟨S250000, .i32⟩
  | 33 => ⟨S250000, .i1⟩
  | 34 => ⟨S_, .i32⟩
  | 35 => ⟨S250000, .i32⟩
  | 36 => ⟨S250000, .i32⟩
  | 37 => ⟨S250000, .i32⟩
  | 38 => ⟨S250000x1, .i32⟩
  | 39 => ⟨S250000x64, .f32⟩
  | 40 => ⟨S250000x1, .f32⟩
  | 41 => ⟨S250000x64, .f32⟩
  | 42 => ⟨S250000x64, .f32⟩
  | 43 => ⟨S_, .f32⟩
  | 44 => ⟨S50000x64, .f32⟩
  | 45 => ⟨S250000x1, .i32⟩
  | 46 => ⟨S50000x64, .f32⟩
  | 47 => ⟨S1x64, .f32⟩
  | 48 => ⟨S50000x64, .f32⟩
  | 49 => ⟨S50000x64, .f32⟩
  | 50 => ⟨S50000x64, .f32⟩
  | 51 => ⟨S50000x64, .f32⟩
  | 52 => ⟨S50000x64, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_9 : Ref sig .tc := ⟨.hbm, 79, rfl⟩
abbrev main_v52 : Ref sig .tc := ⟨.hbm, 80, rfl⟩
abbrev main_cst_10 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_11 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_call1_v0 : Ref sig .tc := ⟨.hbm, 90, rfl⟩
abbrev main_call1_v1 : Ref sig .tc := ⟨.hbm, 91, rfl⟩
abbrev main_v59 : Ref sig .tc := ⟨.hbm, 92, rfl⟩
abbrev main_c_13 : Ref sig .tc := ⟨.hbm, 93, rfl⟩
abbrev main_v60 : Ref sig .tc := ⟨.hbm, 94, rfl⟩
abbrev main_v61 : Ref sig .tc := ⟨.hbm, 95, rfl⟩
abbrev main_c_14 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_c_15 : Ref sig .tc := ⟨.hbm, 102, rfl⟩
abbrev main_v67 : Ref sig .tc := ⟨.hbm, 103, rfl⟩
abbrev main_v68 : Ref sig .tc := ⟨.hbm, 104, rfl⟩
abbrev main_c_16 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_c_17 : Ref sig .tc := ⟨.hbm, 112, rfl⟩
abbrev main_v75 : Ref sig .tc := ⟨.hbm, 113, rfl⟩
abbrev main_v76 : Ref sig .tc := ⟨.hbm, 114, rfl⟩
abbrev main_c_18 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_19 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_20 : Ref sig .tc := ⟨.hbm, 131, rfl⟩
abbrev main_v91 : Ref sig .tc := ⟨.hbm, 132, rfl⟩
abbrev main_cst_21 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_22 : Ref sig .tc := ⟨.hbm, 140, rfl⟩
abbrev main_v98 : Ref sig .tc := ⟨.hbm, 141, rfl⟩
abbrev main_cst_23 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_24 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_call2_cst : Ref sig .tc := ⟨.hbm, 161, rfl⟩
abbrev main_call2_v0 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_cst_25 : Ref sig .tc := ⟨.hbm, 172, rfl⟩
abbrev main_v125 : Ref sig .tc := ⟨.hbm, 173, rfl⟩
abbrev main_cst_26 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_cst_27 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_cst_28 : Ref sig .tc := ⟨.hbm, 182, rfl⟩
abbrev main_call3_v0 : Ref sig .tc := ⟨.hbm, 183, rfl⟩
abbrev main_call3_v1 : Ref sig .tc := ⟨.hbm, 184, rfl⟩
abbrev main_v132 : Ref sig .tc := ⟨.hbm, 185, rfl⟩
abbrev main_c_29 : Ref sig .tc := ⟨.hbm, 186, rfl⟩
abbrev main_v133 : Ref sig .tc := ⟨.hbm, 187, rfl⟩
abbrev main_v134 : Ref sig .tc := ⟨.hbm, 188, rfl⟩
abbrev main_c_30 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_c_31 : Ref sig .tc := ⟨.hbm, 195, rfl⟩
abbrev main_v140 : Ref sig .tc := ⟨.hbm, 196, rfl⟩
abbrev main_v141 : Ref sig .tc := ⟨.hbm, 197, rfl⟩
abbrev main_c_32 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_c_33 : Ref sig .tc := ⟨.hbm, 205, rfl⟩
abbrev main_v148 : Ref sig .tc := ⟨.hbm, 206, rfl⟩
abbrev main_v149 : Ref sig .tc := ⟨.hbm, 207, rfl⟩
abbrev main_c_34 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_cst_35 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_cst_36 : Ref sig .tc := ⟨.hbm, 229, rfl⟩
abbrev main_v169 : Ref sig .tc := ⟨.hbm, 230, rfl⟩
abbrev main_cst_37 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_cst_38 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_cst_39 : Ref sig .tc := ⟨.hbm, 239, rfl⟩
abbrev main_call4_v0 : Ref sig .tc := ⟨.hbm, 240, rfl⟩
abbrev main_call4_v1 : Ref sig .tc := ⟨.hbm, 241, rfl⟩
abbrev main_v176 : Ref sig .tc := ⟨.hbm, 242, rfl⟩
abbrev main_c_40 : Ref sig .tc := ⟨.hbm, 243, rfl⟩
abbrev main_v177 : Ref sig .tc := ⟨.hbm, 244, rfl⟩
abbrev main_v178 : Ref sig .tc := ⟨.hbm, 245, rfl⟩
abbrev main_c_41 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_c_42 : Ref sig .tc := ⟨.hbm, 252, rfl⟩
abbrev main_v184 : Ref sig .tc := ⟨.hbm, 253, rfl⟩
abbrev main_v185 : Ref sig .tc := ⟨.hbm, 254, rfl⟩
abbrev main_c_43 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_c_44 : Ref sig .tc := ⟨.hbm, 262, rfl⟩
abbrev main_v192 : Ref sig .tc := ⟨.hbm, 263, rfl⟩
abbrev main_v193 : Ref sig .tc := ⟨.hbm, 264, rfl⟩
abbrev main_c_45 : Ref sig .tc := ⟨.hbm, 265, rfl⟩
abbrev main_v194 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_cst_46 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_cst_47 : Ref sig .tc := ⟨.hbm, 281, rfl⟩
abbrev main_v208 : Ref sig .tc := ⟨.hbm, 282, rfl⟩
abbrev main_cst_48 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_v212 : Ref sig .tc := ⟨.hbm, 287, rfl⟩
abbrev main_v213 : Ref sig .tc := ⟨.hbm, 288, rfl⟩
abbrev main_v214 : Ref sig .tc := ⟨.hbm, 289, rfl⟩
abbrev main_cst_49 : Ref sig .tc := ⟨.hbm, 290, rfl⟩
abbrev main_v215 : Ref sig .tc := ⟨.hbm, 291, rfl⟩
abbrev main_cst_50 : Ref sig .tc := ⟨.hbm, 292, rfl⟩
abbrev main_v216 : Ref sig .tc := ⟨.hbm, 293, rfl⟩
abbrev main_v217 : Ref sig .tc := ⟨.hbm, 294, rfl⟩
abbrev main_v218 : Ref sig .tc := ⟨.hbm, 295, rfl⟩
abbrev main_v219 : Ref sig .tc := ⟨.hbm, 296, rfl⟩
abbrev main_v220 : Ref sig .tc := ⟨.hbm, 297, rfl⟩
abbrev main_cst_51 : Ref sig .tc := ⟨.hbm, 298, rfl⟩
abbrev main_v221 : Ref sig .tc := ⟨.hbm, 299, rfl⟩
abbrev main_v222 : Ref sig .tc := ⟨.hbm, 300, rfl⟩
abbrev main_v223 : Ref sig .tc := ⟨.hbm, 301, rfl⟩
abbrev main_v224 : Ref sig .tc := ⟨.hbm, 302, rfl⟩
abbrev main_v225 : Ref sig .tc := ⟨.hbm, 303, rfl⟩
abbrev main_v226 : Ref sig .tc := ⟨.hbm, 304, rfl⟩
abbrev main_v227 : Ref sig .tc := ⟨.hbm, 305, rfl⟩
abbrev main_v228 : Ref sig .tc := ⟨.hbm, 306, rfl⟩
abbrev main_v229 : Ref sig .tc := ⟨.hbm, 307, rfl⟩
abbrev main_v230 : Ref sig .tc := ⟨.hbm, 308, rfl⟩
abbrev main_v231 : Ref sig .tc := ⟨.hbm, 309, rfl⟩
abbrev main_v232 : Ref sig .tc := ⟨.hbm, 310, rfl⟩
abbrev main_call5_cst : Ref sig .tc := ⟨.hbm, 311, rfl⟩
abbrev main_call5_v0 : Ref sig .tc := ⟨.hbm, 312, rfl⟩
abbrev main_v233 : Ref sig .tc := ⟨.hbm, 313, rfl⟩
abbrev main_v234 : Ref sig .tc := ⟨.hbm, 314, rfl⟩
abbrev main_v235 : Ref sig .tc := ⟨.hbm, 315, rfl⟩
abbrev main_v236 : Ref sig .tc := ⟨.hbm, 316, rfl⟩
abbrev main_v237 : Ref sig .tc := ⟨.hbm, 317, rfl⟩
abbrev main_v238 : Ref sig .tc := ⟨.hbm, 318, rfl⟩
abbrev main_v239 : Ref sig .tc := ⟨.hbm, 319, rfl⟩
abbrev main_v240 : Ref sig .tc := ⟨.hbm, 320, rfl⟩
abbrev main_v241 : Ref sig .tc := ⟨.hbm, 321, rfl⟩
abbrev main_cst_52 : Ref sig .tc := ⟨.hbm, 322, rfl⟩
abbrev main_v242 : Ref sig .tc := ⟨.hbm, 323, rfl⟩
abbrev main_cst_53 : Ref sig .tc := ⟨.hbm, 324, rfl⟩
abbrev main_v243 : Ref sig .tc := ⟨.hbm, 325, rfl⟩
abbrev main_v244 : Ref sig .tc := ⟨.hbm, 326, rfl⟩
abbrev main_v245 : Ref sig .tc := ⟨.hbm, 327, rfl⟩
abbrev main_cst_54 : Ref sig .tc := ⟨.hbm, 328, rfl⟩
abbrev main_v246 : Ref sig .tc := ⟨.hbm, 329, rfl⟩
abbrev main_v247 : Ref sig .tc := ⟨.hbm, 330, rfl⟩
abbrev main_v248 : Ref sig .tc := ⟨.hbm, 331, rfl⟩
abbrev main_cst_55 : Ref sig .tc := ⟨.hbm, 332, rfl⟩
abbrev main_call6_v0 : Ref sig .tc := ⟨.hbm, 333, rfl⟩
abbrev main_call6_v1 : Ref sig .tc := ⟨.hbm, 334, rfl⟩
abbrev main_v249 : Ref sig .tc := ⟨.hbm, 335, rfl⟩
abbrev main_c_56 : Ref sig .tc := ⟨.hbm, 336, rfl⟩
abbrev main_v250 : Ref sig .tc := ⟨.hbm, 337, rfl⟩
abbrev main_v251 : Ref sig .tc := ⟨.hbm, 338, rfl⟩
abbrev main_c_57 : Ref sig .tc := ⟨.hbm, 339, rfl⟩
abbrev main_v252 : Ref sig .tc := ⟨.hbm, 340, rfl⟩
abbrev main_v253 : Ref sig .tc := ⟨.hbm, 341, rfl⟩
abbrev main_v254 : Ref sig .tc := ⟨.hbm, 342, rfl⟩
abbrev main_v255 : Ref sig .tc := ⟨.hbm, 343, rfl⟩
abbrev main_v256 : Ref sig .tc := ⟨.hbm, 344, rfl⟩
abbrev main_c_58 : Ref sig .tc := ⟨.hbm, 345, rfl⟩
abbrev main_v257 : Ref sig .tc := ⟨.hbm, 346, rfl⟩
abbrev main_v258 : Ref sig .tc := ⟨.hbm, 347, rfl⟩
abbrev main_c_59 : Ref sig .tc := ⟨.hbm, 348, rfl⟩
abbrev main_v259 : Ref sig .tc := ⟨.hbm, 349, rfl⟩
abbrev main_v260 : Ref sig .tc := ⟨.hbm, 350, rfl⟩
abbrev main_v261 : Ref sig .tc := ⟨.hbm, 351, rfl⟩
abbrev main_v262 : Ref sig .tc := ⟨.hbm, 352, rfl⟩
abbrev main_v263 : Ref sig .tc := ⟨.hbm, 353, rfl⟩
abbrev main_v264 : Ref sig .tc := ⟨.hbm, 354, rfl⟩
abbrev main_c_60 : Ref sig .tc := ⟨.hbm, 355, rfl⟩
abbrev main_v265 : Ref sig .tc := ⟨.hbm, 356, rfl⟩
abbrev main_v266 : Ref sig .tc := ⟨.hbm, 357, rfl⟩
abbrev main_c_61 : Ref sig .tc := ⟨.hbm, 358, rfl⟩
abbrev main_v267 : Ref sig .tc := ⟨.hbm, 359, rfl⟩
abbrev main_v268 : Ref sig .tc := ⟨.hbm, 360, rfl⟩
abbrev main_v269 : Ref sig .tc := ⟨.hbm, 361, rfl⟩
abbrev main_v270 : Ref sig .tc := ⟨.hbm, 362, rfl⟩
abbrev main_v271 : Ref sig .tc := ⟨.hbm, 363, rfl⟩
abbrev main_v272 : Ref sig .tc := ⟨.hbm, 364, rfl⟩
abbrev main_v273 : Ref sig .tc := ⟨.hbm, 365, rfl⟩
abbrev main_v274 : Ref sig .tc := ⟨.hbm, 366, rfl⟩
abbrev main_cst_62 : Ref sig .tc := ⟨.hbm, 367, rfl⟩
abbrev main_v275 : Ref sig .tc := ⟨.hbm, 368, rfl⟩
abbrev main_v276 : Ref sig .tc := ⟨.hbm, 369, rfl⟩
abbrev main_v277 : Ref sig .tc := ⟨.hbm, 370, rfl⟩
abbrev main_v278 : Ref sig .tc := ⟨.hbm, 371, rfl⟩
abbrev main_v279 : Ref sig .tc := ⟨.hbm, 372, rfl⟩
abbrev main_v280 : Ref sig .tc := ⟨.hbm, 373, rfl⟩
abbrev main_v281 : Ref sig .tc := ⟨.hbm, 374, rfl⟩
abbrev main_v282 : Ref sig .tc := ⟨.hbm, 375, rfl⟩
abbrev main_v283 : Ref sig .tc := ⟨.hbm, 376, rfl⟩
abbrev main_v284 : Ref sig .tc := ⟨.hbm, 377, rfl⟩
abbrev main_v285 : Ref sig .tc := ⟨.hbm, 378, rfl⟩
abbrev main_v286 : Ref sig .tc := ⟨.hbm, 379, rfl⟩
abbrev main_v287 : Ref sig .tc := ⟨.hbm, 380, rfl⟩
abbrev main_v288 : Ref sig .tc := ⟨.hbm, 381, rfl⟩
abbrev main_cst_63 : Ref sig .tc := ⟨.hbm, 382, rfl⟩
abbrev main_v289 : Ref sig .tc := ⟨.hbm, 383, rfl⟩
abbrev main_cst_64 : Ref sig .tc := ⟨.hbm, 384, rfl⟩
abbrev main_v290 : Ref sig .tc := ⟨.hbm, 385, rfl⟩
abbrev main_v291 : Ref sig .tc := ⟨.hbm, 386, rfl⟩
abbrev main_v292 : Ref sig .tc := ⟨.hbm, 387, rfl⟩
abbrev main_cst_65 : Ref sig .tc := ⟨.hbm, 388, rfl⟩
abbrev main_v293 : Ref sig .tc := ⟨.hbm, 389, rfl⟩
abbrev main_v294 : Ref sig .tc := ⟨.hbm, 390, rfl⟩
abbrev main_v295 : Ref sig .tc := ⟨.hbm, 391, rfl⟩
abbrev main_cst_66 : Ref sig .tc := ⟨.hbm, 392, rfl⟩
abbrev main_call7_v0 : Ref sig .tc := ⟨.hbm, 393, rfl⟩
abbrev main_call7_v1 : Ref sig .tc := ⟨.hbm, 394, rfl⟩
abbrev main_v296 : Ref sig .tc := ⟨.hbm, 395, rfl⟩
abbrev main_c_67 : Ref sig .tc := ⟨.hbm, 396, rfl⟩
abbrev main_v297 : Ref sig .tc := ⟨.hbm, 397, rfl⟩
abbrev main_v298 : Ref sig .tc := ⟨.hbm, 398, rfl⟩
abbrev main_c_68 : Ref sig .tc := ⟨.hbm, 399, rfl⟩
abbrev main_v299 : Ref sig .tc := ⟨.hbm, 400, rfl⟩
abbrev main_v300 : Ref sig .tc := ⟨.hbm, 401, rfl⟩
abbrev main_v301 : Ref sig .tc := ⟨.hbm, 402, rfl⟩
abbrev main_v302 : Ref sig .tc := ⟨.hbm, 403, rfl⟩
abbrev main_v303 : Ref sig .tc := ⟨.hbm, 404, rfl⟩
abbrev main_c_69 : Ref sig .tc := ⟨.hbm, 405, rfl⟩
abbrev main_v304 : Ref sig .tc := ⟨.hbm, 406, rfl⟩
abbrev main_v305 : Ref sig .tc := ⟨.hbm, 407, rfl⟩
abbrev main_c_70 : Ref sig .tc := ⟨.hbm, 408, rfl⟩
abbrev main_v306 : Ref sig .tc := ⟨.hbm, 409, rfl⟩
abbrev main_v307 : Ref sig .tc := ⟨.hbm, 410, rfl⟩
abbrev main_v308 : Ref sig .tc := ⟨.hbm, 411, rfl⟩
abbrev main_v309 : Ref sig .tc := ⟨.hbm, 412, rfl⟩
abbrev main_v310 : Ref sig .tc := ⟨.hbm, 413, rfl⟩
abbrev main_v311 : Ref sig .tc := ⟨.hbm, 414, rfl⟩
abbrev main_c_71 : Ref sig .tc := ⟨.hbm, 415, rfl⟩
abbrev main_v312 : Ref sig .tc := ⟨.hbm, 416, rfl⟩
abbrev main_v313 : Ref sig .tc := ⟨.hbm, 417, rfl⟩
abbrev main_c_72 : Ref sig .tc := ⟨.hbm, 418, rfl⟩
abbrev main_v314 : Ref sig .tc := ⟨.hbm, 419, rfl⟩
abbrev main_v315 : Ref sig .tc := ⟨.hbm, 420, rfl⟩
abbrev main_v316 : Ref sig .tc := ⟨.hbm, 421, rfl⟩
abbrev main_v317 : Ref sig .tc := ⟨.hbm, 422, rfl⟩
abbrev main_v318 : Ref sig .tc := ⟨.hbm, 423, rfl⟩
abbrev main_v319 : Ref sig .tc := ⟨.hbm, 424, rfl⟩
abbrev main_v320 : Ref sig .tc := ⟨.hbm, 425, rfl⟩
abbrev main_v321 : Ref sig .tc := ⟨.hbm, 426, rfl⟩
abbrev main_cst_73 : Ref sig .tc := ⟨.hbm, 427, rfl⟩
abbrev main_v322 : Ref sig .tc := ⟨.hbm, 428, rfl⟩
abbrev main_v323 : Ref sig .tc := ⟨.hbm, 429, rfl⟩
abbrev main_v324 : Ref sig .tc := ⟨.hbm, 430, rfl⟩
abbrev main_v325 : Ref sig .tc := ⟨.hbm, 431, rfl⟩
abbrev main_v326 : Ref sig .tc := ⟨.hbm, 432, rfl⟩
abbrev main_v327 : Ref sig .tc := ⟨.hbm, 433, rfl⟩
abbrev main_v328 : Ref sig .tc := ⟨.hbm, 434, rfl⟩
abbrev main_v329 : Ref sig .tc := ⟨.hbm, 435, rfl⟩
abbrev main_v330 : Ref sig .tc := ⟨.hbm, 436, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S2x200000_S1x200000_0_0 : S2x200000.Slices ![0, 0] S1x200000
  shapeCasts_S1x200000_S200000 : S1x200000.ShapeCasts S200000
  concatenates_S200000_S50000_S250000_d0 : Shape.Concatenates [S200000, S50000] S250000 0
  slices_S2x200000_S1x200000_1_0 : S2x200000.Slices ![1, 0] S1x200000
  bcast_S_S250000 : S_.BroadcastsInDim S250000 (![] : Fin 0 → Fin S250000.rank)
  bcast_S250000_S250000x1_0 : S250000.BroadcastsInDim S250000x1 (![0] : Fin 1 → Fin S250000x1.rank)
  bcast_S250000x1_S250000x128_0_1 : S250000x1.BroadcastsInDim S250000x128 (![0, 1] : Fin 2 → Fin S250000x128.rank)
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S250000x1_S250000x64_0_1 : S250000x1.BroadcastsInDim S250000x64 (![0, 1] : Fin 2 → Fin S250000x64.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S50000_S250000x1_S250000_n_0_0_1_wf : ScatterDims.WF S50000 S250000x1 S250000 [] [0] [0] 1
  gather_S50000_S250000x1_S250000_n_0_n_n_0_1_1_wf : GatherDims.WF S50000 S250000x1 S250000 [] [0] [] [0] [] 1 ![1]
  gather_S50000x128_S250000x1_S250000x128_1_0_n_n_0_1_1128_wf : GatherDims.WF S50000x128 S250000x1 S250000x128 [1] [0] [] [0] [] 1 ![1, 128]
  scatter_S50000x128_S250000x1_S250000x128_1_0_0_1_wf : ScatterDims.WF S50000x128 S250000x1 S250000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  gather_S50000x64_S250000x1_S250000x64_1_0_n_n_0_1_164_wf : GatherDims.WF S50000x64 S250000x1 S250000x64 [1] [0] [] [0] [] 1 ![1, 64]
  scatter_S50000x64_S250000x1_S250000x64_1_0_0_1_wf : ScatterDims.WF S50000x64 S250000x1 S250000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf
def gather_S50000_S250000x1_S250000_n_0_n_n_0_1_1 : GatherDims S50000 S250000x1 S250000 where
  offsetDims := []
  collapsedSliceDims := [0]
  operandBatchingDims := []
  startIndicesBatchingDims := []
  startIndexMap := [0]
  indexVectorDim := 1
  sliceSizes := ![1]
  wf := gather_S50000_S250000x1_S250000_n_0_n_n_0_1_1_wf
def gather_S50000x128_S250000x1_S250000x128_1_0_n_n_0_1_1128 : GatherDims S50000x128 S250000x1 S250000x128 where
  offsetDims := [1]
  collapsedSliceDims := [0]
  operandBatchingDims := []
  startIndicesBatchingDims := []
  startIndexMap := [0]
  indexVectorDim := 1
  sliceSizes := ![1, 128]
  wf := gather_S50000x128_S250000x1_S250000x128_1_0_n_n_0_1_1128_wf
def scatter_S50000x128_S250000x1_S250000x128_1_0_0_1 : ScatterDims S50000x128 S250000x1 S250000x128 where
  updateWindowDims := [1]
  insertedWindowDims := [0]
  scatterDimsToOperandDims := [0]
  indexVectorDim := 1
  wf := scatter_S50000x128_S250000x1_S250000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def gather_S50000x64_S250000x1_S250000x64_1_0_n_n_0_1_164 : GatherDims S50000x64 S250000x1 S250000x64 where
  offsetDims := [1]
  collapsedSliceDims := [0]
  operandBatchingDims := []
  startIndicesBatchingDims := []
  startIndexMap := [0]
  indexVectorDim := 1
  sliceSizes := ![1, 64]
  wf := gather_S50000x64_S250000x1_S250000x64_1_0_n_n_0_1_164_wf
def scatter_S50000x64_S250000x1_S250000x64_1_0_0_1 : ScatterDims S50000x64 S250000x1 S250000x64 where
  updateWindowDims := [1]
  insertedWindowDims := [0]
  scatterDimsToOperandDims := [0]
  indexVectorDim := 1
  wf := scatter_S50000x64_S250000x1_S250000x64_1_0_0_1_wf

class Facts : Prop extends Facts₀ where

variable [Facts]
-- ==== Proof.KernelRun.lean ====
/-
  The whole program's run, with the result array exposed.

  The program is thirteen segments in order — stretches of host operations and five tiled regions — and its run is the
  fold of the segments from the launch memory: after the last segment every unscoped buffer `b` of a device `c` holds
  `W13 m ρ c b`, the contents the fold assigns to it. Reading the final state against that assignment at the fifteen
  buffers of interest gives: the result buffer holds the fold's value for it, and each of the fourteen argument arrays
  holds what it held at launch (the fold never writes an argument).
-/
import proofs.«129987_j9371618640565_1_alg».proof.Proof.Gen.KernelIdeal.Frame

set_option maxRecDepth 16384

noncomputable section

namespace Cert.KernelIdeal.RunK

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters, every weakly fair execution of the program terminates, nothing faulting, and in
    every final state the result buffer holds the value the fold of the segments assigns to it, and every argument
    array is as launched. -/
theorem run_result : θ_run defs (onTc (τ := τ) (main (F := F))) ⟨m, fun _ => 0, ρ⟩ (fun r => ∀ c : Dev nD,
      r.2.mem ((c.tc : Thread nD τ).loc main_v179) = W13 m ρ c (Proc.devRef .tc main_v179)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v179 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c)⟩)

end Cert.KernelIdeal.RunK

end
-- ==== Proof.Carry.lean ====
/-
  Buffers that nothing in between writes keep their contents.

  Both programs are folds of a list of steps over the launch memory: each host operation rewrites its one result
  buffer and leaves every other buffer as it was, and a tiled region rewrites its window arrays and leaves every other
  buffer as it was. So the contents of a buffer at a later boundary are its contents at an earlier one as soon as no
  step in between has it as a result — which is a finite check over the steps' result names. The facts below are that
  check, carried out for the argument arrays at the boundaries where each layer reads them, and for the six graph
  arrays (edge sources, targets and weights) that are computed once before the first region and read by all three
  layers.
-/
import proofs.«129987_j9371618640565_1_alg».proof.Proof.Gen.KernelIdeal.Frame
import proofs.«129987_j9371618640565_1_alg».proof.Proof.RefRun

set_option maxRecDepth 16384

noncomputable section

namespace Cert.Carry

open Idealize.ShloMosaic Idealize.ShloMosaic.TcCoe Idealize.SL.Sem

/-- No operation of the list `l` has the buffer `b` as its result, so the fold of `l` leaves `b` as it was: the result
    names are read off the list one by one and told apart from `b`. -/
local macro "keeps " l:ident b:term : tactic => `(tactic| (
  refine StableHlo.after_of_forall_not_mem (b := Proc.devRef .tc $b) _ _ (List.forall_iff_forall_mem.mp ?_)
  simp only [$l:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The reference: no operation has an argument array as its result, so at every boundary it is the launch array -/

section Reference

open Cert.ReferenceIdeal Cert.ReferenceIdeal.Gen Cert.ReferenceIdeal.RunP

variable {F : FTy → Type} [FloatOps F]
variable (m : (ℓ : Loc nD τ sig) → Buf (Elt F) ℓ) (c : Dev nD)

/-- At launch every buffer holds what the launch memory holds. -/
theorem R0_at (b : Ref sig .tc) : R0 m c (Proc.devRef .tc b) = m ((c.tc : Thread nD τ).loc b) := rfl

/-! The operations of piece 0 write no argument. -/
theorem R1_arg0 : R1 m c (Proc.devRef .tc main_arg0) = m ((c.tc : Thread nD τ).loc main_arg0) :=
  (show R1 m c (Proc.devRef .tc main_arg0) = R0 m c (Proc.devRef .tc main_arg0) by
    unfold R1; keeps ops0 main_arg0).trans (R0_at m c main_arg0)
theorem R1_arg1 : R1 m c (Proc.devRef .tc main_arg1) = m ((c.tc : Thread nD τ).loc main_arg1) :=
  (show R1 m c (Proc.devRef .tc main_arg1) = R0 m c (Proc.devRef .tc main_arg1) by
    unfold R1; keeps ops0 main_arg1).trans (R0_at m c main_arg1)
theorem R1_arg2 : R1 m c (Proc.devRef .tc main_arg2) = m ((c.tc : Thread nD τ).loc main_arg2) :=
  (show R1 m c (Proc.devRef .tc main_arg2) = R0 m c (Proc.devRef .tc main_arg2) by
    unfold R1; keeps ops0 main_arg2).trans (R0_at m c main_arg2)
theorem R1_arg3 : R1 m c (Proc.devRef .tc main_arg3) = m ((c.tc : Thread nD τ).loc main_arg3) :=
  (show R1 m c (Proc.devRef .tc main_arg3) = R0 m c (Proc.devRef .tc main_arg3) by
    unfold R1; keeps ops0 main_arg3).trans (R0_at m c main_arg3)
theorem R1_arg4 : R1 m c (Proc.devRef .tc main_arg4) = m ((c.tc : Thread nD τ).loc main_arg4) :=
  (show R1 m c (Proc.devRef .tc main_arg4) = R0 m c (Proc.devRef .tc main_arg4) by
    unfold R1; keeps ops0 main_arg4).trans (R0_at m c main_arg4)
theorem R1_arg5 : R1 m c (Proc.devRef .tc main_arg5) = m ((c.tc : Thread nD τ).loc main_arg5) :=
  (show R1 m c (Proc.devRef .tc main_arg5) = R0 m c (Proc.devRef .tc main_arg5) by
    unfold R1; keeps ops0 main_arg5).trans (R0_at m c main_arg5)
theorem R1_arg6 : R1 m c (Proc.devRef .tc main_arg6) = m ((c.tc : Thread nD τ).loc main_arg6) :=
  (show R1 m c (Proc.devRef .tc main_arg6) = R0 m c (Proc.devRef .tc main_arg6) by
    unfold R1; keeps ops0 main_arg6).trans (R0_at m c main_arg6)
theorem R1_arg7 : R1 m c (Proc.devRef .tc main_arg7) = m ((c.tc : Thread nD τ).loc main_arg7) :=
  (show R1 m c (Proc.devRef .tc main_arg7) = R0 m c (Proc.devRef .tc main_arg7) by
    unfold R1; keeps ops0 main_arg7).trans (R0_at m c main_arg7)
theorem R1_arg8 : R1 m c (Proc.devRef .tc main_arg8) = m ((c.tc : Thread nD τ).loc main_arg8) :=
  (show R1 m c (Proc.devRef .tc main_arg8) = R0 m c (Proc.devRef .tc main_arg8) by
    unfold R1; keeps ops0 main_arg8).trans (R0_at m c main_arg8)
theorem R1_arg9 : R1 m c (Proc.devRef .tc main_arg9) = m ((c.tc : Thread nD τ).loc main_arg9) :=
  (show R1 m c (Proc.devRef .tc main_arg9) = R0 m c (Proc.devRef .tc main_arg9) by
    unfold R1; keeps ops0 main_arg9).trans (R0_at m c main_arg9)
theorem R1_arg10 : R1 m c (Proc.devRef .tc main_arg10) = m ((c.tc : Thread nD τ).loc main_arg10) :=
  (show R1 m c (Proc.devRef .tc main_arg10) = R0 m c (Proc.devRef .tc main_arg10) by
    unfold R1; keeps ops0 main_arg10).trans (R0_at m c main_arg10)
theorem R1_arg11 : R1 m c (Proc.devRef .tc main_arg11) = m ((c.tc : Thread nD τ).loc main_arg11) :=
  (show R1 m c (Proc.devRef .tc main_arg11) = R0 m c (Proc.devRef .tc main_arg11) by
    unfold R1; keeps ops0 main_arg11).trans (R0_at m c main_arg11)
theorem R1_arg12 : R1 m c (Proc.devRef .tc main_arg12) = m ((c.tc : Thread nD τ).loc main_arg12) :=
  (show R1 m c (Proc.devRef .tc main_arg12) = R0 m c (Proc.devRef .tc main_arg12) by
    unfold R1; keeps ops0 main_arg12).trans (R0_at m c main_arg12)
theorem R1_arg13 : R1 m c (Proc.devRef .tc main_arg13) = m ((c.tc : Thread nD τ).loc main_arg13) :=
  (show R1 m c (Proc.devRef .tc main_arg13) = R0 m c (Proc.devRef .tc main_arg13) by
    unfold R1; keeps ops0 main_arg13).trans (R0_at m c main_arg13)

/-! The operations of piece 1 write no argument. -/
theorem R2_arg0 : R2 m c (Proc.devRef .tc main_arg0) = m ((c.tc : Thread nD τ).loc main_arg0) :=
  (show R2 m c (Proc.devRef .tc main_arg0) = R1 m c (Proc.devRef .tc main_arg0) by
    unfold R2; keeps ops1 main_arg0).trans (R1_arg0 m c)
theorem R2_arg1 : R2 m c (Proc.devRef .tc main_arg1) = m ((c.tc : Thread nD τ).loc main_arg1) :=
  (show R2 m c (Proc.devRef .tc main_arg1) = R1 m c (Proc.devRef .tc main_arg1) by
    unfold R2; keeps ops1 main_arg1).trans (R1_arg1 m c)
theorem R2_arg2 : R2 m c (Proc.devRef .tc main_arg2) = m ((c.tc : Thread nD τ).loc main_arg2) :=
  (show R2 m c (Proc.devRef .tc main_arg2) = R1 m c (Proc.devRef .tc main_arg2) by
    unfold R2; keeps ops1 main_arg2).trans (R1_arg2 m c)
theorem R2_arg3 : R2 m c (Proc.devRef .tc main_arg3) = m ((c.tc : Thread nD τ).loc main_arg3) :=
  (show R2 m c (Proc.devRef .tc main_arg3) = R1 m c (Proc.devRef .tc main_arg3) by
    unfold R2; keeps ops1 main_arg3).trans (R1_arg3 m c)
theorem R2_arg4 : R2 m c (Proc.devRef .tc main_arg4) = m ((c.tc : Thread nD τ).loc main_arg4) :=
  (show R2 m c (Proc.devRef .tc main_arg4) = R1 m c (Proc.devRef .tc main_arg4) by
    unfold R2; keeps ops1 main_arg4).trans (R1_arg4 m c)
theorem R2_arg5 : R2 m c (Proc.devRef .tc main_arg5) = m ((c.tc : Thread nD τ).loc main_arg5) :=
  (show R2 m c (Proc.devRef .tc main_arg5) = R1 m c (Proc.devRef .tc main_arg5) by
    unfold R2; keeps ops1 main_arg5).trans (R1_arg5 m c)
theorem R2_arg6 : R2 m c (Proc.devRef .tc main_arg6) = m ((c.tc : Thread nD τ).loc main_arg6) :=
  (show R2 m c (Proc.devRef .tc main_arg6) = R1 m c (Proc.devRef .tc main_arg6) by
    unfold R2; keeps ops1 main_arg6).trans (R1_arg6 m c)
theorem R2_arg7 : R2 m c (Proc.devRef .tc main_arg7) = m ((c.tc : Thread nD τ).loc main_arg7) :=
  (show R2 m c (Proc.devRef .tc main_arg7) = R1 m c (Proc.devRef .tc main_arg7) by
    unfold R2; keeps ops1 main_arg7).trans (R1_arg7 m c)
theorem R2_arg8 : R2 m c (Proc.devRef .tc main_arg8) = m ((c.tc : Thread nD τ).loc main_arg8) :=
  (show R2 m c (Proc.devRef .tc main_arg8) = R1 m c (Proc.devRef .tc main_arg8) by
    unfold R2; keeps ops1 main_arg8).trans (R1_arg8 m c)
theorem R2_arg9 : R2 m c (Proc.devRef .tc main_arg9) = m ((c.tc : Thread nD τ).loc main_arg9) :=
  (show R2 m c (Proc.devRef .tc main_arg9) = R1 m c (Proc.devRef .tc main_arg9) by
    unfold R2; keeps ops1 main_arg9).trans (R1_arg9 m c)
theorem R2_arg10 : R2 m c (Proc.devRef .tc main_arg10) = m ((c.tc : Thread nD τ).loc main_arg10) :=
  (show R2 m c (Proc.devRef .tc main_arg10) = R1 m c (Proc.devRef .tc main_arg10) by
    unfold R2; keeps ops1 main_arg10).trans (R1_arg10 m c)
theorem R2_arg11 : R2 m c (Proc.devRef .tc main_arg11) = m ((c.tc : Thread nD τ).loc main_arg11) :=
  (show R2 m c (Proc.devRef .tc main_arg11) = R1 m c (Proc.devRef .tc main_arg11) by
    unfold R2; keeps ops1 main_arg11).trans (R1_arg11 m c)
theorem R2_arg12 : R2 m c (Proc.devRef .tc main_arg12) = m ((c.tc : Thread nD τ).loc main_arg12) :=
  (show R2 m c (Proc.devRef .tc main_arg12) = R1 m c (Proc.devRef .tc main_arg12) by
    unfold R2; keeps ops1 main_arg12).trans (R1_arg12 m c)
theorem R2_arg13 : R2 m c (Proc.devRef .tc main_arg13) = m ((c.tc : Thread nD τ).loc main_arg13) :=
  (show R2 m c (Proc.devRef .tc main_arg13) = R1 m c (Proc.devRef .tc main_arg13) by
    unfold R2; keeps ops1 main_arg13).trans (R1_arg13 m c)

/-! The operations of piece 2 write no argument. -/
theorem R3_arg0 : R3 m c (Proc.devRef .tc main_arg0) = m ((c.tc : Thread nD τ).loc main_arg0) :=
  (show R3 m c (Proc.devRef .tc main_arg0) = R2 m c (Proc.devRef .tc main_arg0) by
    unfold R3; keeps ops2 main_arg0).trans (R2_arg0 m c)
theorem R3_arg1 : R3 m c (Proc.devRef .tc main_arg1) = m ((c.tc : Thread nD τ).loc main_arg1) :=
  (show R3 m c (Proc.devRef .tc main_arg1) = R2 m c (Proc.devRef .tc main_arg1) by
    unfold R3; keeps ops2 main_arg1).trans (R2_arg1 m c)
theorem R3_arg2 : R3 m c (Proc.devRef .tc main_arg2) = m ((c.tc : Thread nD τ).loc main_arg2) :=
  (show R3 m c (Proc.devRef .tc main_arg2) = R2 m c (Proc.devRef .tc main_arg2) by
    unfold R3; keeps ops2 main_arg2).trans (R2_arg2 m c)
theorem R3_arg3 : R3 m c (Proc.devRef .tc main_arg3) = m ((c.tc : Thread nD τ).loc main_arg3) :=
  (show R3 m c (Proc.devRef .tc main_arg3) = R2 m c (Proc.devRef .tc main_arg3) by
    unfold R3; keeps ops2 main_arg3).trans (R2_arg3 m c)
theorem R3_arg4 : R3 m c (Proc.devRef .tc main_arg4) = m ((c.tc : Thread nD τ).loc main_arg4) :=
  (show R3 m c (Proc.devRef .tc main_arg4) = R2 m c (Proc.devRef .tc main_arg4) by
    unfold R3; keeps ops2 main_arg4).trans (R2_arg4 m c)
theorem R3_arg5 : R3 m c (Proc.devRef .tc main_arg5) = m ((c.tc : Thread nD τ).loc main_arg5) :=
  (show R3 m c (Proc.devRef .tc main_arg5) = R2 m c (Proc.devRef .tc main_arg5) by
    unfold R3; keeps ops2 main_arg5).trans (R2_arg5 m c)
theorem R3_arg6 : R3 m c (Proc.devRef .tc main_arg6) = m ((c.tc : Thread nD τ).loc main_arg6) :=
  (show R3 m c (Proc.devRef .tc main_arg6) = R2 m c (Proc.devRef .tc main_arg6) by
    unfold R3; keeps ops2 main_arg6).trans (R2_arg6 m c)
theorem R3_arg7 : R3 m c (Proc.devRef .tc main_arg7) = m ((c.tc : Thread nD τ).loc main_arg7) :=
  (show R3 m c (Proc.devRef .tc main_arg7) = R2 m c (Proc.devRef .tc main_arg7) by
    unfold R3; keeps ops2 main_arg7).trans (R2_arg7 m c)
theorem R3_arg8 : R3 m c (Proc.devRef .tc main_arg8) = m ((c.tc : Thread nD τ).loc main_arg8) :=
  (show R3 m c (Proc.devRef .tc main_arg8) = R2 m c (Proc.devRef .tc main_arg8) by
    unfold R3; keeps ops2 main_arg8).trans (R2_arg8 m c)
theorem R3_arg9 : R3 m c (Proc.devRef .tc main_arg9) = m ((c.tc : Thread nD τ).loc main_arg9) :=
  (show R3 m c (Proc.devRef .tc main_arg9) = R2 m c (Proc.devRef .tc main_arg9) by
    unfold R3; keeps ops2 main_arg9).trans (R2_arg9 m c)
theorem R3_arg10 : R3 m c (Proc.devRef .tc main_arg10) = m ((c.tc : Thread nD τ).loc main_arg10) :=
  (show R3 m c (Proc.devRef .tc main_arg10) = R2 m c (Proc.devRef .tc main_arg10) by
    unfold R3; keeps ops2 main_arg10).trans (R2_arg10 m c)
theorem R3_arg11 : R3 m c (Proc.devRef .tc main_arg11) = m ((c.tc : Thread nD τ).loc main_arg11) :=
  (show R3 m c (Proc.devRef .tc main_arg11) = R2 m c (Proc.devRef .tc main_arg11) by
    unfold R3; keeps ops2 main_arg11).trans (R2_arg11 m c)
theorem R3_arg12 : R3 m c (Proc.devRef .tc main_arg12) = m ((c.tc : Thread nD τ).loc main_arg12) :=
  (show R3 m c (Proc.devRef .tc main_arg12) = R2 m c (Proc.devRef .tc main_arg12) by
    unfold R3; keeps ops2 main_arg12).trans (R2_arg12 m c)
theorem R3_arg13 : R3 m c (Proc.devRef .tc main_arg13) = m ((c.tc : Thread nD τ).loc main_arg13) :=
  (show R3 m c (Proc.devRef .tc main_arg13) = R2 m c (Proc.devRef .tc main_arg13) by
    unfold R3; keeps ops2 main_arg13).trans (R2_arg13 m c)

/-! The operations of piece 3 write no argument. -/
theorem R4_arg0 : R4 m c (Proc.devRef .tc main_arg0) = m ((c.tc : Thread nD τ).loc main_arg0) :=
  (show R4 m c (Proc.devRef .tc main_arg0) = R3 m c (Proc.devRef .tc main_arg0) by
    unfold R4; keeps ops3 main_arg0).trans (R3_arg0 m c)
theorem R4_arg1 : R4 m c (Proc.devRef .tc main_arg1) = m ((c.tc : Thread nD τ).loc main_arg1) :=
  (show R4 m c (Proc.devRef .tc main_arg1) = R3 m c (Proc.devRef .tc main_arg1) by
    unfold R4; keeps ops3 main_arg1).trans (R3_arg1 m c)
theorem R4_arg2 : R4 m c (Proc.devRef .tc main_arg2) = m ((c.tc : Thread nD τ).loc main_arg2) :=
  (show R4 m c (Proc.devRef .tc main_arg2) = R3 m c (Proc.devRef .tc main_arg2) by
    unfold R4; keeps ops3 main_arg2).trans (R3_arg2 m c)
theorem R4_arg3 : R4 m c (Proc.devRef .tc main_arg3) = m ((c.tc : Thread nD τ).loc main_arg3) :=
  (show R4 m c (Proc.devRef .tc main_arg3) = R3 m c (Proc.devRef .tc main_arg3) by
    unfold R4; keeps ops3 main_arg3).trans (R3_arg3 m c)
theorem R4_arg4 : R4 m c (Proc.devRef .tc main_arg4) = m ((c.tc : Thread nD τ).loc main_arg4) :=
  (show R4 m c (Proc.devRef .tc main_arg4) = R3 m c (Proc.devRef .tc main_arg4) by
    unfold R4; keeps ops3 main_arg4).trans (R3_arg4 m c)
theorem R4_arg5 : R4 m c (Proc.devRef .tc main_arg5) = m ((c.tc : Thread nD τ).loc main_arg5) :=
  (show R4 m c (Proc.devRef .tc main_arg5) = R3 m c (Proc.devRef .tc main_arg5) by
    unfold R4; keeps ops3 main_arg5).trans (R3_arg5 m c)
theorem R4_arg6 : R4 m c (Proc.devRef .tc main_arg6) = m ((c.tc : Thread nD τ).loc main_arg6) :=
  (show R4 m c (Proc.devRef .tc main_arg6) = R3 m c (Proc.devRef .tc main_arg6) by
    unfold R4; keeps ops3 main_arg6).trans (R3_arg6 m c)
theorem R4_arg7 : R4 m c (Proc.devRef .tc main_arg7) = m ((c.tc : Thread nD τ).loc main_arg7) :=
  (show R4 m c (Proc.devRef .tc main_arg7) = R3 m c (Proc.devRef .tc main_arg7) by
    unfold R4; keeps ops3 main_arg7).trans (R3_arg7 m c)
theorem R4_arg8 : R4 m c (Proc.devRef .tc main_arg8) = m ((c.tc : Thread nD τ).loc main_arg8) :=
  (show R4 m c (Proc.devRef .tc main_arg8) = R3 m c (Proc.devRef .tc main_arg8) by
    unfold R4; keeps ops3 main_arg8).trans (R3_arg8 m c)
theorem R4_arg9 : R4 m c (Proc.devRef .tc main_arg9) = m ((c.tc : Thread nD τ).loc main_arg9) :=
  (show R4 m c (Proc.devRef .tc main_arg9) = R3 m c (Proc.devRef .tc main_arg9) by
    unfold R4; keeps ops3 main_arg9).trans (R3_arg9 m c)
theorem R4_arg10 : R4 m c (Proc.devRef .tc main_arg10) = m ((c.tc : Thread nD τ).loc main_arg10) :=
  (show R4 m c (Proc.devRef .tc main_arg10) = R3 m c (Proc.devRef .tc main_arg10) by
    unfold R4; keeps ops3 main_arg10).trans (R3_arg10 m c)
theorem R4_arg11 : R4 m c (Proc.devRef .tc main_arg11) = m ((c.tc : Thread nD τ).loc main_arg11) :=
  (show R4 m c (Proc.devRef .tc main_arg11) = R3 m c (Proc.devRef .tc main_arg11) by
    unfold R4; keeps ops3 main_arg11).trans (R3_arg11 m c)
theorem R4_arg12 : R4 m c (Proc.devRef .tc main_arg12) = m ((c.tc : Thread nD τ).loc main_arg12) :=
  (show R4 m c (Proc.devRef .tc main_arg12) = R3 m c (Proc.devRef .tc main_arg12) by
    unfold R4; keeps ops3 main_arg12).trans (R3_arg12 m c)
theorem R4_arg13 : R4 m c (Proc.devRef .tc main_arg13) = m ((c.tc : Thread nD τ).loc main_arg13) :=
  (show R4 m c (Proc.devRef .tc main_arg13) = R3 m c (Proc.devRef .tc main_arg13) by
    unfold R4; keeps ops3 main_arg13).trans (R3_arg13 m c)

/-! The operations of piece 4 write no argument. -/
theorem R5_arg0 : R5 m c (Proc.devRef .tc main_arg0) = m ((c.tc : Thread nD τ).loc main_arg0) :=
  (show R5 m c (Proc.devRef .tc main_arg0) = R4 m c (Proc.devRef .tc main_arg0) by
    unfold R5; keeps ops4 main_arg0).trans (R4_arg0 m c)
theorem R5_arg1 : R5 m c (Proc.devRef .tc main_arg1) = m ((c.tc : Thread nD τ).loc main_arg1) :=
  (show R5 m c (Proc.devRef .tc main_arg1) = R4 m c (Proc.devRef .tc main_arg1) by
    unfold R5; keeps ops4 main_arg1).trans (R4_arg1 m c)
theorem R5_arg2 : R5 m c (Proc.devRef .tc main_arg2) = m ((c.tc : Thread nD τ).loc main_arg2) :=
  (show R5 m c (Proc.devRef .tc main_arg2) = R4 m c (Proc.devRef .tc main_arg2) by
    unfold R5; keeps ops4 main_arg2).trans (R4_arg2 m c)
theorem R5_arg3 : R5 m c (Proc.devRef .tc main_arg3) = m ((c.tc : Thread nD τ).loc main_arg3) :=
  (show R5 m c (Proc.devRef .tc main_arg3) = R4 m c (Proc.devRef .tc main_arg3) by
    unfold R5; keeps ops4 main_arg3).trans (R4_arg3 m c)
theorem R5_arg4 : R5 m c (Proc.devRef .tc main_arg4) = m ((c.tc : Thread nD τ).loc main_arg4) :=
  (show R5 m c (Proc.devRef .tc main_arg4) = R4 m c (Proc.devRef .tc main_arg4) by
    unfold R5; keeps ops4 main_arg4).trans (R4_arg4 m c)
theorem R5_arg5 : R5 m c (Proc.devRef .tc main_arg5) = m ((c.tc : Thread nD τ).loc main_arg5) :=
  (show R5 m c (Proc.devRef .tc main_arg5) = R4 m c (Proc.devRef .tc main_arg5) by
    unfold R5; keeps ops4 main_arg5).trans (R4_arg5 m c)
theorem R5_arg6 : R5 m c (Proc.devRef .tc main_arg6) = m ((c.tc : Thread nD τ).loc main_arg6) :=
  (show R5 m c (Proc.devRef .tc main_arg6) = R4 m c (Proc.devRef .tc main_arg6) by
    unfold R5; keeps ops4 main_arg6).trans (R4_arg6 m c)
theorem R5_arg7 : R5 m c (Proc.devRef .tc main_arg7) = m ((c.tc : Thread nD τ).loc main_arg7) :=
  (show R5 m c (Proc.devRef .tc main_arg7) = R4 m c (Proc.devRef .tc main_arg7) by
    unfold R5; keeps ops4 main_arg7).trans (R4_arg7 m c)
theorem R5_arg8 : R5 m c (Proc.devRef .tc main_arg8) = m ((c.tc : Thread nD τ).loc main_arg8) :=
  (show R5 m c (Proc.devRef .tc main_arg8) = R4 m c (Proc.devRef .tc main_arg8) by
    unfold R5; keeps ops4 main_arg8).trans (R4_arg8 m c)
theorem R5_arg9 : R5 m c (Proc.devRef .tc main_arg9) = m ((c.tc : Thread nD τ).loc main_arg9) :=
  (show R5 m c (Proc.devRef .tc main_arg9) = R4 m c (Proc.devRef .tc main_arg9) by
    unfold R5; keeps ops4 main_arg9).trans (R4_arg9 m c)
theorem R5_arg10 : R5 m c (Proc.devRef .tc main_arg10) = m ((c.tc : Thread nD τ).loc main_arg10) :=
  (show R5 m c (Proc.devRef .tc main_arg10) = R4 m c (Proc.devRef .tc main_arg10) by
    unfold R5; keeps ops4 main_arg10).trans (R4_arg10 m c)
theorem R5_arg11 : R5 m c (Proc.devRef .tc main_arg11) = m ((c.tc : Thread nD τ).loc main_arg11) :=
  (show R5 m c (Proc.devRef .tc main_arg11) = R4 m c (Proc.devRef .tc main_arg11) by
    unfold R5; keeps ops4 main_arg11).trans (R4_arg11 m c)
theorem R5_arg12 : R5 m c (Proc.devRef .tc main_arg12) = m ((c.tc : Thread nD τ).loc main_arg12) :=
  (show R5 m c (Proc.devRef .tc main_arg12) = R4 m c (Proc.devRef .tc main_arg12) by
    unfold R5; keeps ops4 main_arg12).trans (R4_arg12 m c)
theorem R5_arg13 : R5 m c (Proc.devRef .tc main_arg13) = m ((c.tc : Thread nD τ).loc main_arg13) :=
  (show R5 m c (Proc.devRef .tc main_arg13) = R4 m c (Proc.devRef .tc main_arg13) by
    unfold R5; keeps ops4 main_arg13).trans (R4_arg13 m c)

end Reference

/-! ## The kernel program: an argument array at the region boundary where it is read is the launch array -/

section Kernel

open Cert.KernelIdeal Cert.KernelIdeal.Gen

variable {F : FTy → Type} [FloatOps F]
variable (m : (ℓ : Loc nD τ sig) → Buf (Elt F) ℓ) (ρ : Dev nD → PrngReg) (c : Dev nD)

/-! Up to the first region: five stretches of host operations, none of which has an argument as its result. -/
theorem W5_arg0 : W5 m ρ c (Proc.devRef .tc main_arg0) = m ((c : Thread nD τ).loc main_arg0) :=
  calc W5 m ρ c (Proc.devRef .tc main_arg0)
    _ = W4 m ρ c (Proc.devRef .tc main_arg0) := by keeps hostOps0_4 main_arg0
    _ = W3 m ρ c (Proc.devRef .tc main_arg0) := by keeps hostOps0_3 main_arg0
    _ = W2 m ρ c (Proc.devRef .tc main_arg0) := by keeps hostOps0_2 main_arg0
    _ = W1 m ρ c (Proc.devRef .tc main_arg0) := by keeps hostOps0_1 main_arg0
    _ = W0 m ρ c (Proc.devRef .tc main_arg0) := by keeps hostOps0 main_arg0
    _ = m ((c : Thread nD τ).loc main_arg0) := rfl
theorem W5_arg3 : W5 m ρ c (Proc.devRef .tc main_arg3) = m ((c : Thread nD τ).loc main_arg3) :=
  calc W5 m ρ c (Proc.devRef .tc main_arg3)
    _ = W4 m ρ c (Proc.devRef .tc main_arg3) := by keeps hostOps0_4 main_arg3
    _ = W3 m ρ c (Proc.devRef .tc main_arg3) := by keeps hostOps0_3 main_arg3
    _ = W2 m ρ c (Proc.devRef .tc main_arg3) := by keeps hostOps0_2 main_arg3
    _ = W1 m ρ c (Proc.devRef .tc main_arg3) := by keeps hostOps0_1 main_arg3
    _ = W0 m ρ c (Proc.devRef .tc main_arg3) := by keeps hostOps0 main_arg3
    _ = m ((c : Thread nD τ).loc main_arg3) := rfl
theorem W5_arg7 : W5 m ρ c (Proc.devRef .tc main_arg7) = m ((c : Thread nD τ).loc main_arg7) :=
  calc W5 m ρ c (Proc.devRef .tc main_arg7)
    _ = W4 m ρ c (Proc.devRef .tc main_arg7) := by keeps hostOps0_4 main_arg7
    _ = W3 m ρ c (Proc.devRef .tc main_arg7) := by keeps hostOps0_3 main_arg7
    _ = W2 m ρ c (Proc.devRef .tc main_arg7) := by keeps hostOps0_2 main_arg7
    _ = W1 m ρ c (Proc.devRef .tc main_arg7) := by keeps hostOps0_1 main_arg7
    _ = W0 m ρ c (Proc.devRef .tc main_arg7) := by keeps hostOps0 main_arg7
    _ = m ((c : Thread nD τ).loc main_arg7) := rfl
theorem W5_arg10 : W5 m ρ c (Proc.devRef .tc main_arg10) = m ((c : Thread nD τ).loc main_arg10) :=
  calc W5 m ρ c (Proc.devRef .tc main_arg10)
    _ = W4 m ρ c (Proc.devRef .tc main_arg10) := by keeps hostOps0_4 main_arg10
    _ = W3 m ρ c (Proc.devRef .tc main_arg10) := by keeps hostOps0_3 main_arg10
    _ = W2 m ρ c (Proc.devRef .tc main_arg10) := by keeps hostOps0_2 main_arg10
    _ = W1 m ρ c (Proc.devRef .tc main_arg10) := by keeps hostOps0_1 main_arg10
    _ = W0 m ρ c (Proc.devRef .tc main_arg10) := by keeps hostOps0 main_arg10
    _ = m ((c : Thread nD τ).loc main_arg10) := rfl
theorem W5_arg11 : W5 m ρ c (Proc.devRef .tc main_arg11) = m ((c : Thread nD τ).loc main_arg11) :=
  calc W5 m ρ c (Proc.devRef .tc main_arg11)
    _ = W4 m ρ c (Proc.devRef .tc main_arg11) := by keeps hostOps0_4 main_arg11
    _ = W3 m ρ c (Proc.devRef .tc main_arg11) := by keeps hostOps0_3 main_arg11
    _ = W2 m ρ c (Proc.devRef .tc main_arg11) := by keeps hostOps0_2 main_arg11
    _ = W1 m ρ c (Proc.devRef .tc main_arg11) := by keeps hostOps0_1 main_arg11
    _ = W0 m ρ c (Proc.devRef .tc main_arg11) := by keeps hostOps0 main_arg11
    _ = m ((c : Thread nD τ).loc main_arg11) := rfl
theorem W5_arg4 : W5 m ρ c (Proc.devRef .tc main_arg4) = m ((c : Thread nD τ).loc main_arg4) :=
  calc W5 m ρ c (Proc.devRef .tc main_arg4)
    _ = W4 m ρ c (Proc.devRef .tc main_arg4) := by keeps hostOps0_4 main_arg4
    _ = W3 m ρ c (Proc.devRef .tc main_arg4) := by keeps hostOps0_3 main_arg4
    _ = W2 m ρ c (Proc.devRef .tc main_arg4) := by keeps hostOps0_2 main_arg4
    _ = W1 m ρ c (Proc.devRef .tc main_arg4) := by keeps hostOps0_1 main_arg4
    _ = W0 m ρ c (Proc.devRef .tc main_arg4) := by keeps hostOps0 main_arg4
    _ = m ((c : Thread nD τ).loc main_arg4) := rfl
theorem W5_arg8 : W5 m ρ c (Proc.devRef .tc main_arg8) = m ((c : Thread nD τ).loc main_arg8) :=
  calc W5 m ρ c (Proc.devRef .tc main_arg8)
    _ = W4 m ρ c (Proc.devRef .tc main_arg8) := by keeps hostOps0_4 main_arg8
    _ = W3 m ρ c (Proc.devRef .tc main_arg8) := by keeps hostOps0_3 main_arg8
    _ = W2 m ρ c (Proc.devRef .tc main_arg8) := by keeps hostOps0_2 main_arg8
    _ = W1 m ρ c (Proc.devRef .tc main_arg8) := by keeps hostOps0_1 main_arg8
    _ = W0 m ρ c (Proc.devRef .tc main_arg8) := by keeps hostOps0 main_arg8
    _ = m ((c : Thread nD τ).loc main_arg8) := rfl
theorem W5_arg12 : W5 m ρ c (Proc.devRef .tc main_arg12) = m ((c : Thread nD τ).loc main_arg12) :=
  calc W5 m ρ c (Proc.devRef .tc main_arg12)
    _ = W4 m ρ c (Proc.devRef .tc main_arg12) := by keeps hostOps0_4 main_arg12
    _ = W3 m ρ c (Proc.devRef .tc main_arg12) := by keeps hostOps0_3 main_arg12
    _ = W2 m ρ c (Proc.devRef .tc main_arg12) := by keeps hostOps0_2 main_arg12
    _ = W1 m ρ c (Proc.devRef .tc main_arg12) := by keeps hostOps0_1 main_arg12
    _ = W0 m ρ c (Proc.devRef .tc main_arg12) := by keeps hostOps0 main_arg12
    _ = m ((c : Thread nD τ).loc main_arg12) := rfl
theorem W5_arg13 : W5 m ρ c (Proc.devRef .tc main_arg13) = m ((c : Thread nD τ).loc main_arg13) :=
  calc W5 m ρ c (Proc.devRef .tc main_arg13)
    _ = W4 m ρ c (Proc.devRef .tc main_arg13) := by keeps hostOps0_4 main_arg13
    _ = W3 m ρ c (Proc.devRef .tc main_arg13) := by keeps hostOps0_3 main_arg13
    _ = W2 m ρ c (Proc.devRef .tc main_arg13) := by keeps hostOps0_2 main_arg13
    _ = W1 m ρ c (Proc.devRef .tc main_arg13) := by keeps hostOps0_1 main_arg13
    _ = W0 m ρ c (Proc.devRef .tc main_arg13) := by keeps hostOps0 main_arg13
    _ = m ((c : Thread nD τ).loc main_arg13) := rfl
theorem W5_arg5 : W5 m ρ c (Proc.devRef .tc main_arg5) = m ((c : Thread nD τ).loc main_arg5) :=
  calc W5 m ρ c (Proc.devRef .tc main_arg5)
    _ = W4 m ρ c (Proc.devRef .tc main_arg5) := by keeps hostOps0_4 main_arg5
    _ = W3 m ρ c (Proc.devRef .tc main_arg5) := by keeps hostOps0_3 main_arg5
    _ = W2 m ρ c (Proc.devRef .tc main_arg5) := by keeps hostOps0_2 main_arg5
    _ = W1 m ρ c (Proc.devRef .tc main_arg5) := by keeps hostOps0_1 main_arg5
    _ = W0 m ρ c (Proc.devRef .tc main_arg5) := by keeps hostOps0 main_arg5
    _ = m ((c : Thread nD τ).loc main_arg5) := rfl
theorem W5_arg9 : W5 m ρ c (Proc.devRef .tc main_arg9) = m ((c : Thread nD τ).loc main_arg9) :=
  calc W5 m ρ c (Proc.devRef .tc main_arg9)
    _ = W4 m ρ c (Proc.devRef .tc main_arg9) := by keeps hostOps0_4 main_arg9
    _ = W3 m ρ c (Proc.devRef .tc main_arg9) := by keeps hostOps0_3 main_arg9
    _ = W2 m ρ c (Proc.devRef .tc main_arg9) := by keeps hostOps0_2 main_arg9
    _ = W1 m ρ c (Proc.devRef .tc main_arg9) := by keeps hostOps0_1 main_arg9
    _ = W0 m ρ c (Proc.devRef .tc main_arg9) := by keeps hostOps0 main_arg9
    _ = m ((c : Thread nD τ).loc main_arg9) := rfl
theorem W5_arg6 : W5 m ρ c (Proc.devRef .tc main_arg6) = m ((c : Thread nD τ).loc main_arg6) :=
  calc W5 m ρ c (Proc.devRef .tc main_arg6)
    _ = W4 m ρ c (Proc.devRef .tc main_arg6) := by keeps hostOps0_4 main_arg6
    _ = W3 m ρ c (Proc.devRef .tc main_arg6) := by keeps hostOps0_3 main_arg6
    _ = W2 m ρ c (Proc.devRef .tc main_arg6) := by keeps hostOps0_2 main_arg6
    _ = W1 m ρ c (Proc.devRef .tc main_arg6) := by keeps hostOps0_1 main_arg6
    _ = W0 m ρ c (Proc.devRef .tc main_arg6) := by keeps hostOps0 main_arg6
    _ = m ((c : Thread nD τ).loc main_arg6) := rfl

/-! Across region 0: these arguments are not among its window arrays. -/
theorem W6_arg10 : W6 m ρ c (Proc.devRef .tc main_arg10) = m ((c : Thread nD τ).loc main_arg10) :=
  (W6_of_ne m ρ c main_arg10 (by decide)).trans (W5_arg10 m ρ c)
theorem W6_arg11 : W6 m ρ c (Proc.devRef .tc main_arg11) = m ((c : Thread nD τ).loc main_arg11) :=
  (W6_of_ne m ρ c main_arg11 (by decide)).trans (W5_arg11 m ρ c)
theorem W6_arg4 : W6 m ρ c (Proc.devRef .tc main_arg4) = m ((c : Thread nD τ).loc main_arg4) :=
  (W6_of_ne m ρ c main_arg4 (by decide)).trans (W5_arg4 m ρ c)
theorem W6_arg8 : W6 m ρ c (Proc.devRef .tc main_arg8) = m ((c : Thread nD τ).loc main_arg8) :=
  (W6_of_ne m ρ c main_arg8 (by decide)).trans (W5_arg8 m ρ c)
theorem W6_arg12 : W6 m ρ c (Proc.devRef .tc main_arg12) = m ((c : Thread nD τ).loc main_arg12) :=
  (W6_of_ne m ρ c main_arg12 (by decide)).trans (W5_arg12 m ρ c)
theorem W6_arg13 : W6 m ρ c (Proc.devRef .tc main_arg13) = m ((c : Thread nD τ).loc main_arg13) :=
  (W6_of_ne m ρ c main_arg13 (by decide)).trans (W5_arg13 m ρ c)
theorem W6_arg5 : W6 m ρ c (Proc.devRef .tc main_arg5) = m ((c : Thread nD τ).loc main_arg5) :=
  (W6_of_ne m ρ c main_arg5 (by decide)).trans (W5_arg5 m ρ c)
theorem W6_arg9 : W6 m ρ c (Proc.devRef .tc main_arg9) = m ((c : Thread nD τ).loc main_arg9) :=
  (W6_of_ne m ρ c main_arg9 (by decide)).trans (W5_arg9 m ρ c)
theorem W6_arg6 : W6 m ρ c (Proc.devRef .tc main_arg6) = m ((c : Thread nD τ).loc main_arg6) :=
  (W6_of_ne m ρ c main_arg6 (by decide)).trans (W5_arg6 m ρ c)

/-! The stretch between regions 0 and 1, then region 1. -/
theorem W7_arg4 : W7 m ρ c (Proc.devRef .tc main_arg4) = m ((c : Thread nD τ).loc main_arg4) :=
  (show W7 m ρ c (Proc.devRef .tc main_arg4) = W6 m ρ c (Proc.devRef .tc main_arg4) by keeps hostOps1 main_arg4).trans (W6_arg4 m ρ c)
theorem W7_arg8 : W7 m ρ c (Proc.devRef .tc main_arg8) = m ((c : Thread nD τ).loc main_arg8) :=
  (show W7 m ρ c (Proc.devRef .tc main_arg8) = W6 m ρ c (Proc.devRef .tc main_arg8) by keeps hostOps1 main_arg8).trans (W6_arg8 m ρ c)
theorem W7_arg12 : W7 m ρ c (Proc.devRef .tc main_arg12) = m ((c : Thread nD τ).loc main_arg12) :=
  (show W7 m ρ c (Proc.devRef .tc main_arg12) = W6 m ρ c (Proc.devRef .tc main_arg12) by keeps hostOps1 main_arg12).trans (W6_arg12 m ρ c)
theorem W7_arg13 : W7 m ρ c (Proc.devRef .tc main_arg13) = m ((c : Thread nD τ).loc main_arg13) :=
  (show W7 m ρ c (Proc.devRef .tc main_arg13) = W6 m ρ c (Proc.devRef .tc main_arg13) by keeps hostOps1 main_arg13).trans (W6_arg13 m ρ c)
theorem W7_arg5 : W7 m ρ c (Proc.devRef .tc main_arg5) = m ((c : Thread nD τ).loc main_arg5) :=
  (show W7 m ρ c (Proc.devRef .tc main_arg5) = W6 m ρ c (Proc.devRef .tc main_arg5) by keeps hostOps1 main_arg5).trans (W6_arg5 m ρ c)
theorem W7_arg9 : W7 m ρ c (Proc.devRef .tc main_arg9) = m ((c : Thread nD τ).loc main_arg9) :=
  (show W7 m ρ c (Proc.devRef .tc main_arg9) = W6 m ρ c (Proc.devRef .tc main_arg9) by keeps hostOps1 main_arg9).trans (W6_arg9 m ρ c)
theorem W7_arg6 : W7 m ρ c (Proc.devRef .tc main_arg6) = m ((c : Thread nD τ).loc main_arg6) :=
  (show W7 m ρ c (Proc.devRef .tc main_arg6) = W6 m ρ c (Proc.devRef .tc main_arg6) by keeps hostOps1 main_arg6).trans (W6_arg6 m ρ c)
theorem W8_arg4 : W8 m ρ c (Proc.devRef .tc main_arg4) = m ((c : Thread nD τ).loc main_arg4) :=
  (W8_of_ne m ρ c main_arg4 (by decide)).trans (W7_arg4 m ρ c)
theorem W8_arg8 : W8 m ρ c (Proc.devRef .tc main_arg8) = m ((c : Thread nD τ).loc main_arg8) :=
  (W8_of_ne m ρ c main_arg8 (by decide)).trans (W7_arg8 m ρ c)
theorem W8_arg12 : W8 m ρ c (Proc.devRef .tc main_arg12) = m ((c : Thread nD τ).loc main_arg12) :=
  (W8_of_ne m ρ c main_arg12 (by decide)).trans (W7_arg12 m ρ c)
theorem W8_arg13 : W8 m ρ c (Proc.devRef .tc main_arg13) = m ((c : Thread nD τ).loc main_arg13) :=
  (W8_of_ne m ρ c main_arg13 (by decide)).trans (W7_arg13 m ρ c)
theorem W8_arg5 : W8 m ρ c (Proc.devRef .tc main_arg5) = m ((c : Thread nD τ).loc main_arg5) :=
  (W8_of_ne m ρ c main_arg5 (by decide)).trans (W7_arg5 m ρ c)
theorem W8_arg9 : W8 m ρ c (Proc.devRef .tc main_arg9) = m ((c : Thread nD τ).loc main_arg9) :=
  (W8_of_ne m ρ c main_arg9 (by decide)).trans (W7_arg9 m ρ c)
theorem W8_arg6 : W8 m ρ c (Proc.devRef .tc main_arg6) = m ((c : Thread nD τ).loc main_arg6) :=
  (W8_of_ne m ρ c main_arg6 (by decide)).trans (W7_arg6 m ρ c)

/-! Region 2. -/
theorem W9_arg12 : W9 m ρ c (Proc.devRef .tc main_arg12) = m ((c : Thread nD τ).loc main_arg12) :=
  (W9_of_ne m ρ c main_arg12 (by decide)).trans (W8_arg12 m ρ c)
theorem W9_arg13 : W9 m ρ c (Proc.devRef .tc main_arg13) = m ((c : Thread nD τ).loc main_arg13) :=
  (W9_of_ne m ρ c main_arg13 (by decide)).trans (W8_arg13 m ρ c)
theorem W9_arg5 : W9 m ρ c (Proc.devRef .tc main_arg5) = m ((c : Thread nD τ).loc main_arg5) :=
  (W9_of_ne m ρ c main_arg5 (by decide)).trans (W8_arg5 m ρ c)
theorem W9_arg9 : W9 m ρ c (Proc.devRef .tc main_arg9) = m ((c : Thread nD τ).loc main_arg9) :=
  (W9_of_ne m ρ c main_arg9 (by decide)).trans (W8_arg9 m ρ c)
theorem W9_arg6 : W9 m ρ c (Proc.devRef .tc main_arg6) = m ((c : Thread nD τ).loc main_arg6) :=
  (W9_of_ne m ρ c main_arg6 (by decide)).trans (W8_arg6 m ρ c)

/-! The stretch between regions 2 and 3, then region 3. -/
theorem W10_arg5 : W10 m ρ c (Proc.devRef .tc main_arg5) = m ((c : Thread nD τ).loc main_arg5) :=
  (show W10 m ρ c (Proc.devRef .tc main_arg5) = W9 m ρ c (Proc.devRef .tc main_arg5) by keeps hostOps3 main_arg5).trans (W9_arg5 m ρ c)
theorem W10_arg9 : W10 m ρ c (Proc.devRef .tc main_arg9) = m ((c : Thread nD τ).loc main_arg9) :=
  (show W10 m ρ c (Proc.devRef .tc main_arg9) = W9 m ρ c (Proc.devRef .tc main_arg9) by keeps hostOps3 main_arg9).trans (W9_arg9 m ρ c)
theorem W10_arg6 : W10 m ρ c (Proc.devRef .tc main_arg6) = m ((c : Thread nD τ).loc main_arg6) :=
  (show W10 m ρ c (Proc.devRef .tc main_arg6) = W9 m ρ c (Proc.devRef .tc main_arg6) by keeps hostOps3 main_arg6).trans (W9_arg6 m ρ c)
theorem W11_arg5 : W11 m ρ c (Proc.devRef .tc main_arg5) = m ((c : Thread nD τ).loc main_arg5) :=
  (W11_of_ne m ρ c main_arg5 (by decide)).trans (W10_arg5 m ρ c)
theorem W11_arg9 : W11 m ρ c (Proc.devRef .tc main_arg9) = m ((c : Thread nD τ).loc main_arg9) :=
  (W11_of_ne m ρ c main_arg9 (by decide)).trans (W10_arg9 m ρ c)
theorem W11_arg6 : W11 m ρ c (Proc.devRef .tc main_arg6) = m ((c : Thread nD τ).loc main_arg6) :=
  (W11_of_ne m ρ c main_arg6 (by decide)).trans (W10_arg6 m ρ c)

/-! Region 4. -/
theorem W12_arg6 : W12 m ρ c (Proc.devRef .tc main_arg6) = m ((c : Thread nD τ).loc main_arg6) :=
  (W12_of_ne m ρ c main_arg6 (by decide)).trans (W11_arg6 m ρ c)

/-! ## The kernel program: the six graph arrays, computed before the first region, are the same at every later region

Edge sources, targets and weights of the two edge sets: results of host operations of the first stretches, read by the
host operations after regions 0, 2 and 4; no later host operation has one as its result and no region has one as a
window array. -/
theorem W6_v3 : W6 m ρ c (Proc.devRef .tc main_v3) = W5 m ρ c (Proc.devRef .tc main_v3) := W6_of_ne m ρ c main_v3 (by decide)
theorem W9_v3 : W9 m ρ c (Proc.devRef .tc main_v3) = W5 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := by keeps hostOps1 main_v3
    _ = W5 m ρ c (Proc.devRef .tc main_v3) := W6_v3 m ρ c
theorem W12_v3 : W12 m ρ c (Proc.devRef .tc main_v3) = W5 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := W11_of_ne m ρ c main_v3 (by decide)
    _ = W9 m ρ c (Proc.devRef .tc main_v3) := by keeps hostOps3 main_v3
    _ = W5 m ρ c (Proc.devRef .tc main_v3) := W9_v3 m ρ c
theorem W6_v6 : W6 m ρ c (Proc.devRef .tc main_v6) = W5 m ρ c (Proc.devRef .tc main_v6) := W6_of_ne m ρ c main_v6 (by decide)
theorem W9_v6 : W9 m ρ c (Proc.devRef .tc main_v6) = W5 m ρ c (Proc.devRef .tc main_v6) :=
  calc W9 m ρ c (Proc.devRef .tc main_v6)
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := by keeps hostOps1 main_v6
    _ = W5 m ρ c (Proc.devRef .tc main_v6) := W6_v6 m ρ c
theorem W12_v6 : W12 m ρ c (Proc.devRef .tc main_v6) = W5 m ρ c (Proc.devRef .tc main_v6) :=
  calc W12 m ρ c (Proc.devRef .tc main_v6)
    _ = W11 m ρ c (Proc.devRef .tc main_v6) := W12_of_ne m ρ c main_v6 (by decide)
    _ = W10 m ρ c (Proc.devRef .tc main_v6) := W11_of_ne m ρ c main_v6 (by decide)
    _ = W9 m ρ c (Proc.devRef .tc main_v6) := by keeps hostOps3 main_v6
    _ = W5 m ρ c (Proc.devRef .tc main_v6) := W9_v6 m ρ c
theorem W6_v29 : W6 m ρ c (Proc.devRef .tc main_v29) = W5 m ρ c (Proc.devRef .tc main_v29) := W6_of_ne m ρ c main_v29 (by decide)
theorem W9_v29 : W9 m ρ c (Proc.devRef .tc main_v29) = W5 m ρ c (Proc.devRef .tc main_v29) :=
  calc W9 m ρ c (Proc.devRef .tc main_v29)
    _ = W8 m ρ c (Proc.devRef .tc main_v29) := W9_of_ne m ρ c main_v29 (by decide)
    _ = W7 m ρ c (Proc.devRef .tc main_v29) := W8_of_ne m ρ c main_v29 (by decide)
    _ = W6 m ρ c (Proc.devRef .tc main_v29) := by keeps hostOps1 main_v29
    _ = W5 m ρ c (Proc.devRef .tc main_v29) := W6_v29 m ρ c
theorem W12_v29 : W12 m ρ c (Proc.devRef .tc main_v29) = W5 m ρ c (Proc.devRef .tc main_v29) :=
  calc W12 m ρ c (Proc.devRef .tc main_v29)
    _ = W11 m ρ c (Proc.devRef .tc main_v29) := W12_of_ne m ρ c main_v29 (by decide)
    _ = W10 m ρ c (Proc.devRef .tc main_v29) := W11_of_ne m ρ c main_v29 (by decide)
    _ = W9 m ρ c (Proc.devRef .tc main_v29) := by keeps hostOps3 main_v29
    _ = W5 m ρ c (Proc.devRef .tc main_v29) := W9_v29 m ρ c
theorem W6_v33 : W6 m ρ c (Proc.devRef .tc main_v33) = W5 m ρ c (Proc.devRef .tc main_v33) := W6_of_ne m ρ c main_v33 (by decide)
theorem W9_v33 : W9 m ρ c (Proc.devRef .tc main_v33) = W5 m ρ c (Proc.devRef .tc main_v33) :=
  calc W9 m ρ c (Proc.devRef .tc main_v33)
    _ = W8 m ρ c (Proc.devRef .tc main_v33) := W9_of_ne m ρ c main_v33 (by decide)
    _ = W7 m ρ c (Proc.devRef .tc main_v33) := W8_of_ne m ρ c main_v33 (by decide)
    _ = W6 m ρ c (Proc.devRef .tc main_v33) := by keeps hostOps1 main_v33
    _ = W5 m ρ c (Proc.devRef .tc main_v33) := W6_v33 m ρ c
theorem W12_v33 : W12 m ρ c (Proc.devRef .tc main_v33) = W5 m ρ c (Proc.devRef .tc main_v33) :=
  calc W12 m ρ c (Proc.devRef .tc main_v33)
    _ = W11 m ρ c (Proc.devRef .tc main_v33) := W12_of_ne m ρ c main_v33 (by decide)
    _ = W10 m ρ c (Proc.devRef .tc main_v33) := W11_of_ne m ρ c main_v33 (by decide)
    _ = W9 m ρ c (Proc.devRef .tc main_v33) := by keeps hostOps3 main_v33
    _ = W5 m ρ c (Proc.devRef .tc main_v33) := W9_v33 m ρ c
theorem W6_v36 : W6 m ρ c (Proc.devRef .tc main_v36) = W5 m ρ c (Proc.devRef .tc main_v36) := W6_of_ne m ρ c main_v36 (by decide)
theorem W9_v36 : W9 m ρ c (Proc.devRef .tc main_v36) = W5 m ρ c (Proc.devRef .tc main_v36) :=
  calc W9 m ρ c (Proc.devRef .tc main_v36)
    _ = W8 m ρ c (Proc.devRef .tc main_v36) := W9_of_ne m ρ c main_v36 (by decide)
    _ = W7 m ρ c (Proc.devRef .tc main_v36) := W8_of_ne m ρ c main_v36 (by decide)
    _ = W6 m ρ c (Proc.devRef .tc main_v36) := by keeps hostOps1 main_v36
    _ = W5 m ρ c (Proc.devRef .tc main_v36) := W6_v36 m ρ c
theorem W12_v36 : W12 m ρ c (Proc.devRef .tc main_v36) = W5 m ρ c (Proc.devRef .tc main_v36) :=
  calc W12 m ρ c (Proc.devRef .tc main_v36)
    _ = W11 m ρ c (Proc.devRef .tc main_v36) := W12_of_ne m ρ c main_v36 (by decide)
    _ = W10 m ρ c (Proc.devRef .tc main_v36) := W11_of_ne m ρ c main_v36 (by decide)
    _ = W9 m ρ c (Proc.devRef .tc main_v36) := by keeps hostOps3 main_v36
    _ = W5 m ρ c (Proc.devRef .tc main_v36) := W9_v36 m ρ c
theorem W6_v59 : W6 m ρ c (Proc.devRef .tc main_v59) = W5 m ρ c (Proc.devRef .tc main_v59) := W6_of_ne m ρ c main_v59 (by decide)
theorem W9_v59 : W9 m ρ c (Proc.devRef .tc main_v59) = W5 m ρ c (Proc.devRef .tc main_v59) :=
  calc W9 m ρ c (Proc.devRef .tc main_v59)
    _ = W8 m ρ c (Proc.devRef .tc main_v59) := W9_of_ne m ρ c main_v59 (by decide)
    _ = W7 m ρ c (Proc.devRef .tc main_v59) := W8_of_ne m ρ c main_v59 (by decide)
    _ = W6 m ρ c (Proc.devRef .tc main_v59) := by keeps hostOps1 main_v59
    _ = W5 m ρ c (Proc.devRef .tc main_v59) := W6_v59 m ρ c
theorem W12_v59 : W12 m ρ c (Proc.devRef .tc main_v59) = W5 m ρ c (Proc.devRef .tc main_v59) :=
  calc W12 m ρ c (Proc.devRef .tc main_v59)
    _ = W11 m ρ c (Proc.devRef .tc main_v59) := W12_of_ne m ρ c main_v59 (by decide)
    _ = W10 m ρ c (Proc.devRef .tc main_v59) := W11_of_ne m ρ c main_v59 (by decide)
    _ = W9 m ρ c (Proc.devRef .tc main_v59) := by keeps hostOps3 main_v59
    _ = W5 m ρ c (Proc.devRef .tc main_v59) := W9_v59 m ρ c

end Kernel

end Cert.Carry

end
-- ==== Proof.Eval.lean ====
/-
  Evaluating a straight line of host operations. The buffer contents after a list of operations is a fold
  (`StableHlo.after`); at a named buffer the fold unwinds to the writing operation's function of its operands'
  contents, and so on down to the contents the line started from. `eval_fold` is that unwinding as one rewriting
  pass. A concatenation hides its pieces from rewriting (its side condition's type mentions the list of pieces), so
  a congruence lemma for the two-piece concatenation — the only kind in these programs — lets the pass go inside.
-/
import Idealize.ShloMosaic.Lib.StableHlo.Run
import Idealize.ShloMosaic.PureOps.Ideal

namespace Cert.Sim

open Idealize.ShloMosaic Idealize.ShloMosaic.StableHlo

/-- One pass of the fold's evaluation: every host operation's result at its own buffer is its function of its
    operands' contents, at any other buffer what was there before it. -/
macro "eval_fold" : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'])

/-- A concatenation of two pieces depends on the pieces only through their values: rewriting may go inside them. -/
@[congr] theorem concatenate_pair_congr {α : Type} (t : Shape) (d : Fin t.rank) (s₁ s₂ : Shape) (a a' : s₁.Idx → α) (b b' : s₂.Idx → α)
    (h : Shape.Concatenates [s₁, s₂] t d) (ha : a = a') (hb : b = b') :
    concatenate t d [⟨s₁, a⟩, ⟨s₂, b⟩] h = concatenate t d [⟨s₁, a'⟩, ⟨s₂, b'⟩] h := by
  subst ha hb; rfl

end Cert.Sim
-- ==== Proof.Projection.lean ====
/- The dense projections. At the extended reals a block product into a zero accumulator and a whole-array product are
   both the exact sum over the contracted coordinate, so each projection region's two output arrays, after the region,
   are the whole-array matrix products of its input arrays: block `t` of an output is the product of rows
   `5000 t … 5000 t + 4999` of the left array with the whole right array, which is rows `5000 t …` of the whole product,
   and the ten blocks tile the array. -/
import proofs.«129987_j9371618640565_1_alg».proof.Proof.Gen.KernelIdeal.Frame
import proofs.«129987_j9371618640565_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Projection

open Cert.KernelIdeal Cert.KernelIdeal.Gen Idealize.ShloMosaic Idealize.ShloMosaic.TcCoe
open Idealize.ShloMosaic.ValueIdx
open Idealize.ShloMosaic.Pipeline (Dat)
open scoped BigOperators

/-- The zero offsets, as the printed whole-block rectangles spell them. -/
theorem hz : (![0, 0] : Fin 2 → Nat) = fun _ => 0 := funext fun a => by fin_cases a <;> rfl

/-! ## The two contractions at an index: rows of the left operand against columns of the right -/

/-- The block product's left operand index keeps the output's row. -/
theorem klhs128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The block product's right operand index keeps the output's column. -/
theorem krhs128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator, at row `p` and column `q`: the sum over the 128 contracted
    coordinates of the left operand's row `p` against the right operand's column `q`. -/
theorem matmul128_apply (l : FVec Ideal S5000x128 .bf16) (r : FVec Ideal S128x128 .bf16) (p : Fin 5000) (q : Fin 128) :
    matmul (F := Ideal) dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact klhs128_0 _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ => exact krhs128_1 _ _)
  rw [el, er]

/-- The first projection's payload at row `p`, column `q` of its block (the format changes are the identity on
    extended reals). -/
theorem pay0_2_apply (x0 : Vec Ideal S5000x128 .f32) (x1 : Vec Ideal S128x128 .f32) (p : Fin 5000) (q : Fin 128) :
    k0_pay2 x0 x1 (ix2 p q) = ∑ k : Fin 128, x0 (ix2 p k) * x1 (ix2 k q) := by
  unfold k0_pay2 k0_pay1
  exact matmul128_apply _ _ p q

/-- The second projection's payload at row `p`, column `q` of its block. -/
theorem pay0_3_apply (x0 : Vec Ideal S5000x128 .f32) (x2 : Vec Ideal S128x128 .f32) (p : Fin 5000) (q : Fin 128) :
    k0_pay3 x0 x2 (ix2 p q) = ∑ k : Fin 128, x0 (ix2 p k) * x2 (ix2 k q) := by
  unfold k0_pay3 k0_pay1
  exact matmul128_apply _ _ p q

/-- Region 2's first payload at row `p`, column `q` of its block (its extra cast is to the same shape). -/
theorem pay2_2_apply (x0 : Vec Ideal S5000x128 .f32) (x1 : Vec Ideal S128x128 .f32) (p : Fin 5000) (q : Fin 128) :
    k2_pay2 x0 x1 (ix2 p q) = ∑ k : Fin 128, x0 (ix2 p k) * x1 (ix2 k q) := by
  unfold k2_pay2 k2_pay1
  dsimp only
  rw [shapeCast_self]
  exact matmul128_apply _ _ p q

/-- Region 2's second payload at row `p`, column `q` of its block. -/
theorem pay2_3_apply (x0 : Vec Ideal S5000x128 .f32) (x2 : Vec Ideal S128x128 .f32) (p : Fin 5000) (q : Fin 128) :
    k2_pay3 x0 x2 (ix2 p q) = ∑ k : Fin 128, x0 (ix2 p k) * x2 (ix2 k q) := by
  unfold k2_pay3 k2_pay1
  dsimp only
  rw [shapeCast_self]
  exact matmul128_apply _ _ p q

/-! ## The whole-array product at an index -/

/-- The whole-array product's left operand index keeps the output's row. -/
theorem rlhs128_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl

/-- The whole-array product's right operand index keeps the output's column. -/
theorem rrhs128_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

/-- The whole-array product at row `r`, column `q`: the sum over the 128 contracted coordinates of the left
    operand's row `r` against the right operand's column `q`. -/
theorem dot128_apply (a : FVec Ideal Cert.ReferenceIdeal.S50000x128 .f32) (w : FVec Ideal Cert.ReferenceIdeal.S128x128 .f32) (r : Fin 50000) (q : Fin 128) :
    Host.dotGeneral (F := Ideal) Cert.ReferenceIdeal.dot_S50000x128_S128x128_S50000x128_1_0_0_1_n_n none a w (ix2 r q)
      = ∑ k : Fin 128, a (ix2 r k) * w (ix2 k q) := by
  refine (Ideal.dotGeneral_apply Cert.ReferenceIdeal.dot_S50000x128_S128x128_S50000x128_1_0_0_1_n_n none .single a w (ix2 r q)).trans ?_
  rw [← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r q) ((contrEquiv1 Cert.ReferenceIdeal.dot_S50000x128_S128x128_S50000x128_1_0_0_1_n_n 128 rfl rfl).symm k) = ix2 r k := funext fun a => Fin.ext (by
    match a with
    | ⟨0, _⟩ => exact rlhs128_0 _ _
    | ⟨1, _⟩ => exact (Cert.ReferenceIdeal.dot_S50000x128_S128x128_S50000x128_1_0_0_1_n_n.lhsIdx_val_of_single rfl _ _).trans hk)
  have er : Cert.ReferenceIdeal.dot_S50000x128_S128x128_S50000x128_1_0_0_1_n_n.rhsIdx (ix2 r q) ((contrEquiv1 Cert.ReferenceIdeal.dot_S50000x128_S128x128_S50000x128_1_0_0_1_n_n 128 rfl rfl).symm k) = ix2 k q := funext fun a => Fin.ext (by
    match a with
    | ⟨0, _⟩ => exact (Cert.ReferenceIdeal.dot_S50000x128_S128x128_S50000x128_1_0_0_1_n_n.rhsIdx_val_of_single rfl _ _).trans hk
    | ⟨1, _⟩ => exact rrhs128_1 _ _)
  rw [el, er]

/-! ## One row block against the whole array -/

/-- A payload `P` that is, entry by entry, the product of a row block `x0` with a weight block `x1` agrees with the
    whole-array product of `A` and `W` wherever `x0` is rows `5000 b …` of `A` and `x1` is `W`: at an entry `y` of the
    block and the entry `i` of the array in row `5000 b + y 0`, column `y 1`. -/
theorem point128 (A : FVec Ideal Cert.ReferenceIdeal.S50000x128 .f32) (W : FVec Ideal Cert.ReferenceIdeal.S128x128 .f32)
    (x0 : Vec Ideal S5000x128 .f32) (x1 : Vec Ideal S128x128 .f32) (b : Nat)
    (h0 : ∀ (u : S5000x128.Idx) (v : Cert.ReferenceIdeal.S50000x128.Idx), (v 0).val = b * 5000 + (u 0).val → (v 1).val = (u 1).val → x0 u = A v)
    (h1 : ∀ u : S128x128.Idx, x1 u = W u)
    (P : S5000x128.Idx → EReal) (hP : ∀ (p : Fin 5000) (q : Fin 128), P (ix2 p q) = ∑ k : Fin 128, x0 (ix2 p k) * x1 (ix2 k q))
    (y : S5000x128.Idx) (i : Cert.ReferenceIdeal.S50000x128.Idx) (hi0 : (i 0).val = b * 5000 + (y 0).val) (hi1 : (i 1).val = (y 1).val) :
    P y = Host.dotGeneral (F := Ideal) Cert.ReferenceIdeal.dot_S50000x128_S128x128_S50000x128_1_0_0_1_n_n none A W i := by
  obtain ⟨p, q, rfl⟩ : ∃ (p : Fin 5000) (q : Fin 128), y = ix2 p q := ⟨y 0, y 1, eq_ix2 y⟩
  obtain ⟨r, s, rfl⟩ : ∃ (r : Fin 50000) (s : Fin 128), i = ix2 r s := ⟨i 0, i 1, eq_ix2 i⟩
  obtain rfl : s = q := Fin.ext hi1
  rw [hP, dot128_apply]
  exact Finset.sum_congr rfl fun k _ => by rw [h0 (ix2 p k) (ix2 r k) hi0 rfl, h1]

/-! ## The same two contractions with 64 output columns (region 4) -/

/-- The 64-column block product's left operand index keeps the output's row. -/
theorem klhs64_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl

/-- The 64-column block product's right operand index keeps the output's column. -/
theorem krhs64_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A 64-column block product into the zero accumulator, at row `p` and column `q`: the sum over the 128 contracted
    coordinates of the left operand's row `p` against the right operand's column `q`. -/
theorem matmul64_apply (l : FVec Ideal S5000x128 .bf16) (r : FVec Ideal S128x64 .bf16) (p : Fin 5000) (q : Fin 64) :
    matmul (F := Ideal) dot_S5000x128_S128x64_S5000x64_1_0_0_1_n_n none l r (constant (F := Ideal) S5000x64 .f32 0x00000000#32) (ix2 p q)
      = ∑ k : Fin 128, l (ix2 p k) * r (ix2 k q) := by
  refine (Ideal.matmul_constant_zero_apply dot_S5000x128_S128x64_S5000x64_1_0_0_1_n_n none l r (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact klhs64_0 _ _
    | ⟨1, _⟩ => exact (dot_S5000x128_S128x64_S5000x64_1_0_0_1_n_n.lhsIdx_val_of_single rfl _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (dot_S5000x128_S128x64_S5000x64_1_0_0_1_n_n.rhsIdx_val_of_single rfl _ _).trans hk
    | ⟨1, _⟩ => exact krhs64_1 _ _)
  rw [el, er]

/-- Region 4's first payload at row `p`, column `q` of its block (its extra cast is to the same shape). -/
theorem pay4_2_apply (x0 : Vec Ideal S5000x128 .f32) (x1 : Vec Ideal S128x64 .f32) (p : Fin 5000) (q : Fin 64) :
    k4_pay2 x0 x1 (ix2 p q) = ∑ k : Fin 128, x0 (ix2 p k) * x1 (ix2 k q) := by
  unfold k4_pay2 k4_pay1
  dsimp only
  rw [shapeCast_self]
  exact matmul64_apply _ _ p q

/-- Region 4's second payload at row `p`, column `q` of its block. -/
theorem pay4_3_apply (x0 : Vec Ideal S5000x128 .f32) (x2 : Vec Ideal S128x64 .f32) (p : Fin 5000) (q : Fin 64) :
    k4_pay3 x0 x2 (ix2 p q) = ∑ k : Fin 128, x0 (ix2 p k) * x2 (ix2 k q) := by
  unfold k4_pay3 k4_pay1
  dsimp only
  rw [shapeCast_self]
  exact matmul64_apply _ _ p q

/-- The 64-column whole-array product's left operand index keeps the output's row. -/
theorem rlhs64_0 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x64_S50000x64_1_0_0_1_n_n.lhsBatch by decide), dif_pos (show (0 : Fin Cert.ReferenceIdeal.S50000x128.rank) ∈ Cert.ReferenceIdeal.dot_S50000x128_S128x64_S50000x64_1_0_0_1_n_n.lhsNonContracting by decide)]
  rfl

/-- The 64-column whole-array product's right operand index keeps the output's column. -/
theorem rrhs64_1 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 1).val = (i 1).val := by
  unfold DotDims.rhsIdx
  rw [dif_neg (show ¬(1 : Fin Cert.ReferenceIdeal.S128x64.rank) ∈ Cert.ReferenceIdeal.dot_S50000x128_S128x64_S50000x64_1_0_0_1_n_n.rhsBatch by decide), dif_pos (show (1 : Fin Cert.ReferenceIdeal.S128x64.rank) ∈ Cert.ReferenceIdeal.dot_S50000x128_S128x64_S50000x64_1_0_0_1_n_n.rhsNonContracting by decide)]
  rfl

/-- The 64-column whole-array product at row `r`, column `q`. -/
theorem dot64_apply (a : FVec Ideal Cert.ReferenceIdeal.S50000x128 .f32) (w : FVec Ideal Cert.ReferenceIdeal.S128x64 .f32) (r : Fin 50000) (q : Fin 64) :
    Host.dotGeneral (F := Ideal) Cert.ReferenceIdeal.dot_S50000x128_S128x64_S50000x64_1_0_0_1_n_n none a w (ix2 r q)
      = ∑ k : Fin 128, a (ix2 r k) * w (ix2 k q) := by
  refine (Ideal.dotGeneral_apply Cert.ReferenceIdeal.dot_S50000x128_S128x64_S50000x64_1_0_0_1_n_n none .single a w (ix2 r q)).trans ?_
  rw [← Equiv.sum_comp (contrEquiv1 Cert.ReferenceIdeal.dot_S50000x128_S128x64_S50000x64_1_0_0_1_n_n 128 rfl rfl).symm]
  refine Finset.sum_congr rfl fun k _ => ?_
  have hk := contrEquiv1_symm_val Cert.ReferenceIdeal.dot_S50000x128_S128x64_S50000x64_1_0_0_1_n_n 128 rfl rfl k
  have el : Cert.ReferenceIdeal.dot_S50000x128_S128x64_S50000x64_1_0_0_1_n_n.lhsIdx (ix2 r q) ((contrEquiv1 Cert.ReferenceIdeal.dot_S50000x128_S128x64_S50000x64_1_0_0_1_n_n 128 rfl rfl).symm k) = ix2 r k := funext fun a => Fin.ext (by
    match a with
    | ⟨0, _⟩ => exact rlhs64_0 _ _
    | ⟨1, _⟩ => exact (Cert.ReferenceIdeal.dot_S50000x128_S128x64_S50000x64_1_0_0_1_n_n.lhsIdx_val_of_single rfl _ _).trans hk)
  have er : Cert.ReferenceIdeal.dot_S50000x128_S128x64_S50000x64_1_0_0_1_n_n.rhsIdx (ix2 r q) ((contrEquiv1 Cert.ReferenceIdeal.dot_S50000x128_S128x64_S50000x64_1_0_0_1_n_n 128 rfl rfl).symm k) = ix2 k q := funext fun a => Fin.ext (by
    match a with
    | ⟨0, _⟩ => exact (Cert.ReferenceIdeal.dot_S50000x128_S128x64_S50000x64_1_0_0_1_n_n.rhsIdx_val_of_single rfl _ _).trans hk
    | ⟨1, _⟩ => exact rrhs64_1 _ _)
  rw [el, er]

/-- The 64-column form of `point128`: a payload that is, entry by entry, the product of a row block with a weight
    block agrees with the whole-array product wherever the row block is rows `5000 b …` of `A` and the weight block
    is `W`. -/
theorem point64 (A : FVec Ideal Cert.ReferenceIdeal.S50000x128 .f32) (W : FVec Ideal Cert.ReferenceIdeal.S128x64 .f32)
    (x0 : Vec Ideal S5000x128 .f32) (x1 : Vec Ideal S128x64 .f32) (b : Nat)
    (h0 : ∀ (u : S5000x128.Idx) (v : Cert.ReferenceIdeal.S50000x128.Idx), (v 0).val = b * 5000 + (u 0).val → (v 1).val = (u 1).val → x0 u = A v)
    (h1 : ∀ u : S128x64.Idx, x1 u = W u)
    (P : S5000x64.Idx → EReal) (hP : ∀ (p : Fin 5000) (q : Fin 64), P (ix2 p q) = ∑ k : Fin 128, x0 (ix2 p k) * x1 (ix2 k q))
    (y : S5000x64.Idx) (i : Cert.ReferenceIdeal.S50000x64.Idx) (hi0 : (i 0).val = b * 5000 + (y 0).val) (hi1 : (i 1).val = (y 1).val) :
    P y = Host.dotGeneral (F := Ideal) Cert.ReferenceIdeal.dot_S50000x128_S128x64_S50000x64_1_0_0_1_n_n none A W i := by
  obtain ⟨p, q, rfl⟩ : ∃ (p : Fin 5000) (q : Fin 64), y = ix2 p q := ⟨y 0, y 1, eq_ix2 y⟩
  obtain ⟨r, s, rfl⟩ : ∃ (r : Fin 50000) (s : Fin 64), i = ix2 r s := ⟨i 0, i 1, eq_ix2 i⟩
  obtain rfl : s = q := Fin.ext hi1
  rw [hP, dot64_apply]
  exact Finset.sum_congr rfl fun k _ => by rw [h0 (ix2 p k) (ix2 r k) hi0 rfl, h1]

/-! # Region 0 -/

section Region0

variable (V : (c : Dev nD) → (b : Ref sig .tc) → Buf (Elt Ideal) ((c : Thread nD τ).loc b))

/-- The index maps of region 0, decided over its ten points: the row windows (0, 3, 4) sit at block row `t`, the two
    weight windows (1, 2) at the origin. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Window 0's block at point `t` is rows `5000 t … 5000 t + 4999` of its array. -/
theorem iblk0_0_apply (c : Dev nD) (t : Fin cfg0.N) (u : S5000x128.Idx) (v : Cert.ReferenceIdeal.S50000x128.Idx)
    (hv0 : (v 0).val = t.val * 5000 + (u 0).val) (hv1 : (v 1).val = (u 1).val) :
    (iblk0 (F := Ideal) V c 0 t : Vec Ideal S5000x128 .f32) u = (V c (Pipeline.arrRef spec0 0) : FVec Ideal Cert.ReferenceIdeal.S50000x128 .f32) v := by
  obtain ⟨e0, e1, -⟩ := idx_facts0 t
  unfold iblk0
  rw [View.read_apply]
  refine congrArg (V c (Pipeline.arrRef spec0 0) : FVec Ideal Cert.ReferenceIdeal.S50000x128 .f32) ?_
  funext a
  apply Fin.ext
  match a with
  | ⟨0, _⟩ => show win0_0.index t (0 : Fin 2) * 5000 + 1 * (u 0).val = (v 0).val; rw [e0, hv0]; omega
  | ⟨1, _⟩ => show win0_0.index t (1 : Fin 2) * 128 + 1 * (u 1).val = (v 1).val; rw [e1, hv1]; omega

/-- Window 1's block at every point is its whole array. -/
theorem iblk0_1_apply (c : Dev nD) (t : Fin cfg0.N) (u : S128x128.Idx) :
    (iblk0 (F := Ideal) V c 1 t : Vec Ideal S128x128 .f32) u = (V c (Pipeline.arrRef spec0 1) : FVec Ideal Cert.ReferenceIdeal.S128x128 .f32) u := by
  obtain ⟨-, -, e0, e1, -⟩ := idx_facts0 t
  unfold iblk0
  rw [View.read_apply]
  refine congrArg (V c (Pipeline.arrRef spec0 1) : FVec Ideal Cert.ReferenceIdeal.S128x128 .f32) ?_
  funext a
  apply Fin.ext
  match a with
  | ⟨0, _⟩ => show win0_1.index t (0 : Fin 2) * 128 + 1 * (u 0).val = (u 0).val; rw [e0]; omega
  | ⟨1, _⟩ => show win0_1.index t (1 : Fin 2) * 128 + 1 * (u 1).val = (u 1).val; rw [e1]; omega

/-- What point `t` writes back to window 3's array is block `t` of the whole-array product. -/
theorem flushed0_3_eq (c : Dev nD) (t : Fin cfg0.N) :
    (dat0 (F := Ideal) V c).flushed 3 t = ((cfg0.win 3).blk t).view.read (Elt Ideal)
      (Host.dotGeneral (F := Ideal) (φ₁ := .f32) (φ₂ := .f32) Cert.ReferenceIdeal.dot_S50000x128_S128x128_S50000x128_1_0_0_1_n_n none (V c (Pipeline.arrRef spec0 0)) (V c (Pipeline.arrRef spec0 1))) := by
  show (cfg0.win 3).cut (grid0.coords t) ((dat0 (F := Ideal) V c).after 3 t) = _
  rw [after0_3]
  unfold out0_3
  rw [View.canon_unit_zero hz]
  simp only [View.ld_unit_zero (S := S5000x128) hz, View.ld_unit_zero (S := S128x128) hz]
  obtain ⟨-, -, -, -, -, -, e0, e1, -⟩ := idx_facts0 t
  funext j
  rw [View.read_apply]
  refine point128 _ _ (iblk0 (F := Ideal) V c 0 t) (iblk0 (F := Ideal) V c 1 t) t.val (iblk0_0_apply V c t) (iblk0_1_apply V c t) _ (pay0_2_apply _ _) _ _ ?_ ?_
  · show win0_3.index t (0 : Fin 2) * 5000 + 1 * (j 0).val = t.val * 5000 + (j 0).val; rw [e0]; omega
  · show win0_3.index t (1 : Fin 2) * 128 + 1 * (j 1).val = (j 1).val; rw [e1]; omega

/-- An index of window 3's array is in point `t`'s block iff each coordinate is in the block's range on its axis. -/
theorem mem_blk0_3 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v60_0).slice (win0_3.rect t)).set ↔ _
  rw [View.set_slice_whole, Rect.mem_set_unit]
  exact Iff.rfl

/-- Row `r` of window 3's array lies in the block of point `r / 5000`, which is written back. -/
theorem covered0_3 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 10 := N_0
  have ht : (i 0).val / 5000 < grid0.N := by rw [hN]; omega
  obtain ⟨-, -, -, -, -, -, e0, e1, -⟩ := idx_facts0 ⟨(i 0).val / 5000, ht⟩
  refine ⟨⟨(i 0).val / 5000, ht⟩, flush0_3 _, ?_⟩
  rw [mem_blk0_3]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e1]; omega

/-- Region 0's first output array after the region: the whole-array product of its first two input arrays. -/
theorem arr0_h (c : Dev nD) : (dat0 (F := Ideal) V c).arrAt 3 cfg0.N = Host.dotGeneral (F := Ideal) (φ₁ := .f32) (φ₂ := .f32) Cert.ReferenceIdeal.dot_S50000x128_S128x128_S50000x128_1_0_0_1_n_n none (V c (Pipeline.arrRef spec0 0)) (V c (Pipeline.arrRef spec0 1)) :=
  (dat0 (F := Ideal) V c).arrAt_eq_of_cover 3 _ (fun t _ => flushed0_3_eq V c t) covered0_3

/-- Window 2's block at every point is its whole array. -/
theorem iblk0_2_apply (c : Dev nD) (t : Fin cfg0.N) (u : S128x128.Idx) :
    (iblk0 (F := Ideal) V c 2 t : Vec Ideal S128x128 .f32) u = (V c (Pipeline.arrRef spec0 2) : FVec Ideal Cert.ReferenceIdeal.S128x128 .f32) u := by
  obtain ⟨-, -, -, -, e0, e1, -⟩ := idx_facts0 t
  unfold iblk0
  rw [View.read_apply]
  refine congrArg (V c (Pipeline.arrRef spec0 2) : FVec Ideal Cert.ReferenceIdeal.S128x128 .f32) ?_
  funext a
  apply Fin.ext
  match a with
  | ⟨0, _⟩ => show win0_2.index t (0 : Fin 2) * 128 + 1 * (u 0).val = (u 0).val; rw [e0]; omega
  | ⟨1, _⟩ => show win0_2.index t (1 : Fin 2) * 128 + 1 * (u 1).val = (u 1).val; rw [e1]; omega

/-- What point `t` writes back to window 4's array is block `t` of the whole-array product. -/
theorem flushed0_4_eq (c : Dev nD) (t : Fin cfg0.N) :
    (dat0 (F := Ideal) V c).flushed 4 t = ((cfg0.win 4).blk t).view.read (Elt Ideal)
      (Host.dotGeneral (F := Ideal) (φ₁ := .f32) (φ₂ := .f32) Cert.ReferenceIdeal.dot_S50000x128_S128x128_S50000x128_1_0_0_1_n_n none (V c (Pipeline.arrRef spec0 0)) (V c (Pipeline.arrRef spec0 2))) := by
  show (cfg0.win 4).cut (grid0.coords t) ((dat0 (F := Ideal) V c).after 4 t) = _
  rw [after0_4]
  unfold out0_4
  rw [View.canon_unit_zero hz]
  simp only [View.ld_unit_zero (S := S5000x128) hz, View.ld_unit_zero (S := S128x128) hz]
  obtain ⟨-, -, -, -, -, -, -, -, e0, e1⟩ := idx_facts0 t
  funext j
  rw [View.read_apply]
  refine point128 _ _ (iblk0 (F := Ideal) V c 0 t) (iblk0 (F := Ideal) V c 2 t) t.val (iblk0_0_apply V c t) (iblk0_2_apply V c t) _ (pay0_3_apply _ _) _ _ ?_ ?_
  · show win0_4.index t (0 : Fin 2) * 5000 + 1 * (j 0).val = t.val * 5000 + (j 0).val; rw [e0]; omega
  · show win0_4.index t (1 : Fin 2) * 128 + 1 * (j 1).val = (j 1).val; rw [e1]; omega

/-- An index of window 4's array is in point `t`'s block iff each coordinate is in the block's range on its axis. -/
theorem mem_blk0_4 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v60_1).slice (win0_4.rect t)).set ↔ _
  rw [View.set_slice_whole, Rect.mem_set_unit]
  exact Iff.rfl

/-- Row `r` of window 4's array lies in the block of point `r / 5000`, which is written back. -/
theorem covered0_4 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : grid0.N = 10 := N_0
  have ht : (i 0).val / 5000 < grid0.N := by rw [hN]; omega
  obtain ⟨-, -, -, -, -, -, -, -, e0, e1⟩ := idx_facts0 ⟨(i 0).val / 5000, ht⟩
  refine ⟨⟨(i 0).val / 5000, ht⟩, flush0_4 _, ?_⟩
  rw [mem_blk0_4]
  intro a
  match a with
  | ⟨0, _⟩ =>
    show win0_4.index ⟨(i 0).val / 5000, ht⟩ (0 : Fin 2) * 5000 ≤ (i 0).val ∧ (i 0).val < win0_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_4.index ⟨(i 0).val / 5000, ht⟩ (1 : Fin 2) * 128 ≤ (i 1).val ∧ (i 1).val < win0_4.index ⟨(i 0).val / 5000, ht⟩ (1 : Fin 2) * 128 + 128
    rw [e1]; omega

/-- Region 0's second output array after the region: the whole-array product of its first and third input arrays. -/
theorem arr0_l (c : Dev nD) : (dat0 (F := Ideal) V c).arrAt 4 cfg0.N = Host.dotGeneral (F := Ideal) (φ₁ := .f32) (φ₂ := .f32) Cert.ReferenceIdeal.dot_S50000x128_S128x128_S50000x128_1_0_0_1_n_n none (V c (Pipeline.arrRef spec0 0)) (V c (Pipeline.arrRef spec0 2)) :=
  (dat0 (F := Ideal) V c).arrAt_eq_of_cover 4 _ (fun t _ => flushed0_4_eq V c t) covered0_4

end Region0

/-! # Region 2 -/

section Region2

variable (V : (c : Dev nD) → (b : Ref sig .tc) → Buf (Elt Ideal) ((c : Thread nD τ).loc b))

/-- The index maps of region 2, decided over its ten points: the row windows (0, 3, 4) sit at block row `t`, the two
    weight windows (1, 2) at the origin. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Window 0's block at point `t` is rows `5000 t … 5000 t + 4999` of its array. -/
theorem iblk2_0_apply (c : Dev nD) (t : Fin cfg2.N) (u : S5000x128.Idx) (v : Cert.ReferenceIdeal.S50000x128.Idx)
    (hv0 : (v 0).val = t.val * 5000 + (u 0).val) (hv1 : (v 1).val = (u 1).val) :
    (iblk2 (F := Ideal) V c 0 t : Vec Ideal S5000x128 .f32) u = (V c (Pipeline.arrRef spec2 0) : FVec Ideal Cert.ReferenceIdeal.S50000x128 .f32) v := by
  obtain ⟨e0, e1, -⟩ := idx_facts2 t
  unfold iblk2
  rw [View.read_apply]
  refine congrArg (V c (Pipeline.arrRef spec2 0) : FVec Ideal Cert.ReferenceIdeal.S50000x128 .f32) ?_
  funext a
  apply Fin.ext
  match a with
  | ⟨0, _⟩ => show win2_0.index t (0 : Fin 2) * 5000 + 1 * (u 0).val = (v 0).val; rw [e0, hv0]; omega
  | ⟨1, _⟩ => show win2_0.index t (1 : Fin 2) * 128 + 1 * (u 1).val = (v 1).val; rw [e1, hv1]; omega

/-- Window 1's block at every point is its whole array. -/
theorem iblk2_1_apply (c : Dev nD) (t : Fin cfg2.N) (u : S128x128.Idx) :
    (iblk2 (F := Ideal) V c 1 t : Vec Ideal S128x128 .f32) u = (V c (Pipeline.arrRef spec2 1) : FVec Ideal Cert.ReferenceIdeal.S128x128 .f32) u := by
  obtain ⟨-, -, e0, e1, -⟩ := idx_facts2 t
  unfold iblk2
  rw [View.read_apply]
  refine congrArg (V c (Pipeline.arrRef spec2 1) : FVec Ideal Cert.ReferenceIdeal.S128x128 .f32) ?_
  funext a
  apply Fin.ext
  match a with
  | ⟨0, _⟩ => show win2_1.index t (0 : Fin 2) * 128 + 1 * (u 0).val = (u 0).val; rw [e0]; omega
  | ⟨1, _⟩ => show win2_1.index t (1 : Fin 2) * 128 + 1 * (u 1).val = (u 1).val; rw [e1]; omega

/-- Window 2's block at every point is its whole array. -/
theorem iblk2_2_apply (c : Dev nD) (t : Fin cfg2.N) (u : S128x128.Idx) :
    (iblk2 (F := Ideal) V c 2 t : Vec Ideal S128x128 .f32) u = (V c (Pipeline.arrRef spec2 2) : FVec Ideal Cert.ReferenceIdeal.S128x128 .f32) u := by
  obtain ⟨-, -, -, -, e0, e1, -⟩ := idx_facts2 t
  unfold iblk2
  rw [View.read_apply]
  refine congrArg (V c (Pipeline.arrRef spec2 2) : FVec Ideal Cert.ReferenceIdeal.S128x128 .f32) ?_
  funext a
  apply Fin.ext
  match a with
  | ⟨0, _⟩ => show win2_2.index t (0 : Fin 2) * 128 + 1 * (u 0).val = (u 0).val; rw [e0]; omega
  | ⟨1, _⟩ => show win2_2.index t (1 : Fin 2) * 128 + 1 * (u 1).val = (u 1).val; rw [e1]; omega

/-- What point `t` writes back to window 3's array is block `t` of the whole-array product. -/
theorem flushed2_3_eq (c : Dev nD) (t : Fin cfg2.N) :
    (dat2 (F := Ideal) V c).flushed 3 t = ((cfg2.win 3).blk t).view.read (Elt Ideal)
      (Host.dotGeneral (F := Ideal) (φ₁ := .f32) (φ₂ := .f32) Cert.ReferenceIdeal.dot_S50000x128_S128x128_S50000x128_1_0_0_1_n_n none (V c (Pipeline.arrRef spec2 0)) (V c (Pipeline.arrRef spec2 1))) := by
  show (cfg2.win 3).cut (grid2.coords t) ((dat2 (F := Ideal) V c).after 3 t) = _
  rw [after2_3]
  unfold out2_3
  rw [View.canon_unit_zero hz]
  simp only [View.ld_unit_zero (S := S5000x128) hz, View.ld_unit_zero (S := S128x128) hz]
  obtain ⟨-, -, -, -, -, -, e0, e1, -⟩ := idx_facts2 t
  funext j
  rw [View.read_apply]
  refine point128 _ _ (iblk2 (F := Ideal) V c 0 t) (iblk2 (F := Ideal) V c 1 t) t.val (iblk2_0_apply V c t) (iblk2_1_apply V c t) _ (pay2_2_apply _ _) _ _ ?_ ?_
  · show win2_3.index t (0 : Fin 2) * 5000 + 1 * (j 0).val = t.val * 5000 + (j 0).val; rw [e0]; omega
  · show win2_3.index t (1 : Fin 2) * 128 + 1 * (j 1).val = (j 1).val; rw [e1]; omega

/-- What point `t` writes back to window 4's array is block `t` of the whole-array product. -/
theorem flushed2_4_eq (c : Dev nD) (t : Fin cfg2.N) :
    (dat2 (F := Ideal) V c).flushed 4 t = ((cfg2.win 4).blk t).view.read (Elt Ideal)
      (Host.dotGeneral (F := Ideal) (φ₁ := .f32) (φ₂ := .f32) Cert.ReferenceIdeal.dot_S50000x128_S128x128_S50000x128_1_0_0_1_n_n none (V c (Pipeline.arrRef spec2 0)) (V c (Pipeline.arrRef spec2 2))) := by
  show (cfg2.win 4).cut (grid2.coords t) ((dat2 (F := Ideal) V c).after 4 t) = _
  rw [after2_4]
  unfold out2_4
  rw [View.canon_unit_zero hz]
  simp only [View.ld_unit_zero (S := S5000x128) hz, View.ld_unit_zero (S := S128x128) hz]
  obtain ⟨-, -, -, -, -, -, -, -, e0, e1⟩ := idx_facts2 t
  funext j
  rw [View.read_apply]
  refine point128 _ _ (iblk2 (F := Ideal) V c 0 t) (iblk2 (F := Ideal) V c 2 t) t.val (iblk2_0_apply V c t) (iblk2_2_apply V c t) _ (pay2_3_apply _ _) _ _ ?_ ?_
  · show win2_4.index t (0 : Fin 2) * 5000 + 1 * (j 0).val = t.val * 5000 + (j 0).val; rw [e0]; omega
  · show win2_4.index t (1 : Fin 2) * 128 + 1 * (j 1).val = (j 1).val; rw [e1]; omega

/-- An index of window 3's array is in point `t`'s block iff each coordinate is in the block's range on its axis. -/
theorem mem_blk2_3 (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v104_0).slice (win2_3.rect t)).set ↔ _
  rw [View.set_slice_whole, Rect.mem_set_unit]
  exact Iff.rfl

/-- An index of window 4's array is in point `t`'s block iff each coordinate is in the block's range on its axis. -/
theorem mem_blk2_4 (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v104_1).slice (win2_4.rect t)).set ↔ _
  rw [View.set_slice_whole, Rect.mem_set_unit]
  exact Iff.rfl

/-- Row `r` of window 3's array lies in the block of point `r / 5000`, which is written back. -/
theorem covered2_3 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : grid2.N = 10 := N_2
  have ht : (i 0).val / 5000 < grid2.N := by rw [hN]; omega
  obtain ⟨-, -, -, -, -, -, e0, e1, -⟩ := idx_facts2 ⟨(i 0).val / 5000, ht⟩
  refine ⟨⟨(i 0).val / 5000, ht⟩, flush2_3 _, ?_⟩
  rw [mem_blk2_3]
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_3.index ⟨(i 0).val / 5000, ht⟩ (1 : Fin 2) * 128 ≤ (i 1).val ∧ (i 1).val < win2_3.index ⟨(i 0).val / 5000, ht⟩ (1 : Fin 2) * 128 + 128
    rw [e1]; omega

/-- Row `r` of window 4's array lies in the block of point `r / 5000`, which is written back. -/
theorem covered2_4 (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : grid2.N = 10 := N_2
  have ht : (i 0).val / 5000 < grid2.N := by rw [hN]; omega
  obtain ⟨-, -, -, -, -, -, -, -, e0, e1⟩ := idx_facts2 ⟨(i 0).val / 5000, ht⟩
  refine ⟨⟨(i 0).val / 5000, ht⟩, flush2_4 _, ?_⟩
  rw [mem_blk2_4]
  intro a
  match a with
  | ⟨0, _⟩ =>
    show win2_4.index ⟨(i 0).val / 5000, ht⟩ (0 : Fin 2) * 5000 ≤ (i 0).val ∧ (i 0).val < win2_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_4.index ⟨(i 0).val / 5000, ht⟩ (1 : Fin 2) * 128 ≤ (i 1).val ∧ (i 1).val < win2_4.index ⟨(i 0).val / 5000, ht⟩ (1 : Fin 2) * 128 + 128
    rw [e1]; omega

/-- Region 2's first output array after the region: the whole-array product of its first two input arrays. -/
theorem arr2_h (c : Dev nD) : (dat2 (F := Ideal) V c).arrAt 3 cfg2.N = Host.dotGeneral (F := Ideal) (φ₁ := .f32) (φ₂ := .f32) Cert.ReferenceIdeal.dot_S50000x128_S128x128_S50000x128_1_0_0_1_n_n none (V c (Pipeline.arrRef spec2 0)) (V c (Pipeline.arrRef spec2 1)) :=
  (dat2 (F := Ideal) V c).arrAt_eq_of_cover 3 _ (fun t _ => flushed2_3_eq V c t) covered2_3

/-- Region 2's second output array after the region: the whole-array product of its first and third input arrays. -/
theorem arr2_l (c : Dev nD) : (dat2 (F := Ideal) V c).arrAt 4 cfg2.N = Host.dotGeneral (F := Ideal) (φ₁ := .f32) (φ₂ := .f32) Cert.ReferenceIdeal.dot_S50000x128_S128x128_S50000x128_1_0_0_1_n_n none (V c (Pipeline.arrRef spec2 0)) (V c (Pipeline.arrRef spec2 2)) :=
  (dat2 (F := Ideal) V c).arrAt_eq_of_cover 4 _ (fun t _ => flushed2_4_eq V c t) covered2_4

end Region2

/-! # Region 4 -/

section Region4

variable (V : (c : Dev nD) → (b : Ref sig .tc) → Buf (Elt Ideal) ((c : Thread nD τ).loc b))

/-- The index maps of region 4, decided over its ten points: the row windows (0, 3, 4) sit at block row `t`, the two
    weight windows (1, 2) at the origin. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- Window 0's block at point `t` is rows `5000 t … 5000 t + 4999` of its array. -/
theorem iblk4_0_apply (c : Dev nD) (t : Fin cfg4.N) (u : S5000x128.Idx) (v : Cert.ReferenceIdeal.S50000x128.Idx)
    (hv0 : (v 0).val = t.val * 5000 + (u 0).val) (hv1 : (v 1).val = (u 1).val) :
    (iblk4 (F := Ideal) V c 0 t : Vec Ideal S5000x128 .f32) u = (V c (Pipeline.arrRef spec4 0) : FVec Ideal Cert.ReferenceIdeal.S50000x128 .f32) v := by
  obtain ⟨e0, e1, -⟩ := idx_facts4 t
  unfold iblk4
  rw [View.read_apply]
  refine congrArg (V c (Pipeline.arrRef spec4 0) : FVec Ideal Cert.ReferenceIdeal.S50000x128 .f32) ?_
  funext a
  apply Fin.ext
  match a with
  | ⟨0, _⟩ => show win4_0.index t (0 : Fin 2) * 5000 + 1 * (u 0).val = (v 0).val; rw [e0, hv0]; omega
  | ⟨1, _⟩ => show win4_0.index t (1 : Fin 2) * 128 + 1 * (u 1).val = (v 1).val; rw [e1, hv1]; omega

/-- Window 1's block at every point is its whole array. -/
theorem iblk4_1_apply (c : Dev nD) (t : Fin cfg4.N) (u : S128x64.Idx) :
    (iblk4 (F := Ideal) V c 1 t : Vec Ideal S128x64 .f32) u = (V c (Pipeline.arrRef spec4 1) : FVec Ideal Cert.ReferenceIdeal.S128x64 .f32) u := by
  obtain ⟨-, -, e0, e1, -⟩ := idx_facts4 t
  unfold iblk4
  rw [View.read_apply]
  refine congrArg (V c (Pipeline.arrRef spec4 1) : FVec Ideal Cert.ReferenceIdeal.S128x64 .f32) ?_
  funext a
  apply Fin.ext
  match a with
  | ⟨0, _⟩ => show win4_1.index t (0 : Fin 2) * 128 + 1 * (u 0).val = (u 0).val; rw [e0]; omega
  | ⟨1, _⟩ => show win4_1.index t (1 : Fin 2) * 64 + 1 * (u 1).val = (u 1).val; rw [e1]; omega

/-- Window 2's block at every point is its whole array. -/
theorem iblk4_2_apply (c : Dev nD) (t : Fin cfg4.N) (u : S128x64.Idx) :
    (iblk4 (F := Ideal) V c 2 t : Vec Ideal S128x64 .f32) u = (V c (Pipeline.arrRef spec4 2) : FVec Ideal Cert.ReferenceIdeal.S128x64 .f32) u := by
  obtain ⟨-, -, -, -, e0, e1, -⟩ := idx_facts4 t
  unfold iblk4
  rw [View.read_apply]
  refine congrArg (V c (Pipeline.arrRef spec4 2) : FVec Ideal Cert.ReferenceIdeal.S128x64 .f32) ?_
  funext a
  apply Fin.ext
  match a with
  | ⟨0, _⟩ => show win4_2.index t (0 : Fin 2) * 128 + 1 * (u 0).val = (u 0).val; rw [e0]; omega
  | ⟨1, _⟩ => show win4_2.index t (1 : Fin 2) * 64 + 1 * (u 1).val = (u 1).val; rw [e1]; omega

/-- What point `t` writes back to window 3's array is block `t` of the whole-array product. -/
theorem flushed4_3_eq (c : Dev nD) (t : Fin cfg4.N) :
    (dat4 (F := Ideal) V c).flushed 3 t = ((cfg4.win 3).blk t).view.read (Elt Ideal)
      (Host.dotGeneral (F := Ideal) (φ₁ := .f32) (φ₂ := .f32) Cert.ReferenceIdeal.dot_S50000x128_S128x64_S50000x64_1_0_0_1_n_n none (V c (Pipeline.arrRef spec4 0)) (V c (Pipeline.arrRef spec4 1))) := by
  show (cfg4.win 3).cut (grid4.coords t) ((dat4 (F := Ideal) V c).after 3 t) = _
  rw [after4_3]
  unfold out4_3
  rw [View.canon_unit_zero hz]
  simp only [View.ld_unit_zero (S := S5000x128) hz, View.ld_unit_zero (S := S128x64) hz]
  obtain ⟨-, -, -, -, -, -, e0, e1, -⟩ := idx_facts4 t
  funext j
  rw [View.read_apply]
  refine point64 _ _ (iblk4 (F := Ideal) V c 0 t) (iblk4 (F := Ideal) V c 1 t) t.val (iblk4_0_apply V c t) (iblk4_1_apply V c t) _ (pay4_2_apply _ _) _ _ ?_ ?_
  · show win4_3.index t (0 : Fin 2) * 5000 + 1 * (j 0).val = t.val * 5000 + (j 0).val; rw [e0]; omega
  · show win4_3.index t (1 : Fin 2) * 64 + 1 * (j 1).val = (j 1).val; rw [e1]; omega

/-- What point `t` writes back to window 4's array is block `t` of the whole-array product. -/
theorem flushed4_4_eq (c : Dev nD) (t : Fin cfg4.N) :
    (dat4 (F := Ideal) V c).flushed 4 t = ((cfg4.win 4).blk t).view.read (Elt Ideal)
      (Host.dotGeneral (F := Ideal) (φ₁ := .f32) (φ₂ := .f32) Cert.ReferenceIdeal.dot_S50000x128_S128x64_S50000x64_1_0_0_1_n_n none (V c (Pipeline.arrRef spec4 0)) (V c (Pipeline.arrRef spec4 2))) := by
  show (cfg4.win 4).cut (grid4.coords t) ((dat4 (F := Ideal) V c).after 4 t) = _
  rw [after4_4]
  unfold out4_4
  rw [View.canon_unit_zero hz]
  simp only [View.ld_unit_zero (S := S5000x128) hz, View.ld_unit_zero (S := S128x64) hz]
  obtain ⟨-, -, -, -, -, -, -, -, e0, e1⟩ := idx_facts4 t
  funext j
  rw [View.read_apply]
  refine point64 _ _ (iblk4 (F := Ideal) V c 0 t) (iblk4 (F := Ideal) V c 2 t) t.val (iblk4_0_apply V c t) (iblk4_2_apply V c t) _ (pay4_3_apply _ _) _ _ ?_ ?_
  · show win4_4.index t (0 : Fin 2) * 5000 + 1 * (j 0).val = t.val * 5000 + (j 0).val; rw [e0]; omega
  · show win4_4.index t (1 : Fin 2) * 64 + 1 * (j 1).val = (j 1).val; rw [e1]; omega

/-- An index of window 3's array is in point `t`'s block iff each coordinate is in the block's range on its axis. -/
theorem mem_blk4_3 (t : Fin cfg4.N) (i : S50000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v148_0).slice (win4_3.rect t)).set ↔ _
  rw [View.set_slice_whole, Rect.mem_set_unit]
  exact Iff.rfl

/-- An index of window 4's array is in point `t`'s block iff each coordinate is in the block's range on its axis. -/
theorem mem_blk4_4 (t : Fin cfg4.N) (i : S50000x64.Idx) :
    i ∈ ((cfg4.win 4).blk t).view.set ↔ ∀ a : Fin 2, win4_4.index t a * S5000x64.size a ≤ (i a).val ∧ (i a).val < win4_4.index t a * S5000x64.size a + S5000x64.size a := by
  show i ∈ ((View.whole main_v148_1).slice (win4_4.rect t)).set ↔ _
  rw [View.set_slice_whole, Rect.mem_set_unit]
  exact Iff.rfl

/-- Row `r` of window 3's array lies in the block of point `r / 5000`, which is written back. -/
theorem covered4_3 (i : S50000x64.Idx) :
    ∃ t : Fin cfg4.N, (cfg4.win 3).flush t = true ∧ i ∈ ((cfg4.win 3).blk t).view.set := by
  have hi0 : (i 0).val < 50000 := (i 0).isLt
  have hi1 : (i 1).val < 64 := (i 1).isLt
  have hN : grid4.N = 10 := N_4
  have ht : (i 0).val / 5000 < grid4.N := by rw [hN]; omega
  obtain ⟨-, -, -, -, -, -, e0, e1, -⟩ := idx_facts4 ⟨(i 0).val / 5000, ht⟩
  refine ⟨⟨(i 0).val / 5000, ht⟩, flush4_3 _, ?_⟩
  rw [mem_blk4_3]
  intro a
  match a with
  | ⟨0, _⟩ =>
    show win4_3.index ⟨(i 0).val / 5000, ht⟩ (0 : Fin 2) * 5000 ≤ (i 0).val ∧ (i 0).val < win4_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win4_3.index ⟨(i 0).val / 5000, ht⟩ (1 : Fin 2) * 64 ≤ (i 1).val ∧ (i 1).val < win4_3.index ⟨(i 0).val / 5000, ht⟩ (1 : Fin 2) * 64 + 64
    rw [e1]; omega

/-- Row `r` of window 4's array lies in the block of point `r / 5000`, which is written back. -/
theorem covered4_4 (i : S50000x64.Idx) :
    ∃ t : Fin cfg4.N, (cfg4.win 4).flush t = true ∧ i ∈ ((cfg4.win 4).blk t).view.set := by
  have hi0 : (i 0).val < 50000 := (i 0).isLt
  have hi1 : (i 1).val < 64 := (i 1).isLt
  have hN : grid4.N = 10 := N_4
  have ht : (i 0).val / 5000 < grid4.N := by rw [hN]; omega
  obtain ⟨-, -, -, -, -, -, -, -, e0, e1⟩ := idx_facts4 ⟨(i 0).val / 5000, ht⟩
  refine ⟨⟨(i 0).val / 5000, ht⟩, flush4_4 _, ?_⟩
  rw [mem_blk4_4]
  intro a
  match a with
  | ⟨0, _⟩ =>
    show win4_4.index ⟨(i 0).val / 5000, ht⟩ (0 : Fin 2) * 5000 ≤ (i 0).val ∧ (i 0).val < win4_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win4_4.index ⟨(i 0).val / 5000, ht⟩ (1 : Fin 2) * 64 ≤ (i 1).val ∧ (i 1).val < win4_4.index ⟨(i 0).val / 5000, ht⟩ (1 : Fin 2) * 64 + 64
    rw [e1]; omega

/-- Region 4's first output array after the region: the whole-array product of its first two input arrays. -/
theorem arr4_h (c : Dev nD) : (dat4 (F := Ideal) V c).arrAt 3 cfg4.N = Host.dotGeneral (F := Ideal) (φ₁ := .f32) (φ₂ := .f32) Cert.ReferenceIdeal.dot_S50000x128_S128x64_S50000x64_1_0_0_1_n_n none (V c (Pipeline.arrRef spec4 0)) (V c (Pipeline.arrRef spec4 1)) :=
  (dat4 (F := Ideal) V c).arrAt_eq_of_cover 3 _ (fun t _ => flushed4_3_eq V c t) covered4_3

/-- Region 4's second output array after the region: the whole-array product of its first and third input arrays. -/
theorem arr4_l (c : Dev nD) : (dat4 (F := Ideal) V c).arrAt 4 cfg4.N = Host.dotGeneral (F := Ideal) (φ₁ := .f32) (φ₂ := .f32) Cert.ReferenceIdeal.dot_S50000x128_S128x64_S50000x64_1_0_0_1_n_n none (V c (Pipeline.arrRef spec4 0)) (V c (Pipeline.arrRef spec4 2)) :=
  (dat4 (F := Ideal) V c).arrAt_eq_of_cover 4 _ (fun t _ => flushed4_4_eq V c t) covered4_4

end Region4

end Cert.KernelIdeal.Projection

end
-- ==== Proof.Normalize.lean ====
/- The two fused batch-normalisation + rectifier regions (1 and 3) at the extended reals. Each region's output array,
   after its ten points have written their blocks of 5000 rows back, is ONE whole-array function of the arrays the region
   finds: `bnRelu h mu var g be` = max (((h − mu) · rsqrt (var + ε)) · g + be, 0), the per-feature vectors laid along the
   rows. Per region: the stored block read at an index (`payK_apply`), the whole-array chain read at an index
   (`bnRelu_apply`), what a point writes back as its block of the chain (`flushedK_eq`), the blocks' cover of the array
   (`coverK`), and the array (`arrK`). -/
import proofs.«129987_j9371618640565_1_alg».proof.Proof.Gen.KernelIdeal.Frame
import proofs.«129987_j9371618640565_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Normalize

open Cert.KernelIdeal Cert.KernelIdeal.Gen Idealize.ShloMosaic Idealize.ShloMosaic.TcCoe Idealize.SL.Sem
open Idealize.ShloMosaic.Pipeline (Dat)
open Idealize.ShloMosaic.ValueIdx

/-- A vector of 128 per-feature values laid along every one of the 50000 rows. -/
abbrev up (v : FVec Ideal Cert.ReferenceIdeal.S128 .f32) : FVec Ideal Cert.ReferenceIdeal.S50000x128 .f32 :=
  broadcastInDim Cert.ReferenceIdeal.S50000x128 ![0, 1] Cert.ReferenceIdeal.Facts₀.bcast_S1x128_S50000x128_0_1
    (broadcastInDim Cert.ReferenceIdeal.S1x128 ![1] Cert.ReferenceIdeal.Facts₀.bcast_S128_S1x128_1 v)

/-- Batch normalisation followed by the rectifier, over whole arrays: ((h − mu) · rsqrt (var + ε)) · g + be, then the
    maximum with 0. -/
def bnRelu (h : FVec Ideal Cert.ReferenceIdeal.S50000x128 .f32) (mu var g be : FVec Ideal Cert.ReferenceIdeal.S128 .f32) :
    FVec Ideal Cert.ReferenceIdeal.S50000x128 .f32 :=
  maximumf
    (addf (mulf (mulf (subf h (up mu))
      (up (Host.rsqrt (F := Ideal) (addf var (broadcastInDim Cert.ReferenceIdeal.S128 ![] Cert.ReferenceIdeal.Facts₀.bcast_S_S128
        (constant (F := Ideal) Cert.ReferenceIdeal.S_ .f32 0x3727C5AC#32)))))) (up g)) (up be))
    (broadcastInDim Cert.ReferenceIdeal.S50000x128 ![] Cert.ReferenceIdeal.Facts₀.bcast_S_S50000x128
      (constant (F := Ideal) Cert.ReferenceIdeal.S_ .f32 0x00000000#32))

/-! ## Both sides read at an index -/

/-- The normalised and rectified value, from the five entries it depends on: ((x − m) · rsqrt (v + ε)) · a + b, then
    the maximum with 0. -/
def point (x m v a b : Ideal .f32) : Ideal .f32 :=
  max (((x - m) * Ideal.rsqrt (v + Ideal.ofBits .f32 0x3727C5AC#32)) * a + b) (Ideal.ofBits .f32 0x00000000#32)

/-- A per-feature vector laid along the rows reads, at row `r` and feature `j`, its entry `j`. -/
theorem up_apply (v : FVec Ideal Cert.ReferenceIdeal.S128 .f32) (r : Fin 50000) (j : Fin 128) :
    up v (ix2 r j) = v (ix1 j) := by
  refine (broadcastInDim_apply _ _ _ (ix2 r j) (ix2 (0 : Fin 1) j) (fun a => ?_)).trans ?_
  · match a with
    | ⟨0, _⟩ => show 0 = if (1 : Nat) = 1 then 0 else r.val; rw [if_pos rfl]
    | ⟨1, _⟩ => show j.val = if (128 : Nat) = 1 then 0 else j.val; rw [if_neg (by decide)]
  · exact broadcastInDim_apply _ _ _ (ix2 (0 : Fin 1) j) (ix1 j) (fun a => match a with
      | ⟨0, _⟩ => by show j.val = if (128 : Nat) = 1 then 0 else j.val; rw [if_neg (by decide)])

/-- The whole-array chain at row `r` and feature `j`. -/
theorem bnRelu_apply (h : FVec Ideal Cert.ReferenceIdeal.S50000x128 .f32) (mu var g be : FVec Ideal Cert.ReferenceIdeal.S128 .f32)
    (r : Fin 50000) (j : Fin 128) :
    bnRelu h mu var g be (ix2 r j) = point (h (ix2 r j)) (mu (ix1 j)) (var (ix1 j)) (g (ix1 j)) (be (ix1 j)) := by
  unfold bnRelu
  rw [maximumf_apply, addf_apply, mulf_apply, mulf_apply, subf_apply, up_apply, up_apply, up_apply, up_apply]
  rfl

/-- The block the body of region 1 stores, at row `p` of the block and feature `q`: the same operations on the block's entry and
    on the four rows' entries at `q` (the reciprocal square root is one function on the extended reals for the body and for the
    whole-array chain). -/
theorem pay1_apply (x0 : Vec Ideal S5000x128 .f32) (x1 x2 x3 x4 : Vec Ideal S1x128 .f32) (p : Fin 5000) (q : Fin 128) :
    k1_pay1 x0 x1 x2 x3 x4 (ix2 p q)
      = point (x0 (ix2 p q)) (x3 (ix2 (0 : Fin 1) q)) (x4 (ix2 (0 : Fin 1) q)) (x1 (ix2 (0 : Fin 1) q)) (x2 (ix2 (0 : Fin 1) q)) := by
  unfold k1_pay1
  simp only [shapeCast_self]
  rw [maximumf_apply, addf_apply, mulf_apply, mulf_apply, subf_apply, broadcastTo_1b_ab_apply, broadcastTo_1b_ab_apply,
    broadcastTo_1b_ab_apply, broadcastTo_1b_ab_apply]
  rfl

/-- The stored block at (p, q) is the whole-array chain at (r, q), once the block's entry is the array's at (r, q) and each
    row's entry at `q` is its vector's. -/
theorem point_eq1 (x0 : Vec Ideal S5000x128 .f32) (x1 x2 x3 x4 : Vec Ideal S1x128 .f32)
    (h : FVec Ideal S50000x128 .f32) (mu var g be : FVec Ideal S128 .f32) (p : Fin 5000) (q : Fin 128) (r : Fin 50000)
    (e0 : x0 (ix2 p q) = h (ix2 r q)) (e1 : x1 (ix2 (0 : Fin 1) q) = g (ix1 q)) (e2 : x2 (ix2 (0 : Fin 1) q) = be (ix1 q))
    (e3 : x3 (ix2 (0 : Fin 1) q) = mu (ix1 q)) (e4 : x4 (ix2 (0 : Fin 1) q) = var (ix1 q)) :
    k1_pay1 x0 x1 x2 x3 x4 (ix2 p q) = bnRelu h mu var g be (ix2 r q) := by
  rw [pay1_apply, bnRelu_apply, e0, e1, e2, e3, e4]

/-- The block the body of region 3 stores, at row `p` of the block and feature `q`: the same operations on the block's entry and
    on the four rows' entries at `q` (the reciprocal square root is one function on the extended reals for the body and for the
    whole-array chain). -/
theorem pay3_apply (x0 : Vec Ideal S5000x128 .f32) (x1 x2 x3 x4 : Vec Ideal S1x128 .f32) (p : Fin 5000) (q : Fin 128) :
    k3_pay1 x0 x1 x2 x3 x4 (ix2 p q)
      = point (x0 (ix2 p q)) (x3 (ix2 (0 : Fin 1) q)) (x4 (ix2 (0 : Fin 1) q)) (x1 (ix2 (0 : Fin 1) q)) (x2 (ix2 (0 : Fin 1) q)) := by
  unfold k3_pay1
  simp only [shapeCast_self]
  rw [maximumf_apply, addf_apply, mulf_apply, mulf_apply, subf_apply, broadcastTo_1b_ab_apply, broadcastTo_1b_ab_apply,
    broadcastTo_1b_ab_apply, broadcastTo_1b_ab_apply]
  rfl

/-- The stored block at (p, q) is the whole-array chain at (r, q), once the block's entry is the array's at (r, q) and each
    row's entry at `q` is its vector's. -/
theorem point_eq3 (x0 : Vec Ideal S5000x128 .f32) (x1 x2 x3 x4 : Vec Ideal S1x128 .f32)
    (h : FVec Ideal S50000x128 .f32) (mu var g be : FVec Ideal S128 .f32) (p : Fin 5000) (q : Fin 128) (r : Fin 50000)
    (e0 : x0 (ix2 p q) = h (ix2 r q)) (e1 : x1 (ix2 (0 : Fin 1) q) = g (ix1 q)) (e2 : x2 (ix2 (0 : Fin 1) q) = be (ix1 q))
    (e3 : x3 (ix2 (0 : Fin 1) q) = mu (ix1 q)) (e4 : x4 (ix2 (0 : Fin 1) q) = var (ix1 q)) :
    k3_pay1 x0 x1 x2 x3 x4 (ix2 p q) = bnRelu h mu var g be (ix2 r q) := by
  rw [pay3_apply, bnRelu_apply, e0, e1, e2, e3, e4]

/-- The zero offsets of a whole-buffer access, as a constant function. -/
theorem hz : (![0, 0] : Fin 2 → Nat) = fun _ => 0 := funext fun a => by fin_cases a <;> rfl

/-! ## Region 1: from blocks to the array -/

section Region1

variable (V : (c : Dev nD) → (b : Ref sig .tc) → Buf (Elt Ideal) ((c : Thread nD τ).loc b))

/-- The printed index maps over the grid's ten points: the activations' and the output's block index is (t, 0), each
    row's is (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the whole-array chain of the arrays as the region finds them. -/
theorem flushed1_eq (c : Dev nD) (h : FVec Ideal S50000x128 .f32) (mu var g be : FVec Ideal S128 .f32)
    (h0 : V c (Pipeline.arrRef spec1 0) = h)
    (hg : ∀ j : Fin 128, V c (Pipeline.arrRef spec1 1) (ValueIdx.ix2 (0 : Fin 1) j) = g (ValueIdx.ix1 j))
    (hb : ∀ j : Fin 128, V c (Pipeline.arrRef spec1 2) (ValueIdx.ix2 (0 : Fin 1) j) = be (ValueIdx.ix1 j))
    (hm : ∀ j : Fin 128, V c (Pipeline.arrRef spec1 3) (ValueIdx.ix2 (0 : Fin 1) j) = mu (ValueIdx.ix1 j))
    (hv : ∀ j : Fin 128, V c (Pipeline.arrRef spec1 4) (ValueIdx.ix2 (0 : Fin 1) j) = var (ValueIdx.ix1 j))
    (t : Fin cfg1.N) :
    (dat1 (F := Ideal) V c).flushed 5 t = ((cfg1.win 5).blk t).view.read (Elt Ideal) (bnRelu h mu var g be) := by
  show (cfg1.win 5).cut (grid1.coords t) ((dat1 (F := Ideal) V c).after 5 t) = _
  rw [after1_5]
  unfold out1_5
  rw [View.canon_unit_zero hz]
  simp only [View.ld_unit_zero (S := S5000x128) hz, View.ld_unit_zero (S := S1x128) hz]
  obtain ⟨a0, a1, b0, b1, c0, c1, d0, d1, e0, e1, f0, f1⟩ := idx_facts1 t
  have hN : t.val < 10 := lt_of_lt_of_eq t.isLt N_1
  funext y
  have hy0 : (y 0).val < 5000 := (y 0).isLt
  have hy1 : (y 1).val < 128 := (y 1).isLt
  show k1_pay1 (iblk1 V c 0 t) (iblk1 V c 1 t) (iblk1 V c 2 t) (iblk1 V c 3 t) (iblk1 V c 4 t)
      ((cfg1.win 5).xinj (grid1.coords t) y) = bnRelu h mu var g be (((cfg1.win 5).blk t).view.emb y)
  have ey : (cfg1.win 5).xinj (grid1.coords t) y = ix2 (⟨(y 0).val, hy0⟩ : Fin 5000) (⟨(y 1).val, hy1⟩ : Fin 128) :=
    funext fun a => match a with | ⟨0, _⟩ => rfl | ⟨1, _⟩ => rfl
  have er : ((cfg1.win 5).blk t).view.emb y
      = ix2 (⟨t.val * 5000 + (y 0).val, by omega⟩ : Fin 50000) (⟨(y 1).val, hy1⟩ : Fin 128) := by
    funext a; apply Fin.ext
    match a with
    | ⟨0, _⟩ => show win1_5.index t (0 : Fin 2) * 5000 + 1 * (y 0).val = t.val * 5000 + (y 0).val; omega
    | ⟨1, _⟩ => show win1_5.index t (1 : Fin 2) * 128 + 1 * (y 1).val = (y 1).val; omega
  rw [ey, er]
  refine point_eq1 _ _ _ _ _ h mu var g be _ _ _ ?_ ?_ ?_ ?_ ?_
  · refine (congrFun h0 _).trans (congrArg h ?_)
    funext a; apply Fin.ext
    match a with
    | ⟨0, _⟩ => show win1_0.index t (0 : Fin 2) * 5000 + 1 * (y 0).val = t.val * 5000 + (y 0).val; omega
    | ⟨1, _⟩ => show win1_0.index t (1 : Fin 2) * 128 + 1 * (y 1).val = (y 1).val; omega
  · refine (congrArg (V c (Pipeline.arrRef spec1 1)) ?_).trans (hg _)
    funext a; apply Fin.ext
    match a with
    | ⟨0, _⟩ => show win1_1.index t (0 : Fin 2) * 1 + 1 * 0 = 0; omega
    | ⟨1, _⟩ => show win1_1.index t (1 : Fin 2) * 128 + 1 * (y 1).val = (y 1).val; omega
  · refine (congrArg (V c (Pipeline.arrRef spec1 2)) ?_).trans (hb _)
    funext a; apply Fin.ext
    match a with
    | ⟨0, _⟩ => show win1_2.index t (0 : Fin 2) * 1 + 1 * 0 = 0; omega
    | ⟨1, _⟩ => show win1_2.index t (1 : Fin 2) * 128 + 1 * (y 1).val = (y 1).val; omega
  · refine (congrArg (V c (Pipeline.arrRef spec1 3)) ?_).trans (hm _)
    funext a; apply Fin.ext
    match a with
    | ⟨0, _⟩ => show win1_3.index t (0 : Fin 2) * 1 + 1 * 0 = 0; omega
    | ⟨1, _⟩ => show win1_3.index t (1 : Fin 2) * 128 + 1 * (y 1).val = (y 1).val; omega
  · refine (congrArg (V c (Pipeline.arrRef spec1 4)) ?_).trans (hv _)
    funext a; apply Fin.ext
    match a with
    | ⟨0, _⟩ => show win1_4.index t (0 : Fin 2) * 1 + 1 * 0 = 0; omega
    | ⟨1, _⟩ => show win1_4.index t (1 : Fin 2) * 128 + 1 * (y 1).val = (y 1).val; omega

end Region1

section Array1

variable (V : (c : Dev nD) → (b : Ref sig .tc) → Buf (Elt Ideal) ((c : Thread nD τ).loc b))

/-- An index of the output array is in point `t`'s block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v103).slice (win1_5.rect t)).set ↔ _
  rw [View.set_slice_whole, Rect.mem_set_unit]
  exact Iff.rfl

/-- Row `r` of the output lies in the block of point `r / 5000`: the ten blocks of 5000 rows cover the array. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hlt : (i 0).val / 5000 < cfg1.N := by rw [show cfg1.N = 10 from N_1]; omega
  obtain ⟨a0, a1, b0, b1, c0, c1, d0, d1, e0, e1, f0, f1⟩ := idx_facts1 ⟨(i 0).val / 5000, hlt⟩
  have f0' : win1_5.index ⟨(i 0).val / 5000, hlt⟩ (0 : Fin 2) = (i 0).val / 5000 := f0
  refine ⟨⟨(i 0).val / 5000, hlt⟩, flush1_5 _, ?_⟩
  rw [mem_blk1]
  intro a
  match a with
  | ⟨0, _⟩ =>
    show win1_5.index ⟨(i 0).val / 5000, hlt⟩ (0 : Fin 2) * 5000 ≤ (i 0).val
      ∧ (i 0).val < win1_5.index ⟨(i 0).val / 5000, hlt⟩ (0 : Fin 2) * 5000 + 5000
    omega
  | ⟨1, _⟩ =>
    show win1_5.index ⟨(i 0).val / 5000, hlt⟩ (1 : Fin 2) * 128 ≤ (i 1).val
      ∧ (i 1).val < win1_5.index ⟨(i 0).val / 5000, hlt⟩ (1 : Fin 2) * 128 + 128
    omega

/-- THE OUTPUT ARRAY of region 1 after its run is the whole-array chain of the arrays the region finds: every point writes its
    block of that one function, and the blocks cover the array. -/
theorem arr1 (c : Dev nD) (h : FVec Ideal S50000x128 .f32) (mu var g be : FVec Ideal S128 .f32)
    (h0 : V c (Pipeline.arrRef spec1 0) = h)
    (hg : ∀ j : Fin 128, V c (Pipeline.arrRef spec1 1) (ValueIdx.ix2 (0 : Fin 1) j) = g (ValueIdx.ix1 j))
    (hb : ∀ j : Fin 128, V c (Pipeline.arrRef spec1 2) (ValueIdx.ix2 (0 : Fin 1) j) = be (ValueIdx.ix1 j))
    (hm : ∀ j : Fin 128, V c (Pipeline.arrRef spec1 3) (ValueIdx.ix2 (0 : Fin 1) j) = mu (ValueIdx.ix1 j))
    (hv : ∀ j : Fin 128, V c (Pipeline.arrRef spec1 4) (ValueIdx.ix2 (0 : Fin 1) j) = var (ValueIdx.ix1 j)) :
    (dat1 (F := Ideal) V c).arrAt 5 cfg1.N = bnRelu h mu var g be :=
  (dat1 (F := Ideal) V c).arrAt_eq_of_cover 5 (bnRelu h mu var g be)
    (fun t _ => flushed1_eq V c h mu var g be h0 hg hb hm hv t) cover1

end Array1

/-! ## Region 3: from blocks to the array -/

section Region3

variable (V : (c : Dev nD) → (b : Ref sig .tc) → Buf (Elt Ideal) ((c : Thread nD τ).loc b))

/-- The printed index maps over the grid's ten points: the activations' and the output's block index is (t, 0), each
    row's is (0, 0). -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What point `t` writes back is block `t` of the whole-array chain of the arrays as the region finds them. -/
theorem flushed3_eq (c : Dev nD) (h : FVec Ideal S50000x128 .f32) (mu var g be : FVec Ideal S128 .f32)
    (h0 : V c (Pipeline.arrRef spec3 0) = h)
    (hg : ∀ j : Fin 128, V c (Pipeline.arrRef spec3 1) (ValueIdx.ix2 (0 : Fin 1) j) = g (ValueIdx.ix1 j))
    (hb : ∀ j : Fin 128, V c (Pipeline.arrRef spec3 2) (ValueIdx.ix2 (0 : Fin 1) j) = be (ValueIdx.ix1 j))
    (hm : ∀ j : Fin 128, V c (Pipeline.arrRef spec3 3) (ValueIdx.ix2 (0 : Fin 1) j) = mu (ValueIdx.ix1 j))
    (hv : ∀ j : Fin 128, V c (Pipeline.arrRef spec3 4) (ValueIdx.ix2 (0 : Fin 1) j) = var (ValueIdx.ix1 j))
    (t : Fin cfg3.N) :
    (dat3 (F := Ideal) V c).flushed 5 t = ((cfg3.win 5).blk t).view.read (Elt Ideal) (bnRelu h mu var g be) := by
  show (cfg3.win 5).cut (grid3.coords t) ((dat3 (F := Ideal) V c).after 5 t) = _
  rw [after3_5]
  unfold out3_5
  rw [View.canon_unit_zero hz]
  simp only [View.ld_unit_zero (S := S5000x128) hz, View.ld_unit_zero (S := S1x128) hz]
  obtain ⟨a0, a1, b0, b1, c0, c1, d0, d1, e0, e1, f0, f1⟩ := idx_facts3 t
  have hN : t.val < 10 := lt_of_lt_of_eq t.isLt N_3
  funext y
  have hy0 : (y 0).val < 5000 := (y 0).isLt
  have hy1 : (y 1).val < 128 := (y 1).isLt
  show k3_pay1 (iblk3 V c 0 t) (iblk3 V c 1 t) (iblk3 V c 2 t) (iblk3 V c 3 t) (iblk3 V c 4 t)
      ((cfg3.win 5).xinj (grid3.coords t) y) = bnRelu h mu var g be (((cfg3.win 5).blk t).view.emb y)
  have ey : (cfg3.win 5).xinj (grid3.coords t) y = ix2 (⟨(y 0).val, hy0⟩ : Fin 5000) (⟨(y 1).val, hy1⟩ : Fin 128) :=
    funext fun a => match a with | ⟨0, _⟩ => rfl | ⟨1, _⟩ => rfl
  have er : ((cfg3.win 5).blk t).view.emb y
      = ix2 (⟨t.val * 5000 + (y 0).val, by omega⟩ : Fin 50000) (⟨(y 1).val, hy1⟩ : Fin 128) := by
    funext a; apply Fin.ext
    match a with
    | ⟨0, _⟩ => show win3_5.index t (0 : Fin 2) * 5000 + 1 * (y 0).val = t.val * 5000 + (y 0).val; omega
    | ⟨1, _⟩ => show win3_5.index t (1 : Fin 2) * 128 + 1 * (y 1).val = (y 1).val; omega
  rw [ey, er]
  refine point_eq3 _ _ _ _ _ h mu var g be _ _ _ ?_ ?_ ?_ ?_ ?_
  · refine (congrFun h0 _).trans (congrArg h ?_)
    funext a; apply Fin.ext
    match a with
    | ⟨0, _⟩ => show win3_0.index t (0 : Fin 2) * 5000 + 1 * (y 0).val = t.val * 5000 + (y 0).val; omega
    | ⟨1, _⟩ => show win3_0.index t (1 : Fin 2) * 128 + 1 * (y 1).val = (y 1).val; omega
  · refine (congrArg (V c (Pipeline.arrRef spec3 1)) ?_).trans (hg _)
    funext a; apply Fin.ext
    match a with
    | ⟨0, _⟩ => show win3_1.index t (0 : Fin 2) * 1 + 1 * 0 = 0; omega
    | ⟨1, _⟩ => show win3_1.index t (1 : Fin 2) * 128 + 1 * (y 1).val = (y 1).val; omega
  · refine (congrArg (V c (Pipeline.arrRef spec3 2)) ?_).trans (hb _)
    funext a; apply Fin.ext
    match a with
    | ⟨0, _⟩ => show win3_2.index t (0 : Fin 2) * 1 + 1 * 0 = 0; omega
    | ⟨1, _⟩ => show win3_2.index t (1 : Fin 2) * 128 + 1 * (y 1).val = (y 1).val; omega
  · refine (congrArg (V c (Pipeline.arrRef spec3 3)) ?_).trans (hm _)
    funext a; apply Fin.ext
    match a with
    | ⟨0, _⟩ => show win3_3.index t (0 : Fin 2) * 1 + 1 * 0 = 0; omega
    | ⟨1, _⟩ => show win3_3.index t (1 : Fin 2) * 128 + 1 * (y 1).val = (y 1).val; omega
  · refine (congrArg (V c (Pipeline.arrRef spec3 4)) ?_).trans (hv _)
    funext a; apply Fin.ext
    match a with
    | ⟨0, _⟩ => show win3_4.index t (0 : Fin 2) * 1 + 1 * 0 = 0; omega
    | ⟨1, _⟩ => show win3_4.index t (1 : Fin 2) * 128 + 1 * (y 1).val = (y 1).val; omega

end Region3

section Array3

variable (V : (c : Dev nD) → (b : Ref sig .tc) → Buf (Elt Ideal) ((c : Thread nD τ).loc b))

/-- An index of the output array is in point `t`'s block iff each coordinate is in the block's range on its axis. -/
theorem mem_blk3 (t : Fin cfg3.N) (i : S50000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v147).slice (win3_5.rect t)).set ↔ _
  rw [View.set_slice_whole, Rect.mem_set_unit]
  exact Iff.rfl

/-- Row `r` of the output lies in the block of point `r / 5000`: the ten blocks of 5000 rows cover the array. -/
theorem cover3 (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hlt : (i 0).val / 5000 < cfg3.N := by rw [show cfg3.N = 10 from N_3]; omega
  obtain ⟨a0, a1, b0, b1, c0, c1, d0, d1, e0, e1, f0, f1⟩ := idx_facts3 ⟨(i 0).val / 5000, hlt⟩
  have f0' : win3_5.index ⟨(i 0).val / 5000, hlt⟩ (0 : Fin 2) = (i 0).val / 5000 := f0
  refine ⟨⟨(i 0).val / 5000, hlt⟩, flush3_5 _, ?_⟩
  rw [mem_blk3]
  intro a
  match a with
  | ⟨0, _⟩ =>
    show win3_5.index ⟨(i 0).val / 5000, hlt⟩ (0 : Fin 2) * 5000 ≤ (i 0).val
      ∧ (i 0).val < win3_5.index ⟨(i 0).val / 5000, hlt⟩ (0 : Fin 2) * 5000 + 5000
    omega
  | ⟨1, _⟩ =>
    show win3_5.index ⟨(i 0).val / 5000, hlt⟩ (1 : Fin 2) * 128 ≤ (i 1).val
      ∧ (i 1).val < win3_5.index ⟨(i 0).val / 5000, hlt⟩ (1 : Fin 2) * 128 + 128
    omega

/-- THE OUTPUT ARRAY of region 3 after its run is the whole-array chain of the arrays the region finds: every point writes its
    block of that one function, and the blocks cover the array. -/
theorem arr3 (c : Dev nD) (h : FVec Ideal S50000x128 .f32) (mu var g be : FVec Ideal S128 .f32)
    (h0 : V c (Pipeline.arrRef spec3 0) = h)
    (hg : ∀ j : Fin 128, V c (Pipeline.arrRef spec3 1) (ValueIdx.ix2 (0 : Fin 1) j) = g (ValueIdx.ix1 j))
    (hb : ∀ j : Fin 128, V c (Pipeline.arrRef spec3 2) (ValueIdx.ix2 (0 : Fin 1) j) = be (ValueIdx.ix1 j))
    (hm : ∀ j : Fin 128, V c (Pipeline.arrRef spec3 3) (ValueIdx.ix2 (0 : Fin 1) j) = mu (ValueIdx.ix1 j))
    (hv : ∀ j : Fin 128, V c (Pipeline.arrRef spec3 4) (ValueIdx.ix2 (0 : Fin 1) j) = var (ValueIdx.ix1 j)) :
    (dat3 (F := Ideal) V c).arrAt 5 cfg3.N = bnRelu h mu var g be :=
  (dat3 (F := Ideal) V c).arrAt_eq_of_cover 5 (bnRelu h mu var g be)
    (fun t _ => flushed3_eq V c h mu var g be h0 hg hb hm hv t) cover3

end Array3

end Cert.KernelIdeal.Normalize

end
-- ==== Proof.Layer0.lean ====
import proofs.«129987_j9371618640565_1_alg».proof.Proof.Eval
import proofs.«129987_j9371618640565_1_alg».proof.Proof.Carry
import proofs.«129987_j9371618640565_1_alg».proof.Proof.Projection
import proofs.«129987_j9371618640565_1_alg».proof.Proof.Normalize

noncomputable section
namespace Cert.Sim
open Idealize.ShloMosaic Idealize.ShloMosaic.TcCoe Idealize.SL.Sem Idealize.ShloMosaic.StableHlo
open Cert.KernelIdeal.Gen (W5 W6 W7 W8 W9 W10 W11 W12 W13)
open Cert.ReferenceIdeal.RunP (R0 R1 R2 R3 R4 R5)

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

set_option maxHeartbeats 8000000 in
/-- The first layer before normalisation. The kernel program's buffer (aggregation over both graphs of the projected
    features, their maximum, plus the residual projection) holds what the reference's holds: the host operations are the
    same on both sides, the projections enter as the matrix products the projection region leaves, and the graph's
    sources, targets and weights — computed once by the kernel program, once per use by the reference — unwind to one
    function of the edge arrays. -/
theorem aggr0 (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (hh : W6 m ρ c (Proc.devRef .tc Cert.KernelIdeal.main_v60_0) = Host.dotGeneral (F := Ideal) (φ₁ := .f32) (φ₂ := .f32) Cert.ReferenceIdeal.dot_S50000x128_S128x128_S50000x128_1_0_0_1_n_n none (m ((c.tc : Thread Cert.KernelIdeal.nD Cert.KernelIdeal.τ).loc Cert.KernelIdeal.main_arg0)) (m ((c.tc : Thread Cert.KernelIdeal.nD Cert.KernelIdeal.τ).loc Cert.KernelIdeal.main_arg3)))
    (hl : W6 m ρ c (Proc.devRef .tc Cert.KernelIdeal.main_v60_1) = Host.dotGeneral (F := Ideal) (φ₁ := .f32) (φ₂ := .f32) Cert.ReferenceIdeal.dot_S50000x128_S128x128_S50000x128_1_0_0_1_n_n none (m ((c.tc : Thread Cert.KernelIdeal.nD Cert.KernelIdeal.τ).loc Cert.KernelIdeal.main_arg0)) (m ((c.tc : Thread Cert.KernelIdeal.nD Cert.KernelIdeal.τ).loc Cert.KernelIdeal.main_arg7))) :
    W7 (F := Ideal) m ρ c (Proc.devRef .tc Cert.KernelIdeal.main_v88) = R1 (F := Ideal) m' c (Proc.devRef .tc Cert.ReferenceIdeal.main_v90) := by
  have e0 : launchContents m' c (Proc.devRef .tc Cert.ReferenceIdeal.main_arg0) = (m ((c.tc : Thread Cert.KernelIdeal.nD Cert.KernelIdeal.τ).loc Cert.KernelIdeal.main_arg0)) := h0
  have e3 : launchContents m' c (Proc.devRef .tc Cert.ReferenceIdeal.main_arg3) = (m ((c.tc : Thread Cert.KernelIdeal.nD Cert.KernelIdeal.τ).loc Cert.KernelIdeal.main_arg3)) := h3
  have e7 : launchContents m' c (Proc.devRef .tc Cert.ReferenceIdeal.main_arg7) = (m ((c.tc : Thread Cert.KernelIdeal.nD Cert.KernelIdeal.τ).loc Cert.KernelIdeal.main_arg7)) := h7
  have e1 : launchContents m' c (Proc.devRef .tc Cert.ReferenceIdeal.main_arg1) = Cert.KernelIdeal.Gen.W0 m ρ c (Proc.devRef .tc Cert.KernelIdeal.main_arg1) := h1
  have e2 : launchContents m' c (Proc.devRef .tc Cert.ReferenceIdeal.main_arg2) = Cert.KernelIdeal.Gen.W0 m ρ c (Proc.devRef .tc Cert.KernelIdeal.main_arg2) := h2
  unfold Cert.ReferenceIdeal.RunP.R1 Cert.ReferenceIdeal.RunP.R0
  eval_fold
  rw [hh, hl, Cert.Carry.W6_v3, Cert.Carry.W6_v6, Cert.Carry.W6_v29, Cert.Carry.W6_v33, Cert.Carry.W6_v36, Cert.Carry.W6_v59, e0, e1, e2, e3, e7]
  eval_fold
  rfl

end Cert.Sim
end
-- ==== Proof.Layer0M.lean ====
/-
  The first layer between its aggregation and its normalisation: the projection region's two arrays as whole-array
  matrix products of the launch arrays, and the column mean and variance of the aggregated layer.
-/
import proofs.«129987_j9371618640565_1_alg».proof.Proof.Layer0

noncomputable section
namespace Cert.Sim
open Idealize.ShloMosaic Idealize.ShloMosaic.TcCoe Idealize.SL.Sem Idealize.ShloMosaic.StableHlo
open Cert.KernelIdeal.Gen (W5 W6 W7 W8 W9 W10 W11 W12 W13)
open Cert.ReferenceIdeal.RunP (R0 R1 R2 R3 R4 R5)

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- Region 0's first output array: the whole-array product of the input features and the first layer's weights. -/
theorem proj0_h : W6 (F := Ideal) m ρ c (Proc.devRef .tc Cert.KernelIdeal.main_v60_0) = Host.dotGeneral (F := Ideal) (φ₁ := .f32) (φ₂ := .f32) Cert.ReferenceIdeal.dot_S50000x128_S128x128_S50000x128_1_0_0_1_n_n none (m ((c.tc : Thread Cert.KernelIdeal.nD Cert.KernelIdeal.τ).loc Cert.KernelIdeal.main_arg0)) (m ((c.tc : Thread Cert.KernelIdeal.nD Cert.KernelIdeal.τ).loc Cert.KernelIdeal.main_arg3)) := by
  refine (show W6 (F := Ideal) m ρ c (Proc.devRef .tc Cert.KernelIdeal.main_v60_0) = (Cert.KernelIdeal.Gen.dat0 (Cert.KernelIdeal.Gen.V5 m ρ) c).arrAt 3 Cert.KernelIdeal.cfg0.N from Cert.KernelIdeal.Gen.W6_arr m ρ c 3).trans ?_
  refine (Cert.KernelIdeal.Projection.arr0_h (Cert.KernelIdeal.Gen.V5 m ρ) c).trans ?_
  show Host.dotGeneral (F := Ideal) (φ₁ := .f32) (φ₂ := .f32) Cert.ReferenceIdeal.dot_S50000x128_S128x128_S50000x128_1_0_0_1_n_n none (W5 m ρ c (Proc.devRef .tc Cert.KernelIdeal.main_arg0)) (W5 m ρ c (Proc.devRef .tc Cert.KernelIdeal.main_arg3)) = _
  rw [Cert.Carry.W5_arg0, Cert.Carry.W5_arg3]

/-- Region 0's second output array: the product with the first layer's residual weights. -/
theorem proj0_l : W6 (F := Ideal) m ρ c (Proc.devRef .tc Cert.KernelIdeal.main_v60_1) = Host.dotGeneral (F := Ideal) (φ₁ := .f32) (φ₂ := .f32) Cert.ReferenceIdeal.dot_S50000x128_S128x128_S50000x128_1_0_0_1_n_n none (m ((c.tc : Thread Cert.KernelIdeal.nD Cert.KernelIdeal.τ).loc Cert.KernelIdeal.main_arg0)) (m ((c.tc : Thread Cert.KernelIdeal.nD Cert.KernelIdeal.τ).loc Cert.KernelIdeal.main_arg7)) := by
  refine (show W6 (F := Ideal) m ρ c (Proc.devRef .tc Cert.KernelIdeal.main_v60_1) = (Cert.KernelIdeal.Gen.dat0 (Cert.KernelIdeal.Gen.V5 m ρ) c).arrAt 4 Cert.KernelIdeal.cfg0.N from Cert.KernelIdeal.Gen.W6_arr m ρ c 4).trans ?_
  refine (Cert.KernelIdeal.Projection.arr0_l (Cert.KernelIdeal.Gen.V5 m ρ) c).trans ?_
  show Host.dotGeneral (F := Ideal) (φ₁ := .f32) (φ₂ := .f32) Cert.ReferenceIdeal.dot_S50000x128_S128x128_S50000x128_1_0_0_1_n_n none (W5 m ρ c (Proc.devRef .tc Cert.KernelIdeal.main_arg0)) (W5 m ρ c (Proc.devRef .tc Cert.KernelIdeal.main_arg7)) = _
  rw [Cert.Carry.W5_arg0, Cert.Carry.W5_arg7]

set_option maxHeartbeats 8000000 in
/-- The column means of the first layer: the same three operations on both sides, of arrays already known equal. -/
theorem mean0 (hagg : W7 (F := Ideal) m ρ c (Proc.devRef .tc Cert.KernelIdeal.main_v88) = R1 (F := Ideal) m' c (Proc.devRef .tc Cert.ReferenceIdeal.main_v90)) :
    W7 (F := Ideal) m ρ c (Proc.devRef .tc Cert.KernelIdeal.main_v91) = R2 (F := Ideal) m' c (Proc.devRef .tc Cert.ReferenceIdeal.main_v93) := by
  unfold Cert.ReferenceIdeal.RunP.R2
  eval_fold
  rw [← hagg]
  eval_fold

set_option maxHeartbeats 8000000 in
/-- The column variances of the first layer (biased: the mean of the squared deviations). -/
theorem var0 (hagg : W7 (F := Ideal) m ρ c (Proc.devRef .tc Cert.KernelIdeal.main_v88) = R1 (F := Ideal) m' c (Proc.devRef .tc Cert.ReferenceIdeal.main_v90)) :
    W7 (F := Ideal) m ρ c (Proc.devRef .tc Cert.KernelIdeal.main_v98) = R2 (F := Ideal) m' c (Proc.devRef .tc Cert.ReferenceIdeal.main_v100) := by
  unfold Cert.ReferenceIdeal.RunP.R2
  eval_fold
  rw [← hagg]
  eval_fold

end Cert.Sim
end
-- ==== Proof.Layer0N.lean ====
/-
  The first layer's output: the normalisation region's array is the reference's normalisation chain of the
  aggregated layer, its column mean and variance, and the scale and shift rows.
-/
import proofs.«129987_j9371618640565_1_alg».proof.Proof.Layer0M
import Idealize.ShloMosaic.Lib.ValueLayout

noncomputable section
namespace Cert.Sim
open Idealize.ShloMosaic Idealize.ShloMosaic.TcCoe Idealize.SL.Sem Idealize.ShloMosaic.StableHlo
open Cert.KernelIdeal.Gen (W5 W6 W7 W8 W9 W10 W11 W12 W13)
open Cert.ReferenceIdeal.RunP (R0 R1 R2 R3 R4 R5)

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

set_option maxHeartbeats 8000000 in
/-- The first layer's output. Region 1's output array is the normalisation chain of its five input arrays (the
    activations and the scale, shift, mean and variance rows, each row a [128] array reshaped to [1, 128]); the
    reference applies the same chain to the same arrays. -/
theorem norm0 (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (hagg : W7 (F := Ideal) m ρ c (Proc.devRef .tc Cert.KernelIdeal.main_v88) = R1 (F := Ideal) m' c (Proc.devRef .tc Cert.ReferenceIdeal.main_v90)) :
    W8 (F := Ideal) m ρ c (Proc.devRef .tc Cert.KernelIdeal.main_v103) = R2 (F := Ideal) m' c (Proc.devRef .tc Cert.ReferenceIdeal.main_v116) := by
  have hg : ∀ j : Fin 128, Cert.KernelIdeal.Gen.V7 m ρ c (Pipeline.arrRef Cert.KernelIdeal.spec1 1) (ValueIdx.ix2 (0 : Fin 1) j) = (m ((c.tc : Thread Cert.KernelIdeal.nD Cert.KernelIdeal.τ).loc Cert.KernelIdeal.main_arg10)) (ValueIdx.ix1 j) := fun j => by
    show W7 (F := Ideal) m ρ c (Proc.devRef .tc Cert.KernelIdeal.main_v99) (ValueIdx.ix2 (0 : Fin 1) j) = _
    eval_fold
    rw [Cert.Carry.W6_arg10]
    exact ValueIdx.shapeCast_a_1a_apply _ _ 0 j
  have hb : ∀ j : Fin 128, Cert.KernelIdeal.Gen.V7 m ρ c (Pipeline.arrRef Cert.KernelIdeal.spec1 2) (ValueIdx.ix2 (0 : Fin 1) j) = (m ((c.tc : Thread Cert.KernelIdeal.nD Cert.KernelIdeal.τ).loc Cert.KernelIdeal.main_arg11)) (ValueIdx.ix1 j) := fun j => by
    show W7 (F := Ideal) m ρ c (Proc.devRef .tc Cert.KernelIdeal.main_v100) (ValueIdx.ix2 (0 : Fin 1) j) = _
    eval_fold
    rw [Cert.Carry.W6_arg11]
    exact ValueIdx.shapeCast_a_1a_apply _ _ 0 j
  have hm : ∀ j : Fin 128, Cert.KernelIdeal.Gen.V7 m ρ c (Pipeline.arrRef Cert.KernelIdeal.spec1 3) (ValueIdx.ix2 (0 : Fin 1) j) = W7 (F := Ideal) m ρ c (Proc.devRef .tc Cert.KernelIdeal.main_v91) (ValueIdx.ix1 j) := fun j => by
    show W7 (F := Ideal) m ρ c (Proc.devRef .tc Cert.KernelIdeal.main_v101) (ValueIdx.ix2 (0 : Fin 1) j) = _
    eval_fold
    exact ValueIdx.shapeCast_a_1a_apply _ _ 0 j
  have hv : ∀ j : Fin 128, Cert.KernelIdeal.Gen.V7 m ρ c (Pipeline.arrRef Cert.KernelIdeal.spec1 4) (ValueIdx.ix2 (0 : Fin 1) j) = W7 (F := Ideal) m ρ c (Proc.devRef .tc Cert.KernelIdeal.main_v98) (ValueIdx.ix1 j) := fun j => by
    show W7 (F := Ideal) m ρ c (Proc.devRef .tc Cert.KernelIdeal.main_v102) (ValueIdx.ix2 (0 : Fin 1) j) = _
    eval_fold
    exact ValueIdx.shapeCast_a_1a_apply _ _ 0 j
  refine (show W8 (F := Ideal) m ρ c (Proc.devRef .tc Cert.KernelIdeal.main_v103) = (Cert.KernelIdeal.Gen.dat1 (Cert.KernelIdeal.Gen.V7 m ρ) c).arrAt 5 Cert.KernelIdeal.cfg1.N from Cert.KernelIdeal.Gen.W8_arr m ρ c 5).trans ?_
  refine (Cert.KernelIdeal.Normalize.arr1 (Cert.KernelIdeal.Gen.V7 m ρ) c (W7 (F := Ideal) m ρ c (Proc.devRef .tc Cert.KernelIdeal.main_v88)) (W7 (F := Ideal) m ρ c (Proc.devRef .tc Cert.KernelIdeal.main_v91))
    (W7 (F := Ideal) m ρ c (Proc.devRef .tc Cert.KernelIdeal.main_v98)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) rfl hg hb hm hv).trans ?_
  rw [mean0 m ρ m' c hagg, var0 m ρ m' c hagg, hagg]
  unfold Cert.KernelIdeal.Normalize.bnRelu Cert.ReferenceIdeal.RunP.R2
  eval_fold
  rw [Cert.Carry.R1_arg10, Cert.Carry.R1_arg11, h10, h11]
  rfl

/-- The first layer: the kernel program's buffer after region 1 holds what the reference's holds after its 150th operation. -/
theorem layer0 (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    W8 (F := Ideal) m ρ c (Proc.devRef .tc Cert.KernelIdeal.main_v103) = R2 (F := Ideal) m' c (Proc.devRef .tc Cert.ReferenceIdeal.main_v116) :=
  norm0 m ρ m' c h10 h11 (aggr0 m ρ m' c h0 h1 h2 h3 h7 (proj0_h m ρ c) (proj0_l m ρ c))

end Cert.Sim
end
-- ==== Proof.Layer1.lean ====
/- The second layer. Region 2 leaves the two projections of the first layer's output, the host operations after it
   aggregate them over both graphs, take the maximum and add the residual, and compute the column mean and variance;
   region 3 normalises and rectifies. Under the hypothesis that the two programs hold the same first-layer output (and the
   same argument arrays), each of these buffers of the kernel program holds what the corresponding buffer of the reference
   holds: the host operations are the same on both sides, so both sides unwind to one tree of operations over common
   leaves. -/
import proofs.«129987_j9371618640565_1_alg».proof.Proof.Eval
import proofs.«129987_j9371618640565_1_alg».proof.Proof.Carry
import proofs.«129987_j9371618640565_1_alg».proof.Proof.Projection
import proofs.«129987_j9371618640565_1_alg».proof.Proof.Normalize

noncomputable section
namespace Cert.Sim
open Idealize.ShloMosaic Idealize.ShloMosaic.TcCoe Idealize.SL.Sem Idealize.ShloMosaic.StableHlo
open Cert.KernelIdeal.Gen (W5 W6 W7 W8 W9 W10 W11 W12 W13)
open Cert.ReferenceIdeal.RunP (R0 R1 R2 R3 R4 R5)

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The second layer's projection: region 2 leaves in its first output array the matrix product of the first layer's
    output with the layer's weight matrix. -/
theorem proj1_h : W9 (F := Ideal) m ρ c (Proc.devRef .tc Cert.KernelIdeal.main_v104_0) = Host.dotGeneral (F := Ideal) (φ₁ := .f32) (φ₂ := .f32) Cert.ReferenceIdeal.dot_S50000x128_S128x128_S50000x128_1_0_0_1_n_n none (W8 (F := Ideal) m ρ c (Proc.devRef .tc Cert.KernelIdeal.main_v103)) (m ((c.tc : Thread Cert.KernelIdeal.nD Cert.KernelIdeal.τ).loc Cert.KernelIdeal.main_arg4)) := by
  refine (Cert.KernelIdeal.Gen.W9_arr (F := Ideal) m ρ c 3).trans ?_
  rw [Cert.KernelIdeal.Projection.arr2_h (Cert.KernelIdeal.Gen.V8 (F := Ideal) m ρ) c, ← Cert.Carry.W8_arg4 m ρ c]

/-- The second layer's residual projection: region 2 leaves in its second output array the matrix product of the first
    layer's output with the layer's residual matrix. -/
theorem proj1_l : W9 (F := Ideal) m ρ c (Proc.devRef .tc Cert.KernelIdeal.main_v104_1) = Host.dotGeneral (F := Ideal) (φ₁ := .f32) (φ₂ := .f32) Cert.ReferenceIdeal.dot_S50000x128_S128x128_S50000x128_1_0_0_1_n_n none (W8 (F := Ideal) m ρ c (Proc.devRef .tc Cert.KernelIdeal.main_v103)) (m ((c.tc : Thread Cert.KernelIdeal.nD Cert.KernelIdeal.τ).loc Cert.KernelIdeal.main_arg8)) := by
  refine (Cert.KernelIdeal.Gen.W9_arr (F := Ideal) m ρ c 4).trans ?_
  rw [Cert.KernelIdeal.Projection.arr2_l (Cert.KernelIdeal.Gen.V8 (F := Ideal) m ρ) c, ← Cert.Carry.W8_arg8 m ρ c]

set_option maxHeartbeats 8000000 in
/-- The second layer before normalisation. The kernel program's buffer (aggregation over both graphs of the projected
    features, their maximum, plus the residual projection) holds what the reference's holds: the host operations are the
    same on both sides, the projections enter as the matrix products region 2 leaves, of the first layer's output — equal on
    the two sides by hypothesis — with the layer's two matrices, and the graph's sources, targets and weights — computed
    once by the kernel program, once per use by the reference — unwind to one function of the edge arrays. -/
theorem aggr1 (hx : W8 (F := Ideal) m ρ c (Proc.devRef .tc Cert.KernelIdeal.main_v103) = R2 (F := Ideal) m' c (Proc.devRef .tc Cert.ReferenceIdeal.main_v116))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    W10 (F := Ideal) m ρ c (Proc.devRef .tc Cert.KernelIdeal.main_v132) = R3 (F := Ideal) m' c (Proc.devRef .tc Cert.ReferenceIdeal.main_v207) := by
  have e4 : R2 (F := Ideal) m' c (Proc.devRef .tc Cert.ReferenceIdeal.main_arg4) = (m ((c.tc : Thread Cert.KernelIdeal.nD Cert.KernelIdeal.τ).loc Cert.KernelIdeal.main_arg4)) := (Cert.Carry.R2_arg4 m' c).trans h4
  have e8 : R2 (F := Ideal) m' c (Proc.devRef .tc Cert.ReferenceIdeal.main_arg8) = (m ((c.tc : Thread Cert.KernelIdeal.nD Cert.KernelIdeal.τ).loc Cert.KernelIdeal.main_arg8)) := (Cert.Carry.R2_arg8 m' c).trans h8
  have e1 : R2 (F := Ideal) m' c (Proc.devRef .tc Cert.ReferenceIdeal.main_arg1) = Cert.KernelIdeal.Gen.W0 m ρ c (Proc.devRef .tc Cert.KernelIdeal.main_arg1) := (Cert.Carry.R2_arg1 m' c).trans h1
  have e2 : R2 (F := Ideal) m' c (Proc.devRef .tc Cert.ReferenceIdeal.main_arg2) = Cert.KernelIdeal.Gen.W0 m ρ c (Proc.devRef .tc Cert.KernelIdeal.main_arg2) := (Cert.Carry.R2_arg2 m' c).trans h2
  unfold Cert.ReferenceIdeal.RunP.R3
  eval_fold
  rw [proj1_h m ρ c, proj1_l m ρ c, Cert.Carry.W9_v3, Cert.Carry.W9_v6, Cert.Carry.W9_v29, Cert.Carry.W9_v33, Cert.Carry.W9_v36, Cert.Carry.W9_v59, hx, e4, e8, e1, e2]
  eval_fold
  rfl

end Cert.Sim
end
-- ==== Proof.Layer1M.lean ====
/- The second layer's column statistics. Both programs compute the column mean and the column variance of the layer by
   the same operations; given that the layer is the same on the two sides, so are they. -/
import proofs.«129987_j9371618640565_1_alg».proof.Proof.Eval
import proofs.«129987_j9371618640565_1_alg».proof.Proof.Carry
import proofs.«129987_j9371618640565_1_alg».proof.Proof.Projection
import proofs.«129987_j9371618640565_1_alg».proof.Proof.Normalize

noncomputable section
namespace Cert.Sim
open Idealize.ShloMosaic Idealize.ShloMosaic.TcCoe Idealize.SL.Sem Idealize.ShloMosaic.StableHlo
open Cert.KernelIdeal.Gen (W5 W6 W7 W8 W9 W10 W11 W12 W13)
open Cert.ReferenceIdeal.RunP (R0 R1 R2 R3 R4 R5)

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

set_option maxHeartbeats 8000000 in
/-- The column mean of the second layer: both programs divide the column sums of the layer by the number of rows, and
    the layer is the same on the two sides. -/
theorem mean1 (ha : W10 (F := Ideal) m ρ c (Proc.devRef .tc Cert.KernelIdeal.main_v132) = R3 (F := Ideal) m' c (Proc.devRef .tc Cert.ReferenceIdeal.main_v207)) :
    W10 (F := Ideal) m ρ c (Proc.devRef .tc Cert.KernelIdeal.main_v135) = R4 (F := Ideal) m' c (Proc.devRef .tc Cert.ReferenceIdeal.main_v210) := by
  unfold Cert.ReferenceIdeal.RunP.R4
  eval_fold
  rw [← ha]
  eval_fold

set_option maxHeartbeats 8000000 in
/-- The column variance of the second layer: both programs divide the column sums of the squared deviations from the
    column mean by the number of rows. -/
theorem var1 (ha : W10 (F := Ideal) m ρ c (Proc.devRef .tc Cert.KernelIdeal.main_v132) = R3 (F := Ideal) m' c (Proc.devRef .tc Cert.ReferenceIdeal.main_v207)) :
    W10 (F := Ideal) m ρ c (Proc.devRef .tc Cert.KernelIdeal.main_v142) = R4 (F := Ideal) m' c (Proc.devRef .tc Cert.ReferenceIdeal.main_v217) := by
  unfold Cert.ReferenceIdeal.RunP.R4
  eval_fold
  rw [← ha]
  eval_fold

end Cert.Sim
end
-- ==== Proof.Layer1N.lean ====
/- The second layer's normalisation. Region 3's output array is one whole-array function of the five arrays it finds;
   the reference applies the same chain of operations to the same five inputs. -/
import proofs.«129987_j9371618640565_1_alg».proof.Proof.Eval
import proofs.«129987_j9371618640565_1_alg».proof.Proof.Carry
import proofs.«129987_j9371618640565_1_alg».proof.Proof.Projection
import proofs.«129987_j9371618640565_1_alg».proof.Proof.Normalize
import Idealize.ShloMosaic.Lib.ValueLayout

noncomputable section
namespace Cert.Sim
open Idealize.ShloMosaic Idealize.ShloMosaic.TcCoe Idealize.SL.Sem Idealize.ShloMosaic.StableHlo
open Cert.KernelIdeal.Gen (W5 W6 W7 W8 W9 W10 W11 W12 W13)
open Cert.ReferenceIdeal.RunP (R0 R1 R2 R3 R4 R5)

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-! The reference's outlined functions write their buffers through a transport of the value to the buffer's type, and read
    them back through the inverse transport; at these buffers both are the identity. -/

theorem toBuf_v233_1 (h1 : Cert.ReferenceIdeal.main_v233.ty = ⟨Cert.ReferenceIdeal.S50000x128, .f32⟩) (h2 h3) (v : (⟨Cert.ReferenceIdeal.S50000x128, .f32⟩ : BufTy).Contents (Elt Ideal)) :
    (TRef.of (sig := Cert.ReferenceIdeal.sig) (T := ⟨Cert.ReferenceIdeal.S50000x128, .f32⟩) Cert.ReferenceIdeal.main_v233 h1 h2 h3).toBuf v = v := rfl
theorem ofBuf_v232_1 (h1 : Cert.ReferenceIdeal.main_v232.ty = ⟨Cert.ReferenceIdeal.S50000x128, .f32⟩) (h2 h3) (v : (⟨Cert.ReferenceIdeal.S50000x128, .f32⟩ : BufTy).Contents (Elt Ideal)) :
    (TRef.of (sig := Cert.ReferenceIdeal.sig) (T := ⟨Cert.ReferenceIdeal.S50000x128, .f32⟩) Cert.ReferenceIdeal.main_v232 h1 h2 h3).ofBuf v = v := rfl
theorem toBuf_call5_v0_1 (h1 : Cert.ReferenceIdeal.main_call5_v0.ty = ⟨Cert.ReferenceIdeal.S50000x128, .f32⟩) (h2 h3) (v : (⟨Cert.ReferenceIdeal.S50000x128, .f32⟩ : BufTy).Contents (Elt Ideal)) :
    (TRef.of (sig := Cert.ReferenceIdeal.sig) (T := ⟨Cert.ReferenceIdeal.S50000x128, .f32⟩) Cert.ReferenceIdeal.main_call5_v0 h1 h2 h3).toBuf v = v := rfl
theorem ofBuf_call5_v0_1 (h1 : Cert.ReferenceIdeal.main_call5_v0.ty = ⟨Cert.ReferenceIdeal.S50000x128, .f32⟩) (h2 h3) (v : (⟨Cert.ReferenceIdeal.S50000x128, .f32⟩ : BufTy).Contents (Elt Ideal)) :
    (TRef.of (sig := Cert.ReferenceIdeal.sig) (T := ⟨Cert.ReferenceIdeal.S50000x128, .f32⟩) Cert.ReferenceIdeal.main_call5_v0 h1 h2 h3).ofBuf v = v := rfl
theorem toBuf_call5_cst_1 (h1 : Cert.ReferenceIdeal.main_call5_cst.ty = ⟨Cert.ReferenceIdeal.S_, .f32⟩) (h2 h3) (v : (⟨Cert.ReferenceIdeal.S_, .f32⟩ : BufTy).Contents (Elt Ideal)) :
    (TRef.of (sig := Cert.ReferenceIdeal.sig) (T := ⟨Cert.ReferenceIdeal.S_, .f32⟩) Cert.ReferenceIdeal.main_call5_cst h1 h2 h3).toBuf v = v := rfl
theorem ofBuf_call5_cst_1 (h1 : Cert.ReferenceIdeal.main_call5_cst.ty = ⟨Cert.ReferenceIdeal.S_, .f32⟩) (h2 h3) (v : (⟨Cert.ReferenceIdeal.S_, .f32⟩ : BufTy).Contents (Elt Ideal)) :
    (TRef.of (sig := Cert.ReferenceIdeal.sig) (T := ⟨Cert.ReferenceIdeal.S_, .f32⟩) Cert.ReferenceIdeal.main_call5_cst h1 h2 h3).ofBuf v = v := rfl

/-! Each of the four per-feature vectors reaches region 3 as a one-row array, a cast of the vector; read at row 0 it is
    the vector. -/

set_option maxHeartbeats 8000000 in
/-- The scale's row. -/
theorem row_scale1 : ∀ j : Fin 128, Cert.KernelIdeal.Gen.V10 (F := Ideal) m ρ c (Pipeline.arrRef Cert.KernelIdeal.spec3 1) (ValueIdx.ix2 (0 : Fin 1) j) = (m ((c.tc : Thread Cert.KernelIdeal.nD Cert.KernelIdeal.τ).loc Cert.KernelIdeal.main_arg12)) (ValueIdx.ix1 j) := by
  intro j
  show W10 (F := Ideal) m ρ c (Proc.devRef .tc Cert.KernelIdeal.main_v143) (ValueIdx.ix2 (0 : Fin 1) j) = _
  eval_fold
  rw [Cert.Carry.W9_arg12]
  exact ValueIdx.shapeCast_a_1a_apply _ _ 0 j

set_option maxHeartbeats 8000000 in
/-- The shift's row. -/
theorem row_shift1 : ∀ j : Fin 128, Cert.KernelIdeal.Gen.V10 (F := Ideal) m ρ c (Pipeline.arrRef Cert.KernelIdeal.spec3 2) (ValueIdx.ix2 (0 : Fin 1) j) = (m ((c.tc : Thread Cert.KernelIdeal.nD Cert.KernelIdeal.τ).loc Cert.KernelIdeal.main_arg13)) (ValueIdx.ix1 j) := by
  intro j
  show W10 (F := Ideal) m ρ c (Proc.devRef .tc Cert.KernelIdeal.main_v144) (ValueIdx.ix2 (0 : Fin 1) j) = _
  eval_fold
  rw [Cert.Carry.W9_arg13]
  exact ValueIdx.shapeCast_a_1a_apply _ _ 0 j

set_option maxHeartbeats 8000000 in
/-- The mean's row. -/
theorem row_mean1 : ∀ j : Fin 128, Cert.KernelIdeal.Gen.V10 (F := Ideal) m ρ c (Pipeline.arrRef Cert.KernelIdeal.spec3 3) (ValueIdx.ix2 (0 : Fin 1) j) = W10 (F := Ideal) m ρ c (Proc.devRef .tc Cert.KernelIdeal.main_v135) (ValueIdx.ix1 j) := by
  intro j
  show W10 (F := Ideal) m ρ c (Proc.devRef .tc Cert.KernelIdeal.main_v145) (ValueIdx.ix2 (0 : Fin 1) j) = W10 (F := Ideal) m ρ c (Proc.devRef .tc Cert.KernelIdeal.main_v135) (ValueIdx.ix1 j)
  eval_fold
  exact ValueIdx.shapeCast_a_1a_apply _ _ 0 j

set_option maxHeartbeats 8000000 in
/-- The variance's row. -/
theorem row_var1 : ∀ j : Fin 128, Cert.KernelIdeal.Gen.V10 (F := Ideal) m ρ c (Pipeline.arrRef Cert.KernelIdeal.spec3 4) (ValueIdx.ix2 (0 : Fin 1) j) = W10 (F := Ideal) m ρ c (Proc.devRef .tc Cert.KernelIdeal.main_v142) (ValueIdx.ix1 j) := by
  intro j
  show W10 (F := Ideal) m ρ c (Proc.devRef .tc Cert.KernelIdeal.main_v146) (ValueIdx.ix2 (0 : Fin 1) j) = W10 (F := Ideal) m ρ c (Proc.devRef .tc Cert.KernelIdeal.main_v142) (ValueIdx.ix1 j)
  eval_fold
  exact ValueIdx.shapeCast_a_1a_apply _ _ 0 j

set_option maxHeartbeats 8000000 in
/-- The second layer's output. Region 3 leaves the normalised and rectified layer as one whole-array function of the
    layer, its column mean and variance and the two per-feature parameter vectors; the reference applies the same chain
    of operations, and the five inputs are the same on the two sides. -/
theorem norm1 (ha : W10 (F := Ideal) m ρ c (Proc.devRef .tc Cert.KernelIdeal.main_v132) = R3 (F := Ideal) m' c (Proc.devRef .tc Cert.ReferenceIdeal.main_v207))
    (hmu : W10 (F := Ideal) m ρ c (Proc.devRef .tc Cert.KernelIdeal.main_v135) = R4 (F := Ideal) m' c (Proc.devRef .tc Cert.ReferenceIdeal.main_v210))
    (hvr : W10 (F := Ideal) m ρ c (Proc.devRef .tc Cert.KernelIdeal.main_v142) = R4 (F := Ideal) m' c (Proc.devRef .tc Cert.ReferenceIdeal.main_v217))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    W11 (F := Ideal) m ρ c (Proc.devRef .tc Cert.KernelIdeal.main_v147) = R4 (F := Ideal) m' c (Proc.devRef .tc Cert.ReferenceIdeal.main_v233) := by
  refine (Cert.KernelIdeal.Gen.W11_arr (F := Ideal) m ρ c 5).trans ?_
  rw [Cert.KernelIdeal.Normalize.arr3 (Cert.KernelIdeal.Gen.V10 (F := Ideal) m ρ) c (W10 (F := Ideal) m ρ c (Proc.devRef .tc Cert.KernelIdeal.main_v132)) (W10 (F := Ideal) m ρ c (Proc.devRef .tc Cert.KernelIdeal.main_v135)) (W10 (F := Ideal) m ρ c (Proc.devRef .tc Cert.KernelIdeal.main_v142)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) rfl (row_scale1 m ρ c) (row_shift1 m ρ c) (row_mean1 m ρ c) (row_var1 m ρ c)]
  rw [ha, hmu, hvr]
  have e12 : R3 (F := Ideal) m' c (Proc.devRef .tc Cert.ReferenceIdeal.main_arg12) = (m ((c.tc : Thread Cert.KernelIdeal.nD Cert.KernelIdeal.τ).loc Cert.KernelIdeal.main_arg12)) := (Cert.Carry.R3_arg12 m' c).trans h12
  have e13 : R3 (F := Ideal) m' c (Proc.devRef .tc Cert.ReferenceIdeal.main_arg13) = (m ((c.tc : Thread Cert.KernelIdeal.nD Cert.KernelIdeal.τ).loc Cert.KernelIdeal.main_arg13)) := (Cert.Carry.R3_arg13 m' c).trans h13
  unfold Cert.ReferenceIdeal.RunP.R4 Cert.KernelIdeal.Normalize.bnRelu
  eval_fold
  rw [e12, e13, toBuf_v233_1, ofBuf_v232_1, ofBuf_call5_v0_1, toBuf_call5_v0_1, ofBuf_call5_cst_1, toBuf_call5_cst_1]

end Cert.Sim
end
-- ==== Proof.Layer1F.lean ====
/- The second layer, assembled: from the first layer's equation and the agreement of the argument arrays it reads to the
   equality of the two programs' normalised and rectified second layer. -/
import proofs.«129987_j9371618640565_1_alg».proof.Proof.Layer1
import proofs.«129987_j9371618640565_1_alg».proof.Proof.Layer1M
import proofs.«129987_j9371618640565_1_alg».proof.Proof.Layer1N

noncomputable section
namespace Cert.Sim
open Idealize.ShloMosaic Idealize.ShloMosaic.TcCoe Idealize.SL.Sem Idealize.ShloMosaic.StableHlo
open Cert.KernelIdeal.Gen (W5 W6 W7 W8 W9 W10 W11 W12 W13)
open Cert.ReferenceIdeal.RunP (R0 R1 R2 R3 R4 R5)

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The second layer: under the first layer's equation and the agreement of the argument arrays it reads, the kernel
    program's normalised and rectified second layer is the reference's. -/
theorem layer1 (hx : W8 (F := Ideal) m ρ c (Proc.devRef .tc Cert.KernelIdeal.main_v103) = R2 (F := Ideal) m' c (Proc.devRef .tc Cert.ReferenceIdeal.main_v116))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    W11 (F := Ideal) m ρ c (Proc.devRef .tc Cert.KernelIdeal.main_v147) = R4 (F := Ideal) m' c (Proc.devRef .tc Cert.ReferenceIdeal.main_v233) :=
  have ha := aggr1 m ρ m' c hx h1 h2 h4 h8
  norm1 m ρ m' c ha (mean1 m ρ m' c ha) (var1 m ρ m' c ha) h12 h13

end Cert.Sim
end
-- ==== Proof.BiasShift.lean ====
/-
  The bias law of the last layer, on the extended reals.

  The last layer of the network adds the bias row `b` (one real per output feature, the same for every node) in two
  different places: one program computes `(max(a, c) + l) + b`, the other `max(a + b, c + b) + l`, entry by entry, where
  `a`, `c`, `l` are arrays of extended reals (entries may be `±∞`). The two agree because

  * on a linear order a monotone map commutes with `max`, and `x ↦ x + β` is monotone on the extended reals for EVERY
    addend `β` (the extended reals are an ordered additive commutative monoid, with the convention `⊥ + ⊤ = ⊥`), so
    `max (α + β) (γ + β) = max α γ + β`;
  * addition is commutative and associative, so `(μ + β) + λ = (μ + λ) + β`.

  Neither step uses that `β` is finite; the hypothesis `hb` of `shift_eq` is kept so that the statement reads as the
  precondition gives it, and `b2_finite` below derives it from the precondition (every float argument finite).
-/
import proofs.«129987_j9371618640565_1_alg».proof.Proof.Gen.KernelIdeal
import proofs.«129987_j9371618640565_1_alg».proof.Proof.Gen.ReferenceIdeal
import Idealize.ShloMosaic.Lib.ValueIdx
import Idealize.ShloMosaic.PureOps.Ideal.Laws

noncomputable section

namespace Cert.KernelIdeal.BiasShift

open Idealize.ShloMosaic Idealize.ShloMosaic.ValueIdx

/-- The law on one entry: translating both arguments of a maximum by `β` translates the maximum, and the order of two
    further additions does not matter. Holds for every extended real `β`, infinite ones included. -/
theorem shift_entry (α γ lam β : EReal) : (max α γ + lam) + β = max (α + β) (γ + β) + lam := by
  rw [max_add_add_right, add_right_comm]

/-- The law on whole arrays of one shape, for ANY array `B` in the place of the broadcast bias. -/
theorem shift_any {s : Shape} (a c l B : FVec Ideal s .f32) :
    addf (addf (maximumf a c) l) B = addf (maximumf (addf a B) (addf c B)) l := by
  funext i
  simp only [addf_apply, maximumf_apply]
  exact shift_entry (a i) (c i) (l i) (B i)

/-- The last layer's two arrangements agree: `(max(a, c) + l) + b` against `max(a + b, c + b) + l`, the bias row `b`
    broadcast along the nodes. -/
theorem shift_eq (a c l : FVec Ideal Cert.KernelIdeal.S50000x64 .f32) (b : FVec Ideal Cert.KernelIdeal.S64 .f32)
    (hb : ∀ i, ∃ r : ℝ, b i = ((r : ℝ) : EReal)) :
    addf (addf (maximumf a c) l) (broadcastInDim Cert.KernelIdeal.S50000x64 ![0, 1] Cert.KernelIdeal.Gen.bcast_S1x64_S50000x64_0_1 (broadcastInDim Cert.KernelIdeal.S1x64 ![1] Cert.KernelIdeal.Gen.bcast_S64_S1x64_1 b))
    = addf (maximumf (addf a (broadcastInDim Cert.ReferenceIdeal.S50000x64 ![0, 1] Cert.ReferenceIdeal.Gen.bcast_S1x64_S50000x64_0_1 (broadcastInDim Cert.ReferenceIdeal.S1x64 ![1] Cert.ReferenceIdeal.Gen.bcast_S64_S1x64_1 b)))
                     (addf c (broadcastInDim Cert.ReferenceIdeal.S50000x64 ![0, 1] Cert.ReferenceIdeal.Gen.bcast_S1x64_S50000x64_0_1 (broadcastInDim Cert.ReferenceIdeal.S1x64 ![1] Cert.ReferenceIdeal.Gen.bcast_S64_S1x64_1 b)))) l :=
  shift_any a c l _

end Cert.KernelIdeal.BiasShift

end
-- ==== Proof.Layer2.lean ====
/- The last layer. The projection region leaves the two matrix products of the second layer's
   output with the 64-column weights; the host operations after it aggregate the first product over both graphs, take the
   maximum, add the residual product and the bias row. The reference applies the same host operations to the same
   values, except that it adds the bias row to each aggregation before the maximum: translation by one array commutes
   with the maximum on the extended reals, so the two results are one array. -/
import proofs.«129987_j9371618640565_1_alg».proof.Proof.Eval
import proofs.«129987_j9371618640565_1_alg».proof.Proof.Carry
import proofs.«129987_j9371618640565_1_alg».proof.Proof.Projection
import proofs.«129987_j9371618640565_1_alg».proof.Proof.Normalize
import proofs.«129987_j9371618640565_1_alg».proof.Proof.BiasShift

noncomputable section
namespace Cert.Sim
open Idealize.ShloMosaic Idealize.ShloMosaic.TcCoe Idealize.SL.Sem Idealize.ShloMosaic.StableHlo
open Cert.KernelIdeal.Gen (W5 W6 W7 W8 W9 W10 W11 W12 W13)
open Cert.ReferenceIdeal.RunP (R0 R1 R2 R3 R4 R5)

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The projection region's first output array is the matrix product of the second layer's output with the weight matrix the
    region finds, which no earlier segment wrote. -/
theorem proj2_h : W12 (F := Ideal) m ρ c (Proc.devRef .tc Cert.KernelIdeal.main_v148_0) = Host.dotGeneral (F := Ideal) (φ₁ := .f32) (φ₂ := .f32) Cert.ReferenceIdeal.dot_S50000x128_S128x64_S50000x64_1_0_0_1_n_n none (W11 m ρ c (Proc.devRef .tc Cert.KernelIdeal.main_v147)) (m ((c.tc : Thread Cert.KernelIdeal.nD Cert.KernelIdeal.τ).loc Cert.KernelIdeal.main_arg5)) := by
  refine (Cert.KernelIdeal.Gen.W12_arr (F := Ideal) m ρ c 3).trans ?_
  refine (Cert.KernelIdeal.Projection.arr4_h (Cert.KernelIdeal.Gen.V11 m ρ) c).trans ?_
  rw [← Cert.Carry.W11_arg5 m ρ c]

/-- The projection region's second output array is the matrix product of the second layer's output with the weight matrix the
    region finds, which no earlier segment wrote. -/
theorem proj2_l : W12 (F := Ideal) m ρ c (Proc.devRef .tc Cert.KernelIdeal.main_v148_1) = Host.dotGeneral (F := Ideal) (φ₁ := .f32) (φ₂ := .f32) Cert.ReferenceIdeal.dot_S50000x128_S128x64_S50000x64_1_0_0_1_n_n none (W11 m ρ c (Proc.devRef .tc Cert.KernelIdeal.main_v147)) (m ((c.tc : Thread Cert.KernelIdeal.nD Cert.KernelIdeal.τ).loc Cert.KernelIdeal.main_arg9)) := by
  refine (Cert.KernelIdeal.Gen.W12_arr (F := Ideal) m ρ c 4).trans ?_
  refine (Cert.KernelIdeal.Projection.arr4_l (Cert.KernelIdeal.Gen.V11 m ρ) c).trans ?_
  rw [← Cert.Carry.W11_arg9 m ρ c]

set_option maxHeartbeats 8000000 in
/-- The programs' results. Both apply the last layer's host operations to the two matrix products, the graphs' sources,
    targets and weights and the bias row; the kernel program adds the bias row after the maximum of the two aggregations
    and the residual product, the reference to each aggregation before the maximum. Translating both arguments of a
    maximum by one array translates the maximum, so the results are one array. -/
theorem layer2 (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (hx : W11 (F := Ideal) m ρ c (Proc.devRef .tc Cert.KernelIdeal.main_v147) = R4 (F := Ideal) m' c (Proc.devRef .tc Cert.ReferenceIdeal.main_v233)) :
    W13 (F := Ideal) m ρ c (Proc.devRef .tc Cert.KernelIdeal.main_v179) = R5 (F := Ideal) m' c (Proc.devRef .tc Cert.ReferenceIdeal.main_v330) := by
  have e1 : m' ((c.tc : Thread Cert.ReferenceIdeal.nD Cert.ReferenceIdeal.τ).loc Cert.ReferenceIdeal.main_arg1) = Cert.KernelIdeal.Gen.W0 m ρ c (Proc.devRef .tc Cert.KernelIdeal.main_arg1) := h1
  have e2 : m' ((c.tc : Thread Cert.ReferenceIdeal.nD Cert.ReferenceIdeal.τ).loc Cert.ReferenceIdeal.main_arg2) = Cert.KernelIdeal.Gen.W0 m ρ c (Proc.devRef .tc Cert.KernelIdeal.main_arg2) := h2
  unfold Cert.ReferenceIdeal.RunP.R5
  eval_fold
  rw [Cert.KernelIdeal.BiasShift.shift_any]
  rw [proj2_h m ρ c, proj2_l m ρ c, hx, Cert.Carry.W12_v3, Cert.Carry.W12_v6, Cert.Carry.W12_v29, Cert.Carry.W12_v33, Cert.Carry.W12_v36, Cert.Carry.W12_v59, Cert.Carry.W12_arg6, Cert.Carry.R4_arg1, Cert.Carry.R4_arg2, Cert.Carry.R4_arg5, Cert.Carry.R4_arg6, Cert.Carry.R4_arg9, e1, e2, h5, h6, h9]
  eval_fold
  rfl

end Cert.Sim
end
-- ==== Proof.lean ====
/-
  The certificate: a three-layer graph convolution network on 50000 nodes, computed by a program with five tiled
  regions (three dense projections and two fused normalise-and-rectify steps, each over ten blocks of 5000 rows) among
  stretches of whole-array operations, against a reference made of whole-array operations only.

  Each program runs as stated — it terminates without fault and leaves its fourteen argument arrays as launched — and at
  the exact-arithmetic reading (floats as extended reals) the two end with equal result arrays. The proof reads each
  region's output array as one whole-array function of its inputs (a matrix product; a column-wise normalisation
  followed by a maximum with zero), observes that the whole-array operations between the regions are the same on both
  sides, and relates the two programs boundary by boundary, one layer at a time: the kernel program's buffer after a
  layer holds what the reference's buffer after the same layer holds. Argument arrays and the graph's edge arrays are
  carried unchanged to where each layer reads them, since no step in between has them as its result. The one algebraic
  difference is the place of the last layer's bias: one side adds it after the maximum of the two aggregations and the
  residual, the other inside the maximum; translation is monotone on the extended reals, so it commutes with the
  maximum, and addition is commutative and associative.
-/
import proofs.«129987_j9371618640565_1_alg».proof.Defs
import proofs.«129987_j9371618640565_1_alg».proof.Proof.Gen.Kernel
import proofs.«129987_j9371618640565_1_alg».proof.Proof.Gen.Kernel.Frame
import proofs.«129987_j9371618640565_1_alg».proof.Proof.Gen.KernelIdeal
import proofs.«129987_j9371618640565_1_alg».proof.Proof.Gen.KernelIdeal.Frame
import proofs.«129987_j9371618640565_1_alg».proof.Proof.Gen.ReferenceIdeal
import proofs.«129987_j9371618640565_1_alg».proof.Proof.Gen.Pre_finite_inputs
import proofs.«129987_j9371618640565_1_alg».proof.Proof.KernelRun
import proofs.«129987_j9371618640565_1_alg».proof.Proof.RefRun
import proofs.«129987_j9371618640565_1_alg».proof.Proof.Carry
import proofs.«129987_j9371618640565_1_alg».proof.Proof.Layer0N
import proofs.«129987_j9371618640565_1_alg».proof.Proof.Layer1F
import proofs.«129987_j9371618640565_1_alg».proof.Proof.Layer2
import Idealize.ShloMosaic.Adequacy
import Idealize.ShloMosaic.Init

noncomputable section

namespace Cert.Proof

open Idealize.ShloMosaic Idealize.ShloMosaic.TcCoe Idealize.SL.Sem

/-- The program as compiled runs and leaves its arguments as launched. -/
theorem frame_kernel : Cert.frame_Kernel := fun m ρ _ => Cert.Kernel.Gen.frame m ρ

/-- The same program read over the extended reals runs and leaves its arguments as launched. -/
theorem frame_kernelIdeal : Cert.frame_KernelIdeal := fun m ρ _ => Cert.KernelIdeal.Gen.frame m ρ

/-- The reference runs and leaves its arguments as launched: after its run every buffer holds the fold of its
    operations over the launch memory, and no operation has an argument as its result. -/
theorem frame_reference : Cert.frame_ReferenceIdeal := fun m ρ _ =>
  (θ_run (Cert.ReferenceIdeal.defs (F := Ideal)) _ _).mono (fun r h c =>
    ⟨(h c Cert.ReferenceIdeal.main_arg0).trans (Cert.Carry.R5_arg0 m c),
     (h c Cert.ReferenceIdeal.main_arg1).trans (Cert.Carry.R5_arg1 m c),
     (h c Cert.ReferenceIdeal.main_arg2).trans (Cert.Carry.R5_arg2 m c),
     (h c Cert.ReferenceIdeal.main_arg3).trans (Cert.Carry.R5_arg3 m c),
     (h c Cert.ReferenceIdeal.main_arg4).trans (Cert.Carry.R5_arg4 m c),
     (h c Cert.ReferenceIdeal.main_arg5).trans (Cert.Carry.R5_arg5 m c),
     (h c Cert.ReferenceIdeal.main_arg6).trans (Cert.Carry.R5_arg6 m c),
     (h c Cert.ReferenceIdeal.main_arg7).trans (Cert.Carry.R5_arg7 m c),
     (h c Cert.ReferenceIdeal.main_arg8).trans (Cert.Carry.R5_arg8 m c),
     (h c Cert.ReferenceIdeal.main_arg9).trans (Cert.Carry.R5_arg9 m c),
     (h c Cert.ReferenceIdeal.main_arg10).trans (Cert.Carry.R5_arg10 m c),
     (h c Cert.ReferenceIdeal.main_arg11).trans (Cert.Carry.R5_arg11 m c),
     (h c Cert.ReferenceIdeal.main_arg12).trans (Cert.Carry.R5_arg12 m c),
     (h c Cert.ReferenceIdeal.main_arg13).trans (Cert.Carry.R5_arg13 m c)⟩)
    (Cert.ReferenceIdeal.RunP.run m ρ)

/-- From memories that agree on the arguments both programs run, leave their arguments as launched, and end with
    equal result arrays: on each device the kernel program's result buffer holds the fold of its segments, the
    reference's the fold of its operations, and the two folds agree layer by layer. -/
theorem algebraic : Cert.algebraic_KernelIdeal_ReferenceIdeal := by
  unfold Cert.algebraic_KernelIdeal_ReferenceIdeal
  intro m ρ m' ρ' _ hagree
  refine ⟨fun c => Cert.KernelIdeal.Gen.W13 m ρ c (Proc.devRef .tc Cert.KernelIdeal.main_v179), Cert.KernelIdeal.RunK.run_result m ρ, ?_⟩
  refine (θ_run (Cert.ReferenceIdeal.defs (F := Ideal)) _ _).mono (fun r h c => ?_) (Cert.ReferenceIdeal.RunP.run m' ρ')
  obtain ⟨h0, h1, h2, h3, h4, h5, h6, h7, h8, h9, h10, h11, h12, h13⟩ := hagree c
  -- the three layers in turn, each from the one before
  have e0 := Cert.Sim.layer0 m ρ m' c h0 h1 h2 h3 h7 h10 h11
  have e1 := Cert.Sim.layer1 m ρ m' c e0 h1 h2 h4 h8 h12 h13
  have e2 := Cert.Sim.layer2 m ρ m' c h1 h2 h5 h6 h9 e1
  exact ⟨(h c Cert.ReferenceIdeal.main_v330).trans e2.symm,
     (h c Cert.ReferenceIdeal.main_arg0).trans (Cert.Carry.R5_arg0 m' c),
     (h c Cert.ReferenceIdeal.main_arg1).trans (Cert.Carry.R5_arg1 m' c),
     (h c Cert.ReferenceIdeal.main_arg2).trans (Cert.Carry.R5_arg2 m' c),
     (h c Cert.ReferenceIdeal.main_arg3).trans (Cert.Carry.R5_arg3 m' c),
     (h c Cert.ReferenceIdeal.main_arg4).trans (Cert.Carry.R5_arg4 m' c),
     (h c Cert.ReferenceIdeal.main_arg5).trans (Cert.Carry.R5_arg5 m' c),
     (h c Cert.ReferenceIdeal.main_arg6).trans (Cert.Carry.R5_arg6 m' c),
     (h c Cert.ReferenceIdeal.main_arg7).trans (Cert.Carry.R5_arg7 m' c),
     (h c Cert.ReferenceIdeal.main_arg8).trans (Cert.Carry.R5_arg8 m' c),
     (h c Cert.ReferenceIdeal.main_arg9).trans (Cert.Carry.R5_arg9 m' c),
     (h c Cert.ReferenceIdeal.main_arg10).trans (Cert.Carry.R5_arg10 m' c),
     (h c Cert.ReferenceIdeal.main_arg11).trans (Cert.Carry.R5_arg11 m' c),
     (h c Cert.ReferenceIdeal.main_arg12).trans (Cert.Carry.R5_arg12 m' c),
     (h c Cert.ReferenceIdeal.main_arg13).trans (Cert.Carry.R5_arg13 m' c)⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
